-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8192x8192 : Shape := ⟨2, ![8192, 8192]⟩
abbrev S512x256 : Shape := ⟨2, ![512, 256]⟩
abbrev S512x1 : Shape := ⟨2, ![512, 1]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S512x256 : S_.BroadcastsInDim S512x256 (![] : Fin 0 → Fin S512x256.rank)
  reducesTo_S512x256_S_d0_1 : S512x256.ReducesTo [0, 1] S_
  bcast_S_S512x1 : S_.BroadcastsInDim S512x1 (![] : Fin 0 → Fin S512x1.rank)
  reducesTo_S512x1_S_d0_1 : S512x1.ReducesTo [0, 1] S_

variable [Facts]

def fn_part1 {F : FTy → Type} [FloatOps F] (main_v13 : IVec S_ 1) (main_v16 : IVec S512x1 1) : IVec S_ 1 :=
  let main_c_5 : IVec S_ 1 := constantI S_ 1 1#1
  let main_v17 : IVec S_ 1 := (fun x v => Host.reduce IntOp.andi x v reducesTo_S512x1_S_d0_1 h_S_) main_v16 main_c_5
  let main_v18 : IVec S_ 1 := andi main_v13 main_v17
  main_v18

def fn {F : FTy → Type} [FloatOps F] (main_arg0 : FVec F S8192x512 .f32) (main_arg1 : FVec F S8192x8192 .f32) (main_arg2 : FVec F S512x256 .f32) (main_arg3 : FVec F S512x1 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S512x256 .f32 := Host.absf main_arg2
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  let main_v14 : FVec F S512x1 .f32 := Host.absf main_arg3
  let main_cst_4 : FVec F S_ .f32 := constant S_ .f32 0x7F800000#32
  let main_v15 : FVec F S512x1 .f32 := broadcastInDim S512x1 ![] bcast_S_S512x1 main_cst_4
  let main_v16 : IVec S512x1 1 := cmpf .olt main_v14 main_v15
  fn_part1 (F := F) main_v13 main_v16
-- ==== Kernel.lean ====
abbrev S8192x512 : Shape := ⟨2, ![8192, 512]⟩
abbrev S8192x8192 : Shape := ⟨2, ![8192, 8192]⟩
abbrev S512x256 : Shape := ⟨2, ![512, 256]⟩
abbrev S512x1 : Shape := ⟨2, ![512, 1]⟩
abbrev S256x1 : Shape := ⟨2, ![256, 1]⟩
abbrev S1x256 : Shape := ⟨2, ![1, 256]⟩
abbrev S8192x256 : Shape := ⟨2, ![8192, 256]⟩
abbrev S8192x1 : Shape := ⟨2, ![8192, 1]⟩
abbrev S1024x512 : Shape := ⟨2, ![1024, 512]⟩
abbrev S1024x256 : Shape := ⟨2, ![1024, 256]⟩
abbrev S1024x1 : Shape := ⟨2, ![1024, 1]⟩
abbrev S1024 : Shape := ⟨1, ![1024]⟩
abbrev S1x8192 : Shape := ⟨2, ![1, 8192]⟩
abbrev S1x2048 : Shape := ⟨2, ![1, 2048]⟩
abbrev S512x2048 : Shape := ⟨2, ![512, 2048]⟩
abbrev S512 : Shape := ⟨1, ![512]⟩
abbrev S2048x256 : Shape := ⟨2, ![2048, 256]⟩

abbrev nBuf : Space → Nat
  | .hbm => 13
  | .vmem => 23
  | .smem => 0
  | _ => 0

abbrev bufTy : (tb : Table) → Fin (tcTables nBuf tb) → BufTy
  | .hbm, ⟨0, _⟩ => ⟨S8192x512, .f32⟩
  | .hbm, ⟨1, _⟩ => ⟨S8192x8192, .f32⟩
  | .hbm, ⟨2, _⟩ => ⟨S512x256, .f32⟩
  | .hbm, ⟨3, _⟩ => ⟨S512x1, .f32⟩
  | .hbm, ⟨4, _⟩ => ⟨S256x1, .f32⟩
  | .hbm, ⟨5, _⟩ => ⟨S1x256, .f32⟩
  | .hbm, ⟨6, _⟩ => ⟨S256x1, .f32⟩
  | .hbm, ⟨7, _⟩ => ⟨S1x256, .f32⟩
  | .hbm, ⟨8, _⟩ => ⟨S8192x256, .bf16⟩
  | .hbm, ⟨9, _⟩ => ⟨S8192x1, .f32⟩
  | .hbm, ⟨10, _⟩ => ⟨S8192x1, .f32⟩
  | .hbm, ⟨11, _⟩ => ⟨S1x8192, .f32⟩
  | .hbm, ⟨12, _⟩ => ⟨S8192x256, .f32⟩
  | .local _ .vmem, ⟨0, _⟩ => ⟨S1024x512, .f32⟩
  | .local _ .vmem, ⟨1, _⟩ => ⟨S1024x512, .f32⟩
  | .local _ .vmem, ⟨2, _⟩ => ⟨S512x256, .f32⟩
  | .local _ .vmem, ⟨3, _⟩ => ⟨S1x256, .f32⟩
  | .local _ .vmem, ⟨4, _⟩ => ⟨S1x256, .f32⟩
  | .local _ .vmem, ⟨5, _⟩ => ⟨S1024x256, .bf16⟩
  | .local _ .vmem, ⟨6, _⟩ => ⟨S1024x256, .bf16⟩
  | .local _ .vmem, ⟨7, _⟩ => ⟨S1024x1, .f32⟩
  | .local _ .vmem, ⟨8, _⟩ => ⟨S1024x1, .f32⟩
  | .local _ .vmem, ⟨9, _⟩ => ⟨S1024x1, .f32⟩
  | .local _ .vmem, ⟨10, _⟩ => ⟨S1024x1, .f32⟩
  | .local _ .vmem, ⟨11, _⟩ => ⟨S512x1, .f32⟩
  | .local _ .vmem, ⟨12, _⟩ => ⟨S512x1, .f32⟩
  | .local _ .vmem, ⟨13, _⟩ => ⟨S1x2048, .f32⟩
  | .local _ .vmem, ⟨14, _⟩ => ⟨S1x2048, .f32⟩
  | .local _ .vmem, ⟨15, _⟩ => ⟨S512x2048, .f32⟩
  | .local _ .vmem, ⟨16, _⟩ => ⟨S512x2048, .f32⟩
  | .local _ .vmem, ⟨17, _⟩ => ⟨S8192x256, .bf16⟩
  | .local _ .vmem, ⟨18, _⟩ => ⟨S512x256, .f32⟩
  | .local _ .vmem, ⟨19, _⟩ => ⟨S512x256, .f32⟩
  | .local _ .vmem, ⟨20, _⟩ => ⟨S512x1, .f32⟩
  | .local _ .vmem, ⟨21, _⟩ => ⟨S512x1, .f32⟩
  | .local _ .vmem, ⟨22, _⟩ => ⟨S512x256, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg4_1 : Ref sig .tc := ⟨.vmem, 19, rfl⟩
abbrev cc1_scratch0 : Ref sig .tc := ⟨.vmem, 20, rfl⟩
abbrev cc1_scratch1 : Ref sig .tc := ⟨.vmem, 21, rfl⟩
abbrev cc1_scratch2 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem4_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨2, ![16, 4], ![false, false]⟩

def k1_mult1 (i : grid1.Coords) : BitVec 32 :=
  let arg1 : BitVec 32 := BitVec.ofNat 32 (i 1).val
  let c2048_i32 : BitVec 32 := 2048#32
  let v37 : BitVec 32 := Scalar.muli arg1 c2048_i32
  v37
def k1_off1 (i : grid1.Coords) : Fin 2 → Nat :=
  let arg1 : BitVec 32 := BitVec.ofNat 32 (i 1).val
  let c2048_i32 : BitVec 32 := 2048#32
  let v37 : BitVec 32 := Scalar.muli arg1 c2048_i32
  let v38 : BitVec 32 := v37
  let v39 : Index := Scalar.indexCast v38
  let c0_17 : Index := 0#32
  ![v39.toNat, 0]
def k1_cond2 (i : grid1.Coords) : BitVec 1 :=
  let arg1 : BitVec 32 := BitVec.ofNat 32 (i 1).val
  let c3_i32 : BitVec 32 := 3#32
  let v54 : BitVec 1 := Scalar.cmpi .eq arg1 c3_i32
  let v55 : BitVec 32 := Scalar.extui v54
  let c0_i32_25 : BitVec 32 := 0#32
  let v56 : BitVec 1 := Scalar.cmpi .ne v55 c0_i32_25
  v56

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 1 → Memref sig .tc .vmem S8192x256 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S512x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  slices_S512x1_S256x1_0_0 : S512x1.Slices ![0, 0] S256x1
  shapeCasts_S256x1_S1x256 : S256x1.ShapeCasts S1x256
  slices_S512x1_S256x1_256_0 : S512x1.Slices ![256, 0] S256x1
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  inb_S1024x256_S1024x256_0_0 : ∀ a, (![0, 0] : Fin 2 → Nat) a + S1024x256.size a ≤ S1024x256.size a
  h_S1024x256 : 0 < S1024x256.numel
  packedbf16_S1024x256_S1024x256_0_0 : (Rect.unit (s := S1024x256) ![0, 0] S1024x256.size inb_S1024x256_S1024x256_0_0).PackedRows (EltTy.packing .bf16)
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  reduces_S1024x256_S1024 : S1024x256.Reduces [1] S1024
  shapeCasts_S1024_S1024x1 : S1024.ShapeCasts S1024x1
  inb_S1024x1_S1024x1_0_0 : ∀ a, (![0, 0] : Fin 2 → Nat) a + S1024x1.size a ≤ S1024x1.size a
  h_S1024x1 : 0 < S1024x1.numel
  shapeCasts_S8192x1_S1x8192 : S8192x1.ShapeCasts S1x8192
  inb_S512x1_S512x1_0_0 : ∀ a, (![0, 0] : Fin 2 → Nat) a + S512x1.size a ≤ S512x1.size a
  h_S512x1 : 0 < S512x1.numel
  shapeCasts_S512x1_S512x1 : S512x1.ShapeCasts S512x1
  shapeCasts_S512x256_S512x256 : S512x256.ShapeCasts S512x256
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S512x1_S512x2048 : S512x1.Broadcasts S512x2048
  broadcasts_S1x2048_S512x2048 : S1x2048.Broadcasts S512x2048
  inb_S512x2048_S512x2048_0_0 : ∀ a, (![0, 0] : Fin 2 → Nat) a + S512x2048.size a ≤ S512x2048.size a
  h_S512x2048 : 0 < S512x2048.numel
  reduces_S512x2048_S512 : S512x2048.Reduces [1] S512
  shapeCasts_S512_S512x1 : S512.ShapeCasts S512x1
  h_S2048x256 : 0 < S2048x256.numel
  shapeCasts_S2048x256_S2048x256 : S2048x256.ShapeCasts S2048x256
  broadcasts_S512x1_S512x256 : S512x1.Broadcasts S512x256
  dot_S1024x512_S512x256_S1024x256_1_0_0_1_n_n_wf : DotDims.WF S1024x512 S512x256 S1024x256 [1] [0] [0] [1] [] []
  dot_S512x2048_S2048x256_S512x256_1_0_0_1_n_n_wf : DotDims.WF S512x2048 S2048x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .f32 = 32 ∨ (Rect.block (s := S8192x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x256.size a ≤ S8192x256.size a
  hwx0_4 : ∀ i : grid0.Coords, EltTy.bits .bf16 = 32 ∨ (Rect.block (s := S8192x256) S1024x256.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1.size a ≤ S8192x1.size a
  hwx0_5 : ∀ i : grid0.Coords, EltTy.bits .f32 = 32 ∨ (Rect.block (s := S8192x1) S1024x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x1.size a ≤ S8192x1.size a
  hwx0_6 : ∀ i : grid0.Coords, EltTy.bits .f32 = 32 ∨ (Rect.block (s := S8192x1) S1024x1.size (cc0_transform_6 i) (hinb0_6 i)).WholeWords (EltTy.packing .f32)
  hrank1 : 0 < grid1.rank
  k1_mult1_dvd : ∀ i : grid1.Coords, 2048 ∣ (k1_mult1 i).toNat
  k1_off1_inb : ∀ i : grid1.Coords, ∀ a, (k1_off1 i) a + S2048x256.size a ≤ S8192x256.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1.size a ≤ S8192x1.size a
  hwx1_0 : ∀ i : grid1.Coords, EltTy.bits .f32 = 32 ∨ (Rect.block (s := S8192x1) S512x1.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048.size a ≤ S1x8192.size a
  hwx1_1 : ∀ i : grid1.Coords, EltTy.bits .f32 = 32 ∨ (Rect.block (s := S1x8192) S1x2048.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x2048.size a ≤ S8192x8192.size a
  hwx1_2 : ∀ i : grid1.Coords, EltTy.bits .f32 = 32 ∨ (Rect.block (s := S8192x8192) S512x2048.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S8192x256.size a ≤ S8192x256.size a
  hwx1_3 : ∀ i : grid1.Coords, EltTy.bits .bf16 = 32 ∨ (Rect.block (s := S8192x256) S8192x256.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x256.size a ≤ S8192x256.size a
  hwx1_4 : ∀ i : grid1.Coords, EltTy.bits .f32 = 32 ∨ (Rect.block (s := S8192x256) S512x256.size (cc1_transform_4 i) (hinb1_4 i)).WholeWords (EltTy.packing .f32)

variable [Facts₀]

def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf
def dot_S512x2048_S2048x256_S512x256_1_0_0_1_n_n : DotDims S512x2048 S2048x256 S512x256 where
  lhsContracting := [1]
  rhsContracting := [0]
  lhsNonContracting := [0]
  rhsNonContracting := [1]
  lhsBatch := []
  rhsBatch := []
  wf := dot_S512x2048_S2048x256_S512x256_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4_0) S1024x256.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4_1) S1024x1.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v4_2) S1024x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v4_1) S512x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S1x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S512x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4_0) S8192x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v6) S512x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S8192x512 : Shape := ⟨2, ![8192, 512]⟩
abbrev S8192x8192 : Shape := ⟨2, ![8192, 8192]⟩
abbrev S512x256 : Shape := ⟨2, ![512, 256]⟩
abbrev S512x1 : Shape := ⟨2, ![512, 1]⟩
abbrev S8192x256 : Shape := ⟨2, ![8192, 256]⟩
abbrev S256x1 : Shape := ⟨2, ![256, 1]⟩
abbrev S8192x1 : Shape := ⟨2, ![8192, 1]⟩
abbrev S1x8192 : Shape := ⟨2, ![1, 8192]⟩
abbrev S_ : Shape := ⟨0, ![]⟩
abbrev S8192 : Shape := ⟨1, ![8192]⟩

abbrev nBuf : Space → Nat
  | .hbm => 58
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x8192, .f32⟩
  | .hbm, ⟨2, _⟩ => ⟨S512x256, .f32⟩
  | .hbm, ⟨3, _⟩ => ⟨S512x1, .f32⟩
  | .hbm, ⟨4, _⟩ => ⟨S8192x256, .f32⟩
  | .hbm, ⟨5, _⟩ => ⟨S256x1, .f32⟩
  | .hbm, ⟨6, _⟩ => ⟨S256x1, .f32⟩
  | .hbm, ⟨7, _⟩ => ⟨S8192x1, .f32⟩
  | .hbm, ⟨8, _⟩ => ⟨S8192x1, .f32⟩
  | .hbm, ⟨9, _⟩ => ⟨S1x8192, .f32⟩
  | .hbm, ⟨10, _⟩ => ⟨S8192x8192, .f32⟩
  | .hbm, ⟨11, _⟩ => ⟨S8192x8192, .f32⟩
  | .hbm, ⟨12, _⟩ => ⟨S8192x8192, .f32⟩
  | .hbm, ⟨13, _⟩ => ⟨S_, .f32⟩
  | .hbm, ⟨14, _⟩ => ⟨S_, .f32⟩
  | .hbm, ⟨15, _⟩ => ⟨S8192x8192, .f32⟩
  | .hbm, ⟨16, _⟩ => ⟨S8192x8192, .i1⟩
  | .hbm, ⟨17, _⟩ => ⟨S_, .f32⟩
  | .hbm, ⟨18, _⟩ => ⟨S8192x8192, .f32⟩
  | .hbm, ⟨19, _⟩ => ⟨S8192x8192, .f32⟩
  | .hbm, ⟨20, _⟩ => ⟨S8192x8192, .f32⟩
  | .hbm, ⟨21, _⟩ => ⟨S_, .f32⟩
  | .hbm, ⟨22, _⟩ => ⟨S8192x8192, .f32⟩
  | .hbm, ⟨23, _⟩ => ⟨S8192x8192, .i1⟩
  | .hbm, ⟨24, _⟩ => ⟨S_, .f32⟩
  | .hbm, ⟨25, _⟩ => ⟨S_, .f32⟩
  | .hbm, ⟨26, _⟩ => ⟨S8192x8192, .f32⟩
  | .hbm, ⟨27, _⟩ => ⟨S8192x8192, .f32⟩
  | .hbm, ⟨28, _⟩ => ⟨S_, .f32⟩
  | .hbm, ⟨29, _⟩ => ⟨S8192, .f32⟩
  | .hbm, ⟨30, _⟩ => ⟨S_, .f32⟩
  | .hbm, ⟨31, _⟩ => ⟨S8192, .f32⟩
  | .hbm, ⟨32, _⟩ => ⟨S8192, .f32⟩
  | .hbm, ⟨33, _⟩ => ⟨S8192x1, .f32⟩
  | .hbm, ⟨34, _⟩ => ⟨S8192x8192, .f32⟩
  | .hbm, ⟨35, _⟩ => ⟨S8192x8192, .f32⟩
  | .hbm, ⟨36, _⟩ => ⟨S8192x8192, .f32⟩
  | .hbm, ⟨37, _⟩ => ⟨S_, .f32⟩
  | .hbm, ⟨38, _⟩ => ⟨S8192, .f32⟩
  | .hbm, ⟨39, _⟩ => ⟨S8192x1, .f32⟩
  | .hbm, ⟨40, _⟩ => ⟨S8192x8192, .f32⟩
  | .hbm, ⟨41, _⟩ => ⟨S8192x8192, .f32⟩
  | .hbm, ⟨42, _⟩ => ⟨S8192x256, .f32⟩
  | .hbm, ⟨43, _⟩ => ⟨S_, .f32⟩
  | .hbm, ⟨44, _⟩ => ⟨S8192x256, .f32⟩
  | .hbm, ⟨45, _⟩ => ⟨S8192x256, .i1⟩
  | .hbm, ⟨46, _⟩ => ⟨S_, .f32⟩
  | .hbm, ⟨47, _⟩ => ⟨S8192x256, .f32⟩
  | .hbm, ⟨48, _⟩ => ⟨S8192x256, .i1⟩
  | .hbm, ⟨49, _⟩ => ⟨S_, .f32⟩
  | .hbm, ⟨50, _⟩ => ⟨S_, .f32⟩
  | .hbm, ⟨51, _⟩ => ⟨S8192x256, .f32⟩
  | .hbm, ⟨52, _⟩ => ⟨S8192x256, .f32⟩
  | .hbm, ⟨53, _⟩ => ⟨S8192x256, .f32⟩
  | .hbm, ⟨54, _⟩ => ⟨S_, .f32⟩
  | .hbm, ⟨55, _⟩ => ⟨S8192x256, .f32⟩
  | .hbm, ⟨56, _⟩ => ⟨S8192x256, .f32⟩
  | .hbm, ⟨57, _⟩ => ⟨S8192x256, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_call0_cst : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_call1_v0 : Ref sig .tc := ⟨.hbm, 25, rfl⟩
abbrev main_call1_v1 : Ref sig .tc := ⟨.hbm, 26, rfl⟩
abbrev main_v12 : Ref sig .tc := ⟨.hbm, 27, rfl⟩
abbrev main_cst_2 : Ref sig .tc := ⟨.hbm, 28, rfl⟩
abbrev main_v13 : Ref sig .tc := ⟨.hbm, 29, rfl⟩
abbrev main_cst_3 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_call2_cst : Ref sig .tc := ⟨.hbm, 43, rfl⟩
abbrev main_call2_v0 : Ref sig .tc := ⟨.hbm, 44, rfl⟩
abbrev main_call2_v1 : Ref sig .tc := ⟨.hbm, 45, rfl⟩
abbrev main_call2_cst_0 : Ref sig .tc := ⟨.hbm, 46, rfl⟩
abbrev main_call2_v2 : Ref sig .tc := ⟨.hbm, 47, rfl⟩
abbrev main_call2_v3 : Ref sig .tc := ⟨.hbm, 48, rfl⟩
abbrev main_call2_cst_1 : Ref sig .tc := ⟨.hbm, 49, rfl⟩
abbrev main_call2_call0_v0 : Ref sig .tc := ⟨.hbm, 50, rfl⟩
abbrev main_call2_call0_v1 : Ref sig .tc := ⟨.hbm, 51, rfl⟩
abbrev main_call2_v4 : Ref sig .tc := ⟨.hbm, 52, rfl⟩
abbrev main_call2_v5 : Ref sig .tc := ⟨.hbm, 53, rfl⟩
abbrev main_call2_cst_2 : Ref sig .tc := ⟨.hbm, 54, rfl⟩
abbrev main_call2_v6 : Ref sig .tc := ⟨.hbm, 55, rfl⟩
abbrev main_call2_v7 : Ref sig .tc := ⟨.hbm, 56, rfl⟩
abbrev main_v25 : Ref sig .tc := ⟨.hbm, 57, rfl⟩

abbrev nD : Nat := 1
abbrev τ : Topo := Topo.v7x

variable {F : FTy → Type} [FloatOps F]

class Facts₀ : Prop where
  slices_S512x1_S256x1_0_0 : S512x1.Slices ![0, 0] S256x1
  slices_S512x1_S256x1_256_0 : S512x1.Slices ![256, 0] S256x1
  transposes_S8192x1_S1x8192_1_0 : S8192x1.Transposes [1, 0] S1x8192
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S_S8192x256 : S_.BroadcastsInDim S8192x256 (![] : Fin 0 → Fin S8192x256.rank)
  dot_S8192x512_S512x256_S8192x256_1_0_0_1_n_n_wf : DotDims.WF S8192x512 S512x256 S8192x256 [1] [0] [0] [1] [] []
  dot_S8192x256_S256x1_S8192x1_1_0_0_1_n_n_wf : DotDims.WF S8192x256 S256x1 S8192x1 [1] [0] [0] [1] [] []
  dot_S8192x8192_S8192x256_S8192x256_1_0_0_1_n_n_wf : DotDims.WF S8192x8192 S8192x256 S8192x256 [1] [0] [0] [1] [] []

variable [Facts₀]

def dot_S8192x512_S512x256_S8192x256_1_0_0_1_n_n : DotDims S8192x512 S512x256 S8192x256 where
  lhsContracting := [1]
  rhsContracting := [0]
  lhsNonContracting := [0]
  rhsNonContracting := [1]
  lhsBatch := []
  rhsBatch := []
  wf := dot_S8192x512_S512x256_S8192x256_1_0_0_1_n_n_wf
def dot_S8192x256_S256x1_S8192x1_1_0_0_1_n_n : DotDims S8192x256 S256x1 S8192x1 where
  lhsContracting := [1]
  rhsContracting := [0]
  lhsNonContracting := [0]
  rhsNonContracting := [1]
  lhsBatch := []
  rhsBatch := []
  wf := dot_S8192x256_S256x1_S8192x1_1_0_0_1_n_n_wf
def dot_S8192x8192_S8192x256_S8192x256_1_0_0_1_n_n : DotDims S8192x8192 S8192x256 S8192x256 where
  lhsContracting := [1]
  rhsContracting := [0]
  lhsNonContracting := [0]
  rhsNonContracting := [1]
  lhsBatch := []
  rhsBatch := []
  wf := dot_S8192x8192_S8192x256_S8192x256_1_0_0_1_n_n_wf

class Facts : Prop extends Facts₀ where

variable [Facts]
-- ==== Proof.BKDefs.lean ====
/-
  The proof data of the two kernel regions, as definitions shared by the body proofs, the value proofs and the run.

  Region 0 computes, per block of 1024 rows, the product of the block of x with W (stored in the narrow format) and its
  two row sums against the two halves of a. Region 1 walks, for each block of 512 rows, the four tiles of 2048 columns,
  carrying in three scratch buffers the running maximum, the running denominator and the running numerator; at the first
  tile of a row block the three are reset, at the last the quotient (through the elu) is stored into the output block.
  What the carried buffers hold after grid point n is `stAt n`: one step of the update from what point n − 1 left, or from
  the reset values when n starts a row block.
-/
import proofs.«125599_j41618233098759_2_alg».proof.Proof.Gen.Kernel.Launch
import proofs.«125599_j41618233098759_2_alg».proof.Proof.Gen.Kernel.Skeleton
import proofs.«125599_j41618233098759_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when a region is entered: the parameter every region's half is stated at
variable (V : (c : Dev nD) → (b : Ref sig .tc) → Buf (Elt F) ((c : Thread nD τ).loc b))

/-! # Region 0 -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The body's accesses: every one the whole staging buffer. -/
abbrev r0_x : Rect S1024x512 := Rect.unit (s := S1024x512) ![0, 0] S1024x512.size inb_S1024x512_S1024x512_0_0
abbrev r0_w : Rect S512x256 := Rect.unit (s := S512x256) ![0, 0] S512x256.size inb_S512x256_S512x256_0_0
abbrev r0_a : Rect S1x256 := Rect.unit (s := S1x256) ![0, 0] S1x256.size inb_S1x256_S1x256_0_0
abbrev r0_h : Rect S1024x256 := Rect.unit (s := S1024x256) ![0, 0] S1024x256.size inb_S1024x256_S1024x256_0_0
abbrev r0_s : Rect S1024x1 := Rect.unit (s := S1024x1) ![0, 0] S1024x1.size inb_S1024x1_S1024x1_0_0

/-- What the body leaves in each output window's buffer, from the input blocks: its one store as a piece. -/
def out0_4 (x0 : Vec F S1024x512 .f32) (x1 : Vec F S512x256 .f32) : Vec F S1024x256 .bf16 :=
  View.canon [⟨r0_h, k0_pay2 (View.ld x0 r0_x) (View.ld x1 r0_w)⟩]
def out0_5 (x0 : Vec F S1024x512 .f32) (x1 : Vec F S512x256 .f32) (x2 : Vec F S1x256 .f32) : Vec F S1024x1 .f32 :=
  View.canon [⟨r0_s, k0_pay3 (View.ld x0 r0_x) (View.ld x1 r0_w) (View.ld x2 r0_a)⟩]
def out0_6 (x0 : Vec F S1024x512 .f32) (x1 : Vec F S512x256 .f32) (x3 : Vec F S1x256 .f32) : Vec F S1024x1 .f32 :=
  View.canon [⟨r0_s, k0_pay4 (View.ld x0 r0_x) (View.ld x1 r0_w) (View.ld x3 r0_a)⟩]

/-- The proof data of pipeline 0 on core c: the arrays as the region finds them; after the body at point t each
    input's buffer at its block and each output's at its function of the input blocks; the class invariant (the scoped
    rest and the generator register, untouched); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t)
    | ⟨5, _⟩ => out0_5 (iblk0 V c 0 t) (iblk0 V c 1 t) (iblk0 V c 2 t)
    | ⟨6, _⟩ => out0_6 (iblk0 V c 0 t) (iblk0 V c 1 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) := by dsimp only [dat0]
theorem after0_5 (c : Dev nD) (t : Fin cfg0.N) : (dat0 V c).after 5 t = out0_5 (iblk0 V c 0 t) (iblk0 V c 1 t) (iblk0 V c 2 t) := by dsimp only [dat0]
theorem after0_6 (c : Dev nD) (t : Fin cfg0.N) : (dat0 V c).after 6 t = out0_6 (iblk0 V c 0 t) (iblk0 V c 1 t) (iblk0 V c 3 t) := by dsimp only [dat0]

/-! # Region 1 -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The scratch operands: whole scoped buffers of the kernel's own (the running maximum, denominator, numerator). -/
abbrev scM1_0 : Memref sig .tc .vmem S512x1 .f32 := Memref.whole cc1_scratch0
abbrev scM1_1 : Memref sig .tc .vmem S512x1 .f32 := Memref.whole cc1_scratch1
abbrev scM1_2 : Memref sig .tc .vmem S512x256 .f32 := Memref.whole cc1_scratch2

/-- The rows of h the tile of point i multiplies against: 2048 rows from row 2048 · (tile number) of the resident copy. -/
abbrev r1_h (i : grid1.Coords) : Rect S8192x256 := Rect.unit (s := S8192x256) (k1_off1 i) S2048x256.size (k1_off1_inb i)

/-- What the three carried buffers hold: the running maximum, the running denominator, the running numerator. -/
abbrev St1 (F : FTy → Type) [FloatOps F] : Type := Vec F S512x1 .f32 × Vec F S512x1 .f32 × Vec F S512x256 .f32

/-- The reset values stored at the first tile of a row block: the stand-in for −∞, zero, zero. -/
def init1 : St1 F := (k1_pay4 (F := F), k1_pay5 (F := F), k1_pay6 (F := F))

/-- One tile: the new maximum, the rescaled denominator plus the tile's sum of exponentials, the rescaled numerator plus
    the tile's exponentials against its rows of h. -/
def step1 (i : grid1.Coords) (al : Vec F S512x1 .f32) (ar : Vec F S1x2048 .f32) (ad : Vec F S512x2048 .f32)
    (hf : Vec F S8192x256 .bf16) (s : St1 F) : St1 F :=
  (k1_pay2 (k1_pay8 al ar ad s.1), k1_pay11 al ar ad s.1 s.2.1,
    k1_pay1 (k1_pay9 al ar ad s.1) (k1_pay10 al ar ad s.1) (View.ld hf (r1_h i)) s.2.2)

/-- THE CARRIED STATE after the body at position n: one step from the reset values when n starts a row block (n ≡ 0 mod 4),
    else one step from what position n − 1 left. -/
def stAt (c : Dev nD) : (n : ℕ) → n < cfg1.N → St1 F
  | 0, hn => step1 (grid1.coords ⟨0, hn⟩) (iblk1 V c 0 ⟨0, hn⟩) (iblk1 V c 1 ⟨0, hn⟩) (iblk1 V c 2 ⟨0, hn⟩) (iblk1 V c 3 ⟨0, hn⟩) init1
  | n + 1, hn => step1 (grid1.coords ⟨n + 1, hn⟩) (iblk1 V c 0 ⟨n + 1, hn⟩) (iblk1 V c 1 ⟨n + 1, hn⟩) (iblk1 V c 2 ⟨n + 1, hn⟩) (iblk1 V c 3 ⟨n + 1, hn⟩)
      (if (n + 1) % 4 = 0 then init1 else stAt c n (Nat.lt_of_succ_lt hn))

theorem stAt_zero (c : Dev nD) (hn : 0 < cfg1.N) :
    stAt V c 0 hn = step1 (grid1.coords ⟨0, hn⟩) (iblk1 V c 0 ⟨0, hn⟩) (iblk1 V c 1 ⟨0, hn⟩) (iblk1 V c 2 ⟨0, hn⟩) (iblk1 V c 3 ⟨0, hn⟩) init1 := rfl
theorem stAt_succ (c : Dev nD) (n : ℕ) (hn : n + 1 < cfg1.N) :
    stAt V c (n + 1) hn = step1 (grid1.coords ⟨n + 1, hn⟩) (iblk1 V c 0 ⟨n + 1, hn⟩) (iblk1 V c 1 ⟨n + 1, hn⟩) (iblk1 V c 2 ⟨n + 1, hn⟩) (iblk1 V c 3 ⟨n + 1, hn⟩)
      (if (n + 1) % 4 = 0 then init1 else stAt V c n (Nat.lt_of_succ_lt hn)) := rfl

/-- What the output block holds after the last tile of a row block: the quotient through the elu, its one store as a piece
    (at the other points the window is idle and this value is consulted by nothing). -/
def out1_4 (s : St1 F) : Vec F S512x256 .f32 :=
  View.canon [⟨r0_w, k1_pay3 s.2.2 s.2.1⟩]

/-- The other call's staging buffers, each whole at some contents. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f))

/-- The region invariant before position n: before the first point the class's (every scoped buffer outside the staging
    at anything, the generator register at some state); afterwards the same with the three carried buffers at what the
    point before left in them. -/
def PhiS (c : Dev nD) : (n : ℕ) → n ≤ cfg1.N → sProp 𝕄
  | 0, _ => Pipeline.ΦA spec1 c
  | n + 1, hn => iprop(iprop(others1 (F := F) c ∗ owns (c : Thread nD τ) scM1_0 fullShare (stAt V c n hn).1
      ∗ owns (c : Thread nD τ) scM1_1 fullShare (stAt V c n hn).2.1 ∗ owns (c : Thread nD τ) scM1_2 fullShare (stAt V c n hn).2.2) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(iprop(others1 (F := F) c ∗ owns (c : Thread nD τ) scM1_0 fullShare (stAt V c n hn).1
      ∗ owns (c : Thread nD τ) scM1_1 fullShare (stAt V c n hn).2.1 ∗ owns (c : Thread nD τ) scM1_2 fullShare (stAt V c n hn).2.2) ∗ (∃ r, prngReg c r)) := rfl
theorem PhiS_pos (c : Dev nD) (n : ℕ) (h : n ≤ cfg1.N) (hz : n ≠ 0) :
    PhiS V c n h = iprop(iprop(others1 (F := F) c ∗ owns (c : Thread nD τ) scM1_0 fullShare (stAt V c (n - 1) (by omega)).1
      ∗ owns (c : Thread nD τ) scM1_1 fullShare (stAt V c (n - 1) (by omega)).2.1 ∗ owns (c : Thread nD τ) scM1_2 fullShare (stAt V c (n - 1) (by omega)).2.2) ∗ (∃ r, prngReg c r)) := by
  cases n with
  | zero => exact absurd rfl hz
  | succ n => rfl

/-- The proof data of pipeline 1 on core c. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (stAt V c t.val t.isLt)
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (stAt V c t.val t.isLt) := by dsimp only [dat1]
theorem PhiS_castSucc (c : Dev nD) (t : Fin cfg1.N) :
    (dat1 V c).Φ t.castSucc = PhiS V c t.val (Nat.le_of_lt t.isLt) := by
  dsimp only [dat1]; simp only [Fin.coe_castSucc]

end Cert.Kernel.Hand

end
-- ==== Proof.BKRun.lean ====
/-
  The run of the whole program: host operations, the first kernel region, one more host operation, the second kernel region.

  Between two items every unscoped buffer of the core is held at a named valuation: the launch memory, then each stretch
  of host operations applied to it, then — after a region — the region's arrays at what its write-backs leave and every
  other buffer as it was. The regions are entered and left through these valuations; the generator register and the
  (empty) debt of the core ride along. From the run one reads, in the final memory, every unscoped buffer at the last
  valuation: the arguments (which nothing writes) at their launch contents, and the result array at what the second
  region's write-backs leave.
  The two regions' body obligations and the second region's invariant at its two ends are taken as hypotheses here, so
  that this module depends on the definitions only.
-/
import proofs.«125599_j41618233098759_2_alg».proof.Proof.BKDefs
import proofs.«125599_j41618233098759_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents at each boundary -/

/-- Core c's buffers at launch. -/
abbrev W0 : Dev nD → Valuation τ sig (Elt F) := fun c b => m (c, b)
/-- After the first stretch of host operations (the first region's entry). -/
abbrev W1 : Dev nD → Valuation τ sig (Elt F) := fun c => StableHlo.after hostOps0 (W0 m c)
/-- The same read at the TensorCore's references. -/
abbrev U1 : (c : Dev nD) → (b : Ref sig .tc) → Buf (Elt F) ((c : Thread nD τ).loc b) := fun c b => W1 m c b
/-- At the first region's exit: its arrays at what the pipeline leaves, every other buffer as entered. -/
def W2 (c : Dev nD) : Valuation τ sig (Elt F) :=
  Pipeline.withArrays spec0 c (W1 m c) fun w => (dat0 (U1 m) c).arrAt w cfg0.N
theorem W2_arr (c : Dev nD) (w : Fin cfg0.W) :
    W2 m c (Proc.devRef .tc (Pipeline.arrRef spec0 w)) = (dat0 (U1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev U2 : (c : Dev nD) → (b : Ref sig .tc) → Buf (Elt F) ((c : Thread nD τ).loc b) := fun c b => W2 m c b
theorem hF0 (c : Dev nD) (w : Fin cfg0.W) : (dat0 (U1 m) c).arrAt w cfg0.N = U2 m c (Pipeline.arrRef spec0 w) :=
  (W2_arr m c w).symm
theorem hrest0 (c : Dev nD) : ∀ b, b ∉ Finset.univ.image (Pipeline.arrRef spec0) → U2 m c b = U1 m c b :=
  fun b hb => W2_of_ne m c b fun w e => hb (Finset.mem_image.mpr ⟨w, Finset.mem_univ _, e⟩)

/-- After the second stretch (the second region's entry). -/
abbrev W3 : Dev nD → Valuation τ sig (Elt F) := fun c => StableHlo.after hostOps1 (W2 m c)
abbrev U3 : (c : Dev nD) → (b : Ref sig .tc) → Buf (Elt F) ((c : Thread nD τ).loc b) := fun c b => W3 m c b
/-- At the second region's exit. -/
def W4 (c : Dev nD) : Valuation τ sig (Elt F) :=
  Pipeline.withArrays spec1 c (W3 m c) fun w => (dat1 (U3 m) c).arrAt w cfg1.N
theorem W4_arr (c : Dev nD) (w : Fin cfg1.W) :
    W4 m c (Proc.devRef .tc (Pipeline.arrRef spec1 w)) = (dat1 (U3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev U4 : (c : Dev nD) → (b : Ref sig .tc) → Buf (Elt F) ((c : Thread nD τ).loc b) := fun c b => W4 m c b
theorem hF1 (c : Dev nD) (w : Fin cfg1.W) : (dat1 (U3 m) c).arrAt w cfg1.N = U4 m c (Pipeline.arrRef spec1 w) :=
  (W4_arr m c w).symm
theorem hrest1 (c : Dev nD) : ∀ b, b ∉ Finset.univ.image (Pipeline.arrRef spec1) → U4 m c b = U3 m c b :=
  fun b hb => W4_of_ne m c b fun w e => hb (Finset.mem_image.mpr ⟨w, Finset.mem_univ _, e⟩)

/-! ### What no item writes -/

theorem W1_of (c : Dev nD) (r : Ref sig .tc) (h : r ∉ (hostOps0_W : List (Ref sig .tc))) :
    W1 m c (Proc.devRef .tc r) = W0 m c (Proc.devRef .tc r) :=
  StableHlo.after_of_writes_sub hostOps0 _ hostOps0_writes h
theorem W3_of (c : Dev nD) (r : Ref sig .tc) (h : r ∉ (hostOps1_W : List (Ref sig .tc))) :
    W3 m c (Proc.devRef .tc r) = W2 m c (Proc.devRef .tc r) :=
  StableHlo.after_of_writes_sub hostOps1 _ hostOps1_writes h

/-- x: staged by the first region as an input, bypassed by the second. -/
theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_of_ne m c main_arg0 (by decide)
    _ = W2 m c (Proc.devRef .tc main_arg0) := W3_of m c main_arg0 (by decide)
    _ = W1 m c (Proc.devRef .tc main_arg0) := (W2_arr m c 0).trans (((dat0 (U1 m) c).arrAt_in 0 rfl _).trans (A_eq0 (U1 m) c 0))
    _ = W0 m c (Proc.devRef .tc main_arg0) := W1_of m c main_arg0 (by decide)
    _ = m ((c : Thread nD τ).loc main_arg0) := rfl
/-- W: the same, through window 1. -/
theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W2 m c (Proc.devRef .tc main_arg2) := W3_of m c main_arg2 (by decide)
    _ = W1 m c (Proc.devRef .tc main_arg2) := (W2_arr m c 1).trans (((dat0 (U1 m) c).arrAt_in 1 rfl _).trans (A_eq0 (U1 m) c 1))
    _ = W0 m c (Proc.devRef .tc main_arg2) := W1_of m c main_arg2 (by decide)
    _ = m ((c : Thread nD τ).loc main_arg2) := rfl
/-- adj: bypassed by the first region, staged by the second as an input (window 2). -/
theorem W4_main_arg1 (c : Dev nD) : W4 m c (Proc.devRef .tc main_arg1) = m ((c : Thread nD τ).loc main_arg1) :=
  calc W4 m c (Proc.devRef .tc main_arg1)
    _ = W3 m c (Proc.devRef .tc main_arg1) := (W4_arr m c 2).trans (((dat1 (U3 m) c).arrAt_in 2 rfl _).trans (A_eq1 (U3 m) c 2))
    _ = W2 m c (Proc.devRef .tc main_arg1) := W3_of m c main_arg1 (by decide)
    _ = W1 m c (Proc.devRef .tc main_arg1) := W2_of_ne m c main_arg1 (by decide)
    _ = W0 m c (Proc.devRef .tc main_arg1) := W1_of m c main_arg1 (by decide)
    _ = m ((c : Thread nD τ).loc main_arg1) := rfl
/-- a: read by host operations only. -/
theorem W4_main_arg3 (c : Dev nD) : W4 m c (Proc.devRef .tc main_arg3) = m ((c : Thread nD τ).loc main_arg3) :=
  calc W4 m c (Proc.devRef .tc main_arg3)
    _ = W3 m c (Proc.devRef .tc main_arg3) := W4_of_ne m c main_arg3 (by decide)
    _ = W2 m c (Proc.devRef .tc main_arg3) := W3_of m c main_arg3 (by decide)
    _ = W1 m c (Proc.devRef .tc main_arg3) := W2_of_ne m c main_arg3 (by decide)
    _ = W0 m c (Proc.devRef .tc main_arg3) := W1_of m c main_arg3 (by decide)
    _ = m ((c : Thread nD τ).loc main_arg3) := rfl
/-- The result array: what the second region's write-backs leave in its output window's array. -/
theorem W4_main_v6 (c : Dev nD) : W4 m c (Proc.devRef .tc main_v6) = (dat1 (U3 m) c).arrAt 4 cfg1.N := W4_arr m c 4

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (U1 m) c
  | ⟨1, _⟩ => fun c => dat1 (U3 m) c
abbrev 𝒱₀ : Variants := Variants.none
abbrev L : GSem nD τ sig → Finset Unit := fun _ => ∅
abbrev lv : GSem nD τ sig → Unit → ℕ := fun _ _ => 0
/-- What rides beside the buffers: the generator register at some state and the core's debt, at nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The regions as segments -/

/-- The first region's body obligation at every entry valuation. -/
def HB0 (F : FTy → Type) [FloatOps F] : Prop :=
  ∀ (V : (c : Dev nD) → (b : Ref sig .tc) → Buf (Elt F) ((c : Thread nD τ).loc b)) (c : Dev nD),
    BodyObligation (dat0 (F := F) V c) (defs₀ (F := F)) Variants.none () Set.univ
/-- The second region's. -/
def HB1 (F : FTy → Type) [FloatOps F] : Prop :=
  ∀ (V : (c : Dev nD) → (b : Ref sig .tc) → Buf (Elt F) ((c : Thread nD τ).loc b)) (c : Dev nD),
    BodyObligation (dat1 (F := F) V c) (defs₀ (F := F)) Variants.none () Set.univ
/-- The second region's invariant at its first point is what the launch hands over, -/
def HI1 (F : FTy → Type) [FloatOps F] : Prop :=
  ∀ (V : (c : Dev nD) → (b : Ref sig .tc) → Buf (Elt F) ((c : Thread nD τ).loc b)) (c : Dev nD),
    (Pipeline.ΦA spec1 c : sProp (MT nD τ sig Unit (Elt F) ℕ (UR sig nD τ) ℕ)) ⊢ (dat1 (F := F) V c).Φ 0
/-- and at its last point gives that back. -/
def HO1 (F : FTy → Type) [FloatOps F] : Prop :=
  ∀ (V : (c : Dev nD) → (b : Ref sig .tc) → Buf (Elt F) ((c : Thread nD τ).loc b)) (c : Dev nD),
    (dat1 (F := F) V c).Φ (Fin.last cfg1.N) ⊢ (Pipeline.ΦA spec1 c : sProp (MT nD τ sig Unit (Elt F) ℕ (UR sig nD τ) ℕ))

section Run

variable (hb0 : HB0 F) (hb1 : HB1 F) (hi1 : HI1 F) (ho1 : HO1 F)

set_option backward.isDefEq.respectTransparency.types false in
/-- The first region: entered from every unscoped buffer at W1, left at W2. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (hb0 (U1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U1 m c) (U2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from every unscoped buffer at W3, left at W4. Its invariant starts as the class's and,
    after any point, keeps the three carried buffers at their named contents; at the exit those names are forgotten. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (hb1 (U3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (U3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (U3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (U3 m) c).Φ 0 from rfl]
    have h : (iprop((∃ r, prngReg c r) ∗ Pipeline.prefHeld (pcfgs (F := F) 1).pre c (fun _ => fullShare) (adm (F := F) 1).1
        ∗ Pipeline.scopedRest (Pipeline.pin (pcfgs (F := F)) adm 1).spec c) : sProp 𝕄) ⊢ Pipeline.ΦA spec1 c := by
      unfold Pipeline.ΦA
      iintro ⟨Hp, -, Hr⟩
      isplitl [Hr]; · iexact Hr
      iexact Hp
    exact h.trans (hi1 (U3 m) c)
  hout c := by
    rw [Pipeline.ownSems0_none, show (pdats m 1 c).Φ (Fin.last _) = (dat1 (U3 m) c).Φ (Fin.last cfg1.N) from rfl]
    have h : (Pipeline.ΦA spec1 c : sProp 𝕄) ⊢ iprop((∃ r, prngReg c r) ∗ BI.emp
        ∗ Pipeline.scopedRest (Pipeline.pin (pcfgs (F := F)) adm 1).spec c) := by
      unfold Pipeline.ΦA
      iintro ⟨Hr, Hp⟩
      isplitl [Hp]; · iexact Hp
      isplitr; · iempintro
      iexact Hr
    exact (ho1 (U3 m) c).trans h
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (U3 m c) (U4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m hb0),
    .host (hseg hostOps1 hostOps1_sub hostOps1_fresh (W2 m)),
    .region (reg1 m hb1 hi1 ho1) ]
include hb0 hb1 hi1 ho1 in
theorem main_run (c : Dev nD) : main (F := F) c = Pipeline.Seg.run (segs m hb0 hb1 hi1 ho1) := (main_chain c).trans (by chain_rfl)

include hb0 hb1 hi1 ho1 in
set_option backward.isDefEq.respectTransparency.types false in
/-- THE RUN: from any memory with zero counters every weakly fair execution of the program terminates, nothing faulting,
    and the final memory holds every unscoped buffer at the last valuation. -/
theorem run_main (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m hb0 hb1 hi1 ho1)
    (fun c Q => by rw [main_run m hb0 hb1 hi1 ho1 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

include hb0 hb1 hi1 ho1 in
/-- The frame: the arguments end as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c)⟩) (run_main m hb0 hb1 hi1 ho1 ρ)

include hb0 hb1 hi1 ho1 in
/-- The run with the result named: the result array at what the second region's write-backs leave. -/
theorem run_result (ρ : Dev nD → PrngReg) : θ_run defs (onTc (τ := τ) (main (F := F))) ⟨m, fun _ => 0, ρ⟩ (fun r => ∀ c : Dev nD,
      r.2.mem ((c.tc : Thread nD τ).loc main_v6) = (dat1 (U3 m) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_v6 (by decide))).trans (W4_main_v6 m c),
     (h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c)⟩) (run_main m hb0 hb1 hi1 ho1 ρ)

end Run

end Cert.Kernel.Hand

end
-- ==== Proof.BK0Body.lean ====
/-
  Region 0 of the kernel: the body obligation of its pipeline.

  The body loads the whole block of x, the whole of W, and the two rows of a; it stores the product of the block of x
  with W (in the narrow format) into the first output buffer and its row sums against each of the two rows into the other
  two. Every store is the whole buffer, so what each output buffer holds afterwards is its one store's payload, whatever
  it held before (each output buffer is also loaded before it is stored, and that value is used by nothing).
-/
import proofs.«125599_j41618233098759_2_alg».proof.Proof.BKDefs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in each input window's buffer -/

/-- An input window's current buffer holds its block at every point, fetched there or not: where it is not fetched the
    block index has not moved, and the body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## Each output's one store covers its buffer -/

theorem cover0_4 (p0 : Vec F S1024x256 .bf16) (y : S1024x256.Idx) :
    ∃ pc ∈ ([⟨r0_h, p0⟩] : List (View.Piece (Elt F) S1024x256 .bf16)), y ∈ pc.1.set :=
  View.cover_of_tiled [⟨r0_h, p0⟩] S1024x256.size (by rfl) y
theorem cover0_5 (p0 : Vec F S1024x1 .f32) (y : S1024x1.Idx) :
    ∃ pc ∈ ([⟨r0_s, p0⟩] : List (View.Piece (Elt F) S1024x1 .f32)), y ∈ pc.1.set :=
  View.cover_of_tiled [⟨r0_s, p0⟩] S1024x1.size (by rfl) y

/-! ## The body's triple -/

set_option maxHeartbeats 4000000 in
/-- The kernel body on whole staging memrefs, the inputs' at read contents and the outputs' at anything, runs to the
    continuation holding the inputs' as they were and each output's at its store's payload. -/
theorem sound_kernel0 (c : Dev nD) (E : Set ℕ) (i : grid0.Coords)
    (arg1 : Memref sig .tc .vmem S1024x512 .f32) (harg1 : arg1.IsWhole) (arg2 : Memref sig .tc .vmem S512x256 .f32) (harg2 : arg2.IsWhole)
    (arg3 : Memref sig .tc .vmem S1x256 .f32) (harg3 : arg3.IsWhole) (arg4 : Memref sig .tc .vmem S1x256 .f32) (harg4 : arg4.IsWhole)
    (arg5 : Memref sig .tc .vmem S1024x256 .bf16) (harg5 : arg5.IsWhole) (arg6 : Memref sig .tc .vmem S1024x1 .f32) (harg6 : arg6.IsWhole)
    (arg7 : Memref sig .tc .vmem S1024x1 .f32) (harg7 : arg7.IsWhole)
    (x0 : Vec F S1024x512 .f32) (x1 : Vec F S512x256 .f32) (x2 : Vec F S1x256 .f32) (x3 : Vec F S1x256 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (∃ d, owns (c : Thread nD τ) arg7 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out0_4 x0 x1) ∗ owns (c : Thread nD τ) arg6 fullShare (out0_5 x0 x1 x2)
            ∗ owns (c : Thread nD τ) arg7 fullShare (out0_6 x0 x1 x3)) -∗ K ⟨⟩))
      ⊢ wp frame (wpE (defs₀ (F := F)) Variants.none c none) E (cc0__h_kernel i arg1 harg1 arg2 harg2 arg3 harg3 arg4 harg4 arg5 harg5 arg6 harg6 arg7 harg7) K := by
  simp only [cc0__h_kernel_eq_skeleton]; unfold cc0__h_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0_4 _)
  isplitl [H5]
  · iexists _; isplitr
    swap; · iexact H5
    ipureintro
    exact View.read_writes_eq_canon _ _ _ (cover0_5 _)
  iexists _; isplitr
  swap; · iexact H6
  ipureintro
  exact View.read_writes_eq_canon _ _ _ (cover0_5 _)

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks, so the body's triple applies; the invariant and the
    core's owed tallies pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.BK1BodyA.lean ====
/-
  Region 1 (the online softmax over the four column tiles of a row block): what its body proof shares between the
  three control cases — the two conditions on the tile number in closed form, where the output window is idle, the
  class invariant with the three carried buffers as owned operands, and what the body finds in each input window.
-/
import proofs.«125599_j41618233098759_2_alg».proof.Proof.BKDefs
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The two conditions on the tile number -/

/-- The first conditional (the reset of the carried buffers): the tile number is 0. -/
abbrev cond1_0 (i : grid1.Coords) : Prop := (Scalar.cmpi .ne (Scalar.extui (Scalar.cmpi .eq (BitVec.ofNat 32 (i 1).val) 0#32)) 0#32) = 1#1
/-- It holds at the points ≡ 0 (mod 4), decided over the 64 points. -/
theorem hcond1_0 : ∀ t : Fin cfg1.N, cond1_0 (grid1.coords t) ↔ t.val % 4 = 0 :=
  (by decide +kernel : ∀ t : Fin grid1.N, cond1_0 (grid1.coords t) ↔ t.val % 4 = 0)

/-- The second conditional (the store of the output block): the tile number is 3. -/
abbrev cond1_1 (i : grid1.Coords) : Prop := k1_cond2 i = 1#1
/-- It holds at the points ≡ 3 (mod 4). -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- Away from the last tile the output window is idle and its block is not written back. -/
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
/-- At the last tile it is live. -/
theorem liveAt1_4 : ∀ t : Fin cfg1.N, cond1_1 (grid1.coords t) → cfg1.idle 4 (grid1.coords t) = false := by decide +kernel

/-! ## The class invariant with the carried buffers as owned operands -/

/-- Separating conjunction reassociates (as an equation of propositions). -/
theorem sep_assoc_eq {M : Type} [URA M] (P Q R : sProp M) : iprop((P ∗ Q) ∗ R) = iprop(P ∗ (Q ∗ R)) := by
  have h1 : iprop((P ∗ Q) ∗ R) ⊢ iprop(P ∗ (Q ∗ R)) := by
    iintro ⟨⟨HP, HQ⟩, HR⟩
    isplitl [HP]; · iexact HP
    isplitl [HQ]; · iexact HQ
    iexact HR
  have h2 : iprop(P ∗ (Q ∗ R)) ⊢ iprop((P ∗ Q) ∗ R) := by
    iintro ⟨HP, HQ, HR⟩
    isplitr [HR]
    · isplitl [HP]; · iexact HP
      iexact HQ
    iexact HR
  exact Entails.antisymm h1 h2

theorem PhiA1_eq (c : Dev nD) :
    (Pipeline.ΦA spec1 c : sProp 𝕄)
      = iprop(iprop(others1 (F := F) c ∗ (∃ d, owns (c : Thread nD τ) scM1_0 fullShare d) ∗ (∃ d, owns (c : Thread nD τ) scM1_1 fullShare d)
          ∗ (∃ d, owns (c : Thread nD τ) scM1_2 fullShare d)) ∗ (∃ r, prngReg c r)) := by
  unfold Pipeline.ΦA; rw [scopedRest1_eq]; simp only [others1, scM1_0, scM1_1, scM1_2, owns_whole, sep_assoc_eq]
  rfl

/-! ## The invariant at the region's two ends -/

/-- What the launch hands the region is the invariant before the first point. -/
theorem hin1 (c : Dev nD) : Pipeline.ΦA spec1 c ⊢ (dat1 (F := F) V c).Φ 0 := by
  rw [show (dat1 V c).Φ 0 = PhiS V c 0 (Nat.zero_le _) from rfl, PhiS_zero V c 0 _ rfl]
  try exact Idealize.SL.BI.Entails.refl _

/-- After any point but the first the invariant gives the class's back: what the carried buffers hold is forgotten. -/
theorem Phi_out1 (c : Dev nD) (t : Fin (cfg1.N + 1)) (ht : t.val ≠ 0) : (dat1 (F := F) V c).Φ t ⊢ Pipeline.ΦA spec1 c := by
  rw [show (dat1 V c).Φ t = PhiS V c t.val (Nat.le_of_lt_succ t.isLt) from rfl, PhiS_pos V c _ _ ht, PhiA1_eq]
  iintro ⟨⟨Ho, HS0, HS1, HS2⟩, Hg⟩
  isplitr [Hg]
  · isplitl [Ho]; · iexact Ho
    isplitl [HS0]; · iexists _; iexact HS0
    isplitl [HS1]; · iexists _; iexact HS1
    iexists _; iexact HS2
  iexact Hg

/-- The same after the last point. -/
theorem hout1 (c : Dev nD) : (dat1 (F := F) V c).Φ (Fin.last cfg1.N) ⊢ Pipeline.ΦA spec1 c :=
  Phi_out1 V c _ (by rw [Fin.val_last]; have : cfg1.N = 64 := N_1; omega)

/-! ## The carried state at a point, by the point's case -/

/-- At the first tile of a row block: one step from the reset values. -/
theorem stAt_first (c : Dev nD) (t : Fin cfg1.N) (h0 : t.val % 4 = 0) :
    stAt V c t.val t.isLt = step1 (grid1.coords t) (iblk1 V c 0 t) (iblk1 V c 1 t) (iblk1 V c 2 t) (iblk1 V c 3 t) (init1 (F := F)) := by
  obtain ⟨n, hn⟩ := t
  cases n with
  | zero => rfl
  | succ n => exact (stAt_succ V c n hn).trans (by rw [if_pos h0])

/-- At a later tile: one step from what the point before left. -/
theorem stAt_later (c : Dev nD) (t : Fin cfg1.N) (h0 : ¬t.val % 4 = 0) :
    stAt V c t.val t.isLt = step1 (grid1.coords t) (iblk1 V c 0 t) (iblk1 V c 1 t) (iblk1 V c 2 t) (iblk1 V c 3 t)
      (stAt V c (t.val - 1) (Nat.lt_of_le_of_lt (Nat.sub_le _ _) t.isLt)) := by
  obtain ⟨n, hn⟩ := t
  cases n with
  | zero => exact absurd (Nat.zero_mod _) h0
  | succ n => exact (stAt_succ V c n hn).trans (by rw [if_neg h0]; rfl)

/-! ## What the body finds in the input windows -/

theorem before1_0 (c : Dev nD) (t : Fin cfg1.N) (d) : (dat1 (F := F) V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 (F := F) V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 (F := F) V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 (F := F) V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)

/-! ## Reading a whole buffer back after a covering store -/

theorem zeros2 : (![0, 0] : Fin 2 → ℕ) = fun _ => 0 := by funext a; fin_cases a <;> rfl

/-- After a last store through the whole-shape rectangle, the buffer reads as that store's payload, whatever was
    stored before. -/
theorem read_writes_whole_last {sig : RefSig} {κ : Kind} {sp : Space} {S : Shape} {e : EltTy}
    (v : View sig κ sp S e) (f : v.ty.Contents (Elt F)) {off : Fin S.rank → ℕ} (h : off = fun _ => 0)
    (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero h inb y⟩),
    View.canon_cons_unit_zero h inb w L]

/-! ## The run at the first tile of a row block -/

set_option maxHeartbeats 1000000 in
/-- The first tile of a row block: whatever the three carried buffers held, the body resets them and leaves in them
    one step of the update from the reset values; the input blocks and the output block's buffer stay as found. -/
theorem run1_A (c : Dev nD) (E : Set ℕ) (i : grid1.Coords) (arg2 : Memref sig .tc .vmem S512x1 .f32) (harg2 : arg2.IsWhole) (arg3 : Memref sig .tc .vmem S1x2048 .f32) (harg3 : arg3.IsWhole) (arg4 : Memref sig .tc .vmem S512x2048 .f32) (harg4 : arg4.IsWhole) (arg5 : Memref sig .tc .vmem S8192x256 .bf16) (harg5 : arg5.IsWhole) (arg6 : Memref sig .tc .vmem S512x256 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x256 .f32) (harg9 : arg9.IsWhole)
    (hc0 : cond1_0 i) (hc1 : ¬cond1_1 i) (x0 : Vec F S512x1 .f32) (x1 : Vec F S1x2048 .f32) (x2 : Vec F S512x2048 .f32) (x3 : Vec F S8192x256 .bf16)
    (xi : Vec F S512x256 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare xi
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi
            ∗ owns (c : Thread nD τ) arg7 fullShare (k1_pay2 (k1_pay8 x0 x1 x2 (k1_pay4 (F := F))))
            ∗ owns (c : Thread nD τ) arg8 fullShare (k1_pay11 x0 x1 x2 (k1_pay4 (F := F)) (k1_pay5 (F := F)))
            ∗ owns (c : Thread nD τ) arg9 fullShare (k1_pay1 (k1_pay9 x0 x1 x2 (k1_pay4 (F := F))) (k1_pay10 x0 x1 x2 (k1_pay4 (F := F))) (View.ld x3 (r1_h i)) (k1_pay6 (F := F)))) -∗ K ⟨⟩))
      ⊢ wp frame (wpE (defs₀ (F := F)) Variants.none c none) E (cc1__attn_kernel i arg2 harg2 arg3 harg3 arg4 harg4 arg5 harg5 arg6 harg6 arg7 harg7 arg8 harg8 arg9 harg9) K := by
  simp only [cc1__attn_kernel_eq_skeleton]; unfold cc1__attn_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, Hk⟩
  obtain rfl := harg2.eq_unread hf0; obtain rfl := harg3.eq_unread hf1; obtain rfl := harg4.eq_unread hf2; obtain rfl := harg5.eq_unread hf3
  obtain rfl := harg6.eq_unread hf4
  sl_exec (disch := first | exact hc0 | exact hc1)

  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [HS0]
  · iexists _; isplitr
    swap; · iexact HS0
    ipureintro
    sl_unfold_run_names
    refine (read_writes_whole_last _ _ zeros2 _ _ _).trans ?_
    dsimp only
    simp only [View.readCov_unit_zero arg7.view zeros2, View.readCov_unit_zero arg8.view zeros2, View.readCov_unit_zero arg9.view zeros2, View.readAt_eq_ld, harg2.read_unread, harg3.read_unread, harg4.read_unread, harg5.read_unread, harg7.read_unread, harg8.read_unread, harg9.read_unread,
      View.ld_unit_zero (S := S512x1) zeros2, View.ld_unit_zero (S := S1x2048) zeros2, View.ld_unit_zero (S := S512x2048) zeros2,
      View.ld_unit_zero (S := S512x256) zeros2]
  isplitl [HS1]
  · iexists _; isplitr
    swap; · iexact HS1
    ipureintro
    sl_unfold_run_names
    refine (read_writes_whole_last _ _ zeros2 _ _ _).trans ?_
    dsimp only
    simp only [View.readCov_unit_zero arg7.view zeros2, View.readCov_unit_zero arg8.view zeros2, View.readCov_unit_zero arg9.view zeros2, View.readAt_eq_ld, harg2.read_unread, harg3.read_unread, harg4.read_unread, harg5.read_unread, harg7.read_unread, harg8.read_unread, harg9.read_unread,
      View.ld_unit_zero (S := S512x1) zeros2, View.ld_unit_zero (S := S1x2048) zeros2, View.ld_unit_zero (S := S512x2048) zeros2,
      View.ld_unit_zero (S := S512x256) zeros2]
  iexists _; isplitr
  swap; · iexact HS2
  ipureintro
  sl_unfold_run_names
  refine (read_writes_whole_last _ _ zeros2 _ _ _).trans ?_
  dsimp only
  simp only [View.readCov_unit_zero arg7.view zeros2, View.readCov_unit_zero arg8.view zeros2, View.readCov_unit_zero arg9.view zeros2, View.readAt_eq_ld, harg2.read_unread, harg3.read_unread, harg4.read_unread, harg5.read_unread, harg7.read_unread, harg8.read_unread, harg9.read_unread,
      View.ld_unit_zero (S := S512x1) zeros2, View.ld_unit_zero (S := S1x2048) zeros2, View.ld_unit_zero (S := S512x2048) zeros2,
      View.ld_unit_zero (S := S512x256) zeros2]

end Cert.Kernel.Hand

end
-- ==== Proof.BK1BodyB.lean ====
/-
  Region 1: the run of the body at a middle tile of a row block (neither reset nor output).
-/
import proofs.«125599_j41618233098759_2_alg».proof.Proof.BK1BodyA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- A middle tile (neither the first nor the last of its row block): from the carried maximum, denominator and
    numerator (sm, sl, sa) the body leaves one step of the update in the three carried buffers, the input blocks and
    the output block's buffer as it found them. -/
theorem run1_B (c : Dev nD) (E : Set ℕ) (i : grid1.Coords) (arg2 : Memref sig .tc .vmem S512x1 .f32) (harg2 : arg2.IsWhole) (arg3 : Memref sig .tc .vmem S1x2048 .f32) (harg3 : arg3.IsWhole) (arg4 : Memref sig .tc .vmem S512x2048 .f32) (harg4 : arg4.IsWhole) (arg5 : Memref sig .tc .vmem S8192x256 .bf16) (harg5 : arg5.IsWhole) (arg6 : Memref sig .tc .vmem S512x256 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x256 .f32) (harg9 : arg9.IsWhole)
    (hc0 : ¬cond1_0 i) (hc1 : ¬cond1_1 i) (x0 : Vec F S512x1 .f32) (x1 : Vec F S1x2048 .f32) (x2 : Vec F S512x2048 .f32) (x3 : Vec F S8192x256 .bf16)
    (xi : Vec F S512x256 .f32) (sm : Vec F S512x1 .f32) (sl : Vec F S512x1 .f32) (sa : Vec F S512x256 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare xi
        ∗ owns (c : Thread nD τ) arg7 fullShare sm ∗ owns (c : Thread nD τ) arg8 fullShare sl ∗ owns (c : Thread nD τ) arg9 fullShare sa
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi
            ∗ owns (c : Thread nD τ) arg7 fullShare (k1_pay2 (k1_pay8 x0 x1 x2 sm))
            ∗ owns (c : Thread nD τ) arg8 fullShare (k1_pay11 x0 x1 x2 sm sl)
            ∗ owns (c : Thread nD τ) arg9 fullShare (k1_pay1 (k1_pay9 x0 x1 x2 sm) (k1_pay10 x0 x1 x2 sm) (View.ld x3 (r1_h i)) sa)) -∗ K ⟨⟩))
      ⊢ wp frame (wpE (defs₀ (F := F)) Variants.none c none) E (cc1__attn_kernel i arg2 harg2 arg3 harg3 arg4 harg4 arg5 harg5 arg6 harg6 arg7 harg7 arg8 harg8 arg9 harg9) K := by
  simp only [cc1__attn_kernel_eq_skeleton]; unfold cc1__attn_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, Hk⟩
  obtain rfl := harg2.eq_unread hf0; obtain rfl := harg3.eq_unread hf1; obtain rfl := harg4.eq_unread hf2; obtain rfl := harg5.eq_unread hf3
  obtain rfl := harg6.eq_unread hf4
  obtain rfl := harg7.eq_unread hfs0; obtain rfl := harg8.eq_unread hfs1; obtain rfl := harg9.eq_unread hfs2
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [HS0]
  · iexists _; isplitr
    swap; · iexact HS0
    ipureintro
    refine (read_writes_whole_last _ _ zeros2 _ _ _).trans ?_
    dsimp only
    simp only [View.readAt_eq_ld, harg2.read_unread, harg3.read_unread, harg4.read_unread, harg7.read_unread,
      View.ld_unit_zero (S := S512x1) zeros2, View.ld_unit_zero (S := S1x2048) zeros2, View.ld_unit_zero (S := S512x2048) zeros2]
  isplitl [HS1]
  · iexists _; isplitr
    swap; · iexact HS1
    ipureintro
    refine (read_writes_whole_last _ _ zeros2 _ _ _).trans ?_
    dsimp only
    simp only [View.readAt_eq_ld, harg2.read_unread, harg3.read_unread, harg4.read_unread, harg7.read_unread, harg8.read_unread,
      View.ld_unit_zero (S := S512x1) zeros2, View.ld_unit_zero (S := S1x2048) zeros2, View.ld_unit_zero (S := S512x2048) zeros2]
  iexists _; isplitr
  swap; · iexact HS2
  ipureintro
  refine (read_writes_whole_last _ _ zeros2 _ _ _).trans ?_
  dsimp only
  simp only [View.readAt_eq_ld, harg2.read_unread, harg3.read_unread, harg4.read_unread, harg5.read_unread, harg7.read_unread, harg9.read_unread,
    View.ld_unit_zero (S := S512x1) zeros2, View.ld_unit_zero (S := S1x2048) zeros2, View.ld_unit_zero (S := S512x2048) zeros2,
    View.ld_unit_zero (S := S512x256) zeros2]

end Cert.Kernel.Hand

end
-- ==== Proof.BK1BodyC.lean ====
/-
  Region 1: the run of the body at the last tile of a row block (the output block is stored).
-/
import proofs.«125599_j41618233098759_2_alg».proof.Proof.BK1BodyB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The last tile of a row block: one step of the update from the carried values (sm, sl, sa) in the three carried
    buffers, and the quotient of the new numerator by the new denominator, through the elu, stored over the output
    block's buffer whatever it held. -/
theorem run1_C (c : Dev nD) (E : Set ℕ) (i : grid1.Coords) (arg2 : Memref sig .tc .vmem S512x1 .f32) (harg2 : arg2.IsWhole) (arg3 : Memref sig .tc .vmem S1x2048 .f32) (harg3 : arg3.IsWhole) (arg4 : Memref sig .tc .vmem S512x2048 .f32) (harg4 : arg4.IsWhole) (arg5 : Memref sig .tc .vmem S8192x256 .bf16) (harg5 : arg5.IsWhole) (arg6 : Memref sig .tc .vmem S512x256 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x256 .f32) (harg9 : arg9.IsWhole)
    (hc0 : ¬cond1_0 i) (hc1 : cond1_1 i) (x0 : Vec F S512x1 .f32) (x1 : Vec F S1x2048 .f32) (x2 : Vec F S512x2048 .f32) (x3 : Vec F S8192x256 .bf16)
    (sm : Vec F S512x1 .f32) (sl : Vec F S512x1 .f32) (sa : Vec F S512x256 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d)
        ∗ owns (c : Thread nD τ) arg7 fullShare sm ∗ owns (c : Thread nD τ) arg8 fullShare sl ∗ owns (c : Thread nD τ) arg9 fullShare sa
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (View.canon [⟨r0_w, k1_pay3 (k1_pay1 (k1_pay9 x0 x1 x2 sm) (k1_pay10 x0 x1 x2 sm) (View.ld x3 (r1_h i)) sa) (k1_pay11 x0 x1 x2 sm sl)⟩])
            ∗ owns (c : Thread nD τ) arg7 fullShare (k1_pay2 (k1_pay8 x0 x1 x2 sm))
            ∗ owns (c : Thread nD τ) arg8 fullShare (k1_pay11 x0 x1 x2 sm sl)
            ∗ owns (c : Thread nD τ) arg9 fullShare (k1_pay1 (k1_pay9 x0 x1 x2 sm) (k1_pay10 x0 x1 x2 sm) (View.ld x3 (r1_h i)) sa)) -∗ K ⟨⟩))
      ⊢ wp frame (wpE (defs₀ (F := F)) Variants.none c none) E (cc1__attn_kernel i arg2 harg2 arg3 harg3 arg4 harg4 arg5 harg5 arg6 harg6 arg7 harg7 arg8 harg8 arg9 harg9) K := by
  simp only [cc1__attn_kernel_eq_skeleton]; unfold cc1__attn_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, Hk⟩
  obtain rfl := harg2.eq_unread hf0; obtain rfl := harg3.eq_unread hf1; obtain rfl := harg4.eq_unread hf2; obtain rfl := harg5.eq_unread hf3
  obtain rfl := harg7.eq_unread hfs0; obtain rfl := harg8.eq_unread hfs1; obtain rfl := harg9.eq_unread hfs2
  sl_exec (disch := first | exact hc0 | exact hc1)

  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    rw [View.canon_unit_zero (S := S512x256) zeros2]
    refine (read_writes_whole_last _ _ zeros2 _ _ _).trans ?_
    sl_unfold_run_names
    dsimp only
    simp only [View.readCov_unit_zero arg7.view zeros2, View.readCov_unit_zero arg8.view zeros2, View.readCov_unit_zero arg9.view zeros2, View.readAt_eq_ld, harg2.read_unread, harg3.read_unread, harg4.read_unread, harg5.read_unread, harg7.read_unread, harg8.read_unread, harg9.read_unread,
      View.ld_unit_zero (S := S512x1) zeros2, View.ld_unit_zero (S := S1x2048) zeros2, View.ld_unit_zero (S := S512x2048) zeros2,
      View.ld_unit_zero (S := S512x256) zeros2]
  isplitl [HS0]
  · iexists _; isplitr
    swap; · iexact HS0
    ipureintro
    sl_unfold_run_names
    refine (read_writes_whole_last _ _ zeros2 _ _ _).trans ?_
    dsimp only
    simp only [View.readCov_unit_zero arg7.view zeros2, View.readCov_unit_zero arg8.view zeros2, View.readCov_unit_zero arg9.view zeros2, View.readAt_eq_ld, harg2.read_unread, harg3.read_unread, harg4.read_unread, harg5.read_unread, harg7.read_unread, harg8.read_unread, harg9.read_unread,
      View.ld_unit_zero (S := S512x1) zeros2, View.ld_unit_zero (S := S1x2048) zeros2, View.ld_unit_zero (S := S512x2048) zeros2,
      View.ld_unit_zero (S := S512x256) zeros2]
  isplitl [HS1]
  · iexists _; isplitr
    swap; · iexact HS1
    ipureintro
    sl_unfold_run_names
    refine (read_writes_whole_last _ _ zeros2 _ _ _).trans ?_
    dsimp only
    simp only [View.readCov_unit_zero arg7.view zeros2, View.readCov_unit_zero arg8.view zeros2, View.readCov_unit_zero arg9.view zeros2, View.readAt_eq_ld, harg2.read_unread, harg3.read_unread, harg4.read_unread, harg5.read_unread, harg7.read_unread, harg8.read_unread, harg9.read_unread,
      View.ld_unit_zero (S := S512x1) zeros2, View.ld_unit_zero (S := S1x2048) zeros2, View.ld_unit_zero (S := S512x2048) zeros2,
      View.ld_unit_zero (S := S512x256) zeros2]
  iexists _; isplitr
  swap; · iexact HS2
  ipureintro
  sl_unfold_run_names
  refine (read_writes_whole_last _ _ zeros2 _ _ _).trans ?_
  dsimp only
  simp only [View.readCov_unit_zero arg7.view zeros2, View.readCov_unit_zero arg8.view zeros2, View.readCov_unit_zero arg9.view zeros2, View.readAt_eq_ld, harg2.read_unread, harg3.read_unread, harg4.read_unread, harg5.read_unread, harg7.read_unread, harg8.read_unread, harg9.read_unread,
      View.ld_unit_zero (S := S512x1) zeros2, View.ld_unit_zero (S := S1x2048) zeros2, View.ld_unit_zero (S := S512x2048) zeros2,
      View.ld_unit_zero (S := S512x256) zeros2]

end Cert.Kernel.Hand

end
-- ==== Proof.BK1Body.lean ====
/-
  Region 1: the body obligation of the online-softmax kernel at every grid point, from the three per-case runs; the
  point's case is read off its position modulo 4 (the tile number), and the carried state named by the proof data is
  one step of the update from the reset values (first tile) or from what the point before left (later tiles).
-/
import proofs.«125599_j41618233098759_2_alg».proof.Proof.BK1BodyC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body obligation, at a generic point -/

/-- What the body is called with at point t, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point. The input windows hold their blocks; the position modulo 4 says which case the point is in;
    the invariant hands the body the three carried buffers (at anything before the first point, else at what the point
    before left) and takes them back at this point's state; the output window's buffer is handed back untouched except
    at the last tile of a row block, where it is left at the quotient through the elu. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS V c (t.val + 1) t.isLt from rfl, PhiS_succ]
  have hN : t.val < 64 := lt_of_lt_of_eq t.isLt (show cfg1.N = 64 from N_1)
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  rw [show (dat1 V c).leavesExact 3 t = owns (c : Thread nD τ) (st1_3 t) fullShare ((dat1 V c).after 3 t) from by
    unfold Dat.leavesExact; rw [liveAt1_3 t], after1_3]
  by_cases h0 : t.val % 4 = 0
  · -- the first tile of a row block
    have hc0 : cond1_0 (grid1.coords t) := (hcond1_0 t).mpr h0
    have hc1 : ¬cond1_1 (grid1.coords t) := fun h => by have := (hcond1_1 t).mp h; omega
    rw [Dat.leavesExact_idle (dat1 V c) 4 t (idleAt1_4 t hc1) (noFlush1_4 t hc1)]
    rw [stAt_first V c t h0]
    by_cases hz : t.val = 0
    · rw [PhiS_castSucc V c t, PhiS_zero V c _ _ hz, PhiA1_eq]
      iintro ⟨⟨⟨Hoth, HS0, HS1, HS2⟩, Hg⟩, Ho, ⟨%d0, H0⟩, ⟨%d1, H1⟩, ⟨%d2, H2⟩, ⟨%d3, H3⟩, ⟨%d4, H4⟩⟩
      iapply (run1_A c Set.univ (grid1.coords t) _ _ _ _ _ _ _ _ _ _ _ _ _ _ _ _ hc0 hc1 (iblk1 V c 0 t) (iblk1 V c 1 t) (iblk1 V c 2 t) (iblk1 V c 3 t) _ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      iintro ⟨H0, H1, H2, H3, H4, HS0, HS1, HS2⟩
      isplitl [Hoth HS0 HS1 HS2 Hg]
      · isplitr [Hg]
        · isplitl [Hoth]; · iexact Hoth
          isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      iexists _; iexact H4
    · rw [PhiS_castSucc V c t, PhiS_pos V c _ _ hz]
      iintro ⟨⟨⟨Hoth, HS0, HS1, HS2⟩, Hg⟩, Ho, ⟨%d0, H0⟩, ⟨%d1, H1⟩, ⟨%d2, H2⟩, ⟨%d3, H3⟩, ⟨%d4, H4⟩⟩
      iapply (run1_A c Set.univ (grid1.coords t) _ _ _ _ _ _ _ _ _ _ _ _ _ _ _ _ hc0 hc1 (iblk1 V c 0 t) (iblk1 V c 1 t) (iblk1 V c 2 t) (iblk1 V c 3 t) _ _)
      isplitl [H0]; · iexact H0
      isplitl [H1]; · iexact H1
      isplitl [H2]; · iexact H2
      isplitl [H3]; · iexact H3
      isplitl [H4]; · iexact H4
      isplitl [HS0]; · iexists _; iexact HS0
      isplitl [HS1]; · iexists _; iexact HS1
      isplitl [HS2]; · iexists _; iexact HS2
      iintro ⟨H0, H1, H2, H3, H4, HS0, HS1, HS2⟩
      isplitl [Hoth HS0 HS1 HS2 Hg]
      · isplitr [Hg]
        · isplitl [Hoth]; · iexact Hoth
          isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      iexists _; iexact H4
  · have hc0 : ¬cond1_0 (grid1.coords t) := fun h => h0 ((hcond1_0 t).mp h)
    have hz : t.val ≠ 0 := fun e => h0 (by rw [e])
    have hp : t.val - 1 < cfg1.N := Nat.lt_of_le_of_lt (Nat.sub_le _ _) t.isLt
    rw [stAt_later V c t h0]
    rw [PhiS_castSucc V c t, PhiS_pos V c _ _ hz]
    by_cases h1 : t.val % 4 = 3
    · -- the last tile of a row block
      have hc1 : cond1_1 (grid1.coords t) := (hcond1_1 t).mpr h1
      rw [show (dat1 V c).leavesExact 4 t = owns (c : Thread nD τ) (st1_4 t) fullShare ((dat1 V c).after 4 t) from by
        unfold Dat.leavesExact; rw [liveAt1_4 t hc1], after1_4]
      rw [stAt_later V c t h0]
      iintro ⟨⟨⟨Hoth, HS0, HS1, HS2⟩, Hg⟩, Ho, ⟨%d0, H0⟩, ⟨%d1, H1⟩, ⟨%d2, H2⟩, ⟨%d3, H3⟩, ⟨%d4, H4⟩⟩
      iapply (run1_C c Set.univ (grid1.coords t) _ _ _ _ _ _ _ _ _ _ _ _ _ _ _ _ hc0 hc1 (iblk1 V c 0 t) (iblk1 V c 1 t) (iblk1 V c 2 t) (iblk1 V c 3 t)
        (stAt V c (t.val - 1) hp).1 (stAt V c (t.val - 1) hp).2.1 (stAt V c (t.val - 1) hp).2.2 _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HS2]; · iexact HS2
      iintro ⟨H0, H1, H2, H3, H4, HS0, HS1, HS2⟩
      isplitl [Hoth HS0 HS1 HS2 Hg]
      · isplitr [Hg]
        · isplitl [Hoth]; · iexact Hoth
          isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      iexact H4
    · -- a middle tile
      have hc1 : ¬cond1_1 (grid1.coords t) := fun h => h1 ((hcond1_1 t).mp h)
      rw [Dat.leavesExact_idle (dat1 V c) 4 t (idleAt1_4 t hc1) (noFlush1_4 t hc1)]
      iintro ⟨⟨⟨Hoth, HS0, HS1, HS2⟩, Hg⟩, Ho, ⟨%d0, H0⟩, ⟨%d1, H1⟩, ⟨%d2, H2⟩, ⟨%d3, H3⟩, ⟨%d4, H4⟩⟩
      iapply (run1_B c Set.univ (grid1.coords t) _ _ _ _ _ _ _ _ _ _ _ _ _ _ _ _ hc0 hc1 (iblk1 V c 0 t) (iblk1 V c 1 t) (iblk1 V c 2 t) (iblk1 V c 3 t) _
        (stAt V c (t.val - 1) hp).1 (stAt V c (t.val - 1) hp).2.1 (stAt V c (t.val - 1) hp).2.2 _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      iintro ⟨H0, H1, H2, H3, H4, HS0, HS1, HS2⟩
      isplitl [Hoth HS0 HS1 HS2 Hg]
      · isplitr [Hg]
        · isplitl [Hoth]; · iexact Hoth
          isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KDefs.lean ====
/-
  The proof data of the two kernel regions, as definitions shared by the body proofs, the value proofs and the run.

  Region 0 computes, per block of 1024 rows, the product of the block of x with W (stored in the narrow format) and its
  two row sums against the two halves of a. Region 1 walks, for each block of 512 rows, the four tiles of 2048 columns,
  carrying in three scratch buffers the running maximum, the running denominator and the running numerator; at the first
  tile of a row block the three are reset, at the last the quotient (through the elu) is stored into the output block.
  What the carried buffers hold after grid point n is `stAt n`: one step of the update from what point n − 1 left, or from
  the reset values when n starts a row block.
-/
import proofs.«125599_j41618233098759_2_alg».proof.Proof.Gen.KernelIdeal.Launch
import proofs.«125599_j41618233098759_2_alg».proof.Proof.Gen.KernelIdeal.Skeleton
import proofs.«125599_j41618233098759_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when a region is entered: the parameter every region's half is stated at
variable (V : (c : Dev nD) → (b : Ref sig .tc) → Buf (Elt F) ((c : Thread nD τ).loc b))

/-! # Region 0 -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The body's accesses: every one the whole staging buffer. -/
abbrev r0_x : Rect S1024x512 := Rect.unit (s := S1024x512) ![0, 0] S1024x512.size inb_S1024x512_S1024x512_0_0
abbrev r0_w : Rect S512x256 := Rect.unit (s := S512x256) ![0, 0] S512x256.size inb_S512x256_S512x256_0_0
abbrev r0_a : Rect S1x256 := Rect.unit (s := S1x256) ![0, 0] S1x256.size inb_S1x256_S1x256_0_0
abbrev r0_h : Rect S1024x256 := Rect.unit (s := S1024x256) ![0, 0] S1024x256.size inb_S1024x256_S1024x256_0_0
abbrev r0_s : Rect S1024x1 := Rect.unit (s := S1024x1) ![0, 0] S1024x1.size inb_S1024x1_S1024x1_0_0

/-- What the body leaves in each output window's buffer, from the input blocks: its one store as a piece. -/
def out0_4 (x0 : Vec F S1024x512 .f32) (x1 : Vec F S512x256 .f32) : Vec F S1024x256 .bf16 :=
  View.canon [⟨r0_h, k0_pay2 (View.ld x0 r0_x) (View.ld x1 r0_w)⟩]
def out0_5 (x0 : Vec F S1024x512 .f32) (x1 : Vec F S512x256 .f32) (x2 : Vec F S1x256 .f32) : Vec F S1024x1 .f32 :=
  View.canon [⟨r0_s, k0_pay3 (View.ld x0 r0_x) (View.ld x1 r0_w) (View.ld x2 r0_a)⟩]
def out0_6 (x0 : Vec F S1024x512 .f32) (x1 : Vec F S512x256 .f32) (x3 : Vec F S1x256 .f32) : Vec F S1024x1 .f32 :=
  View.canon [⟨r0_s, k0_pay4 (View.ld x0 r0_x) (View.ld x1 r0_w) (View.ld x3 r0_a)⟩]

/-- The proof data of pipeline 0 on core c: the arrays as the region finds them; after the body at point t each
    input's buffer at its block and each output's at its function of the input blocks; the class invariant (the scoped
    rest and the generator register, untouched); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t)
    | ⟨5, _⟩ => out0_5 (iblk0 V c 0 t) (iblk0 V c 1 t) (iblk0 V c 2 t)
    | ⟨6, _⟩ => out0_6 (iblk0 V c 0 t) (iblk0 V c 1 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) := by dsimp only [dat0]
theorem after0_5 (c : Dev nD) (t : Fin cfg0.N) : (dat0 V c).after 5 t = out0_5 (iblk0 V c 0 t) (iblk0 V c 1 t) (iblk0 V c 2 t) := by dsimp only [dat0]
theorem after0_6 (c : Dev nD) (t : Fin cfg0.N) : (dat0 V c).after 6 t = out0_6 (iblk0 V c 0 t) (iblk0 V c 1 t) (iblk0 V c 3 t) := by dsimp only [dat0]

/-! # Region 1 -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The scratch operands: whole scoped buffers of the kernel's own (the running maximum, denominator, numerator). -/
abbrev scM1_0 : Memref sig .tc .vmem S512x1 .f32 := Memref.whole cc1_scratch0
abbrev scM1_1 : Memref sig .tc .vmem S512x1 .f32 := Memref.whole cc1_scratch1
abbrev scM1_2 : Memref sig .tc .vmem S512x256 .f32 := Memref.whole cc1_scratch2

/-- The rows of h the tile of point i multiplies against: 2048 rows from row 2048 · (tile number) of the resident copy. -/
abbrev r1_h (i : grid1.Coords) : Rect S8192x256 := Rect.unit (s := S8192x256) (k1_off1 i) S2048x256.size (k1_off1_inb i)

/-- What the three carried buffers hold: the running maximum, the running denominator, the running numerator. -/
abbrev St1 (F : FTy → Type) [FloatOps F] : Type := Vec F S512x1 .f32 × Vec F S512x1 .f32 × Vec F S512x256 .f32

/-- The reset values stored at the first tile of a row block: the stand-in for −∞, zero, zero. -/
def init1 : St1 F := (k1_pay4 (F := F), k1_pay5 (F := F), k1_pay6 (F := F))

/-- One tile: the new maximum, the rescaled denominator plus the tile's sum of exponentials, the rescaled numerator plus
    the tile's exponentials against its rows of h. -/
def step1 (i : grid1.Coords) (al : Vec F S512x1 .f32) (ar : Vec F S1x2048 .f32) (ad : Vec F S512x2048 .f32)
    (hf : Vec F S8192x256 .bf16) (s : St1 F) : St1 F :=
  (k1_pay2 (k1_pay8 al ar ad s.1), k1_pay11 al ar ad s.1 s.2.1,
    k1_pay1 (k1_pay9 al ar ad s.1) (k1_pay10 al ar ad s.1) (View.ld hf (r1_h i)) s.2.2)

/-- THE CARRIED STATE after the body at position n: one step from the reset values when n starts a row block (n ≡ 0 mod 4),
    else one step from what position n − 1 left. -/
def stAt (c : Dev nD) : (n : ℕ) → n < cfg1.N → St1 F
  | 0, hn => step1 (grid1.coords ⟨0, hn⟩) (iblk1 V c 0 ⟨0, hn⟩) (iblk1 V c 1 ⟨0, hn⟩) (iblk1 V c 2 ⟨0, hn⟩) (iblk1 V c 3 ⟨0, hn⟩) init1
  | n + 1, hn => step1 (grid1.coords ⟨n + 1, hn⟩) (iblk1 V c 0 ⟨n + 1, hn⟩) (iblk1 V c 1 ⟨n + 1, hn⟩) (iblk1 V c 2 ⟨n + 1, hn⟩) (iblk1 V c 3 ⟨n + 1, hn⟩)
      (if (n + 1) % 4 = 0 then init1 else stAt c n (Nat.lt_of_succ_lt hn))

theorem stAt_zero (c : Dev nD) (hn : 0 < cfg1.N) :
    stAt V c 0 hn = step1 (grid1.coords ⟨0, hn⟩) (iblk1 V c 0 ⟨0, hn⟩) (iblk1 V c 1 ⟨0, hn⟩) (iblk1 V c 2 ⟨0, hn⟩) (iblk1 V c 3 ⟨0, hn⟩) init1 := rfl
theorem stAt_succ (c : Dev nD) (n : ℕ) (hn : n + 1 < cfg1.N) :
    stAt V c (n + 1) hn = step1 (grid1.coords ⟨n + 1, hn⟩) (iblk1 V c 0 ⟨n + 1, hn⟩) (iblk1 V c 1 ⟨n + 1, hn⟩) (iblk1 V c 2 ⟨n + 1, hn⟩) (iblk1 V c 3 ⟨n + 1, hn⟩)
      (if (n + 1) % 4 = 0 then init1 else stAt V c n (Nat.lt_of_succ_lt hn)) := rfl

/-- What the output block holds after the last tile of a row block: the quotient through the elu, its one store as a piece
    (at the other points the window is idle and this value is consulted by nothing). -/
def out1_4 (s : St1 F) : Vec F S512x256 .f32 :=
  View.canon [⟨r0_w, k1_pay3 s.2.2 s.2.1⟩]

/-- The other call's staging buffers, each whole at some contents. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f))

/-- The region invariant before position n: before the first point the class's (every scoped buffer outside the staging
    at anything, the generator register at some state); afterwards the same with the three carried buffers at what the
    point before left in them. -/
def PhiS (c : Dev nD) : (n : ℕ) → n ≤ cfg1.N → sProp 𝕄
  | 0, _ => Pipeline.ΦA spec1 c
  | n + 1, hn => iprop(iprop(others1 (F := F) c ∗ owns (c : Thread nD τ) scM1_0 fullShare (stAt V c n hn).1
      ∗ owns (c : Thread nD τ) scM1_1 fullShare (stAt V c n hn).2.1 ∗ owns (c : Thread nD τ) scM1_2 fullShare (stAt V c n hn).2.2) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(iprop(others1 (F := F) c ∗ owns (c : Thread nD τ) scM1_0 fullShare (stAt V c n hn).1
      ∗ owns (c : Thread nD τ) scM1_1 fullShare (stAt V c n hn).2.1 ∗ owns (c : Thread nD τ) scM1_2 fullShare (stAt V c n hn).2.2) ∗ (∃ r, prngReg c r)) := rfl
theorem PhiS_pos (c : Dev nD) (n : ℕ) (h : n ≤ cfg1.N) (hz : n ≠ 0) :
    PhiS V c n h = iprop(iprop(others1 (F := F) c ∗ owns (c : Thread nD τ) scM1_0 fullShare (stAt V c (n - 1) (by omega)).1
      ∗ owns (c : Thread nD τ) scM1_1 fullShare (stAt V c (n - 1) (by omega)).2.1 ∗ owns (c : Thread nD τ) scM1_2 fullShare (stAt V c (n - 1) (by omega)).2.2) ∗ (∃ r, prngReg c r)) := by
  cases n with
  | zero => exact absurd rfl hz
  | succ n => rfl

/-- The proof data of pipeline 1 on core c. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (stAt V c t.val t.isLt)
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (stAt V c t.val t.isLt) := by dsimp only [dat1]
theorem PhiS_castSucc (c : Dev nD) (t : Fin cfg1.N) :
    (dat1 V c).Φ t.castSucc = PhiS V c t.val (Nat.le_of_lt t.isLt) := by
  dsimp only [dat1]; simp only [Fin.coe_castSucc]

end Cert.KernelIdeal.Hand

end
-- ==== Proof.K0Body.lean ====
/-
  Region 0 of the kernel: the body obligation of its pipeline.

  The body loads the whole block of x, the whole of W, and the two rows of a; it stores the product of the block of x
  with W (in the narrow format) into the first output buffer and its row sums against each of the two rows into the other
  two. Every store is the whole buffer, so what each output buffer holds afterwards is its one store's payload, whatever
  it held before (each output buffer is also loaded before it is stored, and that value is used by nothing).
-/
import proofs.«125599_j41618233098759_2_alg».proof.Proof.KDefs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in each input window's buffer -/

/-- An input window's current buffer holds its block at every point, fetched there or not: where it is not fetched the
    block index has not moved, and the body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## Each output's one store covers its buffer -/

theorem cover0_4 (p0 : Vec F S1024x256 .bf16) (y : S1024x256.Idx) :
    ∃ pc ∈ ([⟨r0_h, p0⟩] : List (View.Piece (Elt F) S1024x256 .bf16)), y ∈ pc.1.set :=
  View.cover_of_tiled [⟨r0_h, p0⟩] S1024x256.size (by rfl) y
theorem cover0_5 (p0 : Vec F S1024x1 .f32) (y : S1024x1.Idx) :
    ∃ pc ∈ ([⟨r0_s, p0⟩] : List (View.Piece (Elt F) S1024x1 .f32)), y ∈ pc.1.set :=
  View.cover_of_tiled [⟨r0_s, p0⟩] S1024x1.size (by rfl) y

/-! ## The body's triple -/

set_option maxHeartbeats 4000000 in
/-- The kernel body on whole staging memrefs, the inputs' at read contents and the outputs' at anything, runs to the
    continuation holding the inputs' as they were and each output's at its store's payload. -/
theorem sound_kernel0 (c : Dev nD) (E : Set ℕ) (i : grid0.Coords)
    (arg1 : Memref sig .tc .vmem S1024x512 .f32) (harg1 : arg1.IsWhole) (arg2 : Memref sig .tc .vmem S512x256 .f32) (harg2 : arg2.IsWhole)
    (arg3 : Memref sig .tc .vmem S1x256 .f32) (harg3 : arg3.IsWhole) (arg4 : Memref sig .tc .vmem S1x256 .f32) (harg4 : arg4.IsWhole)
    (arg5 : Memref sig .tc .vmem S1024x256 .bf16) (harg5 : arg5.IsWhole) (arg6 : Memref sig .tc .vmem S1024x1 .f32) (harg6 : arg6.IsWhole)
    (arg7 : Memref sig .tc .vmem S1024x1 .f32) (harg7 : arg7.IsWhole)
    (x0 : Vec F S1024x512 .f32) (x1 : Vec F S512x256 .f32) (x2 : Vec F S1x256 .f32) (x3 : Vec F S1x256 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (∃ d, owns (c : Thread nD τ) arg7 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out0_4 x0 x1) ∗ owns (c : Thread nD τ) arg6 fullShare (out0_5 x0 x1 x2)
            ∗ owns (c : Thread nD τ) arg7 fullShare (out0_6 x0 x1 x3)) -∗ K ⟨⟩))
      ⊢ wp frame (wpE (defs₀ (F := F)) Variants.none c none) E (cc0__h_kernel i arg1 harg1 arg2 harg2 arg3 harg3 arg4 harg4 arg5 harg5 arg6 harg6 arg7 harg7) K := by
  simp only [cc0__h_kernel_eq_skeleton]; unfold cc0__h_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0_4 _)
  isplitl [H5]
  · iexists _; isplitr
    swap; · iexact H5
    ipureintro
    exact View.read_writes_eq_canon _ _ _ (cover0_5 _)
  iexists _; isplitr
  swap; · iexact H6
  ipureintro
  exact View.read_writes_eq_canon _ _ _ (cover0_5 _)

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks, so the body's triple applies; the invariant and the
    core's owed tallies pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.K1BodyA.lean ====
/-
  Region 1 (the online softmax over the four column tiles of a row block): what its body proof shares between the
  three control cases — the two conditions on the tile number in closed form, where the output window is idle, the
  class invariant with the three carried buffers as owned operands, and what the body finds in each input window.
-/
import proofs.«125599_j41618233098759_2_alg».proof.Proof.KDefs
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The two conditions on the tile number -/

/-- The first conditional (the reset of the carried buffers): the tile number is 0. -/
abbrev cond1_0 (i : grid1.Coords) : Prop := (Scalar.cmpi .ne (Scalar.extui (Scalar.cmpi .eq (BitVec.ofNat 32 (i 1).val) 0#32)) 0#32) = 1#1
/-- It holds at the points ≡ 0 (mod 4), decided over the 64 points. -/
theorem hcond1_0 : ∀ t : Fin cfg1.N, cond1_0 (grid1.coords t) ↔ t.val % 4 = 0 :=
  (by decide +kernel : ∀ t : Fin grid1.N, cond1_0 (grid1.coords t) ↔ t.val % 4 = 0)

/-- The second conditional (the store of the output block): the tile number is 3. -/
abbrev cond1_1 (i : grid1.Coords) : Prop := k1_cond2 i = 1#1
/-- It holds at the points ≡ 3 (mod 4). -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- Away from the last tile the output window is idle and its block is not written back. -/
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
/-- At the last tile it is live. -/
theorem liveAt1_4 : ∀ t : Fin cfg1.N, cond1_1 (grid1.coords t) → cfg1.idle 4 (grid1.coords t) = false := by decide +kernel

/-! ## The class invariant with the carried buffers as owned operands -/

/-- Separating conjunction reassociates (as an equation of propositions). -/
theorem sep_assoc_eq {M : Type} [URA M] (P Q R : sProp M) : iprop((P ∗ Q) ∗ R) = iprop(P ∗ (Q ∗ R)) := by
  have h1 : iprop((P ∗ Q) ∗ R) ⊢ iprop(P ∗ (Q ∗ R)) := by
    iintro ⟨⟨HP, HQ⟩, HR⟩
    isplitl [HP]; · iexact HP
    isplitl [HQ]; · iexact HQ
    iexact HR
  have h2 : iprop(P ∗ (Q ∗ R)) ⊢ iprop((P ∗ Q) ∗ R) := by
    iintro ⟨HP, HQ, HR⟩
    isplitr [HR]
    · isplitl [HP]; · iexact HP
      iexact HQ
    iexact HR
  exact Entails.antisymm h1 h2

theorem PhiA1_eq (c : Dev nD) :
    (Pipeline.ΦA spec1 c : sProp 𝕄)
      = iprop(iprop(others1 (F := F) c ∗ (∃ d, owns (c : Thread nD τ) scM1_0 fullShare d) ∗ (∃ d, owns (c : Thread nD τ) scM1_1 fullShare d)
          ∗ (∃ d, owns (c : Thread nD τ) scM1_2 fullShare d)) ∗ (∃ r, prngReg c r)) := by
  unfold Pipeline.ΦA; rw [scopedRest1_eq]; simp only [others1, scM1_0, scM1_1, scM1_2, owns_whole, sep_assoc_eq]
  rfl

/-! ## The invariant at the region's two ends -/

/-- What the launch hands the region is the invariant before the first point. -/
theorem hin1 (c : Dev nD) : Pipeline.ΦA spec1 c ⊢ (dat1 (F := F) V c).Φ 0 := by
  rw [show (dat1 V c).Φ 0 = PhiS V c 0 (Nat.zero_le _) from rfl, PhiS_zero V c 0 _ rfl]
  try exact Idealize.SL.BI.Entails.refl _

/-- After any point but the first the invariant gives the class's back: what the carried buffers hold is forgotten. -/
theorem Phi_out1 (c : Dev nD) (t : Fin (cfg1.N + 1)) (ht : t.val ≠ 0) : (dat1 (F := F) V c).Φ t ⊢ Pipeline.ΦA spec1 c := by
  rw [show (dat1 V c).Φ t = PhiS V c t.val (Nat.le_of_lt_succ t.isLt) from rfl, PhiS_pos V c _ _ ht, PhiA1_eq]
  iintro ⟨⟨Ho, HS0, HS1, HS2⟩, Hg⟩
  isplitr [Hg]
  · isplitl [Ho]; · iexact Ho
    isplitl [HS0]; · iexists _; iexact HS0
    isplitl [HS1]; · iexists _; iexact HS1
    iexists _; iexact HS2
  iexact Hg

/-- The same after the last point. -/
theorem hout1 (c : Dev nD) : (dat1 (F := F) V c).Φ (Fin.last cfg1.N) ⊢ Pipeline.ΦA spec1 c :=
  Phi_out1 V c _ (by rw [Fin.val_last]; have : cfg1.N = 64 := N_1; omega)

/-! ## The carried state at a point, by the point's case -/

/-- At the first tile of a row block: one step from the reset values. -/
theorem stAt_first (c : Dev nD) (t : Fin cfg1.N) (h0 : t.val % 4 = 0) :
    stAt V c t.val t.isLt = step1 (grid1.coords t) (iblk1 V c 0 t) (iblk1 V c 1 t) (iblk1 V c 2 t) (iblk1 V c 3 t) (init1 (F := F)) := by
  obtain ⟨n, hn⟩ := t
  cases n with
  | zero => rfl
  | succ n => exact (stAt_succ V c n hn).trans (by rw [if_pos h0])

/-- At a later tile: one step from what the point before left. -/
theorem stAt_later (c : Dev nD) (t : Fin cfg1.N) (h0 : ¬t.val % 4 = 0) :
    stAt V c t.val t.isLt = step1 (grid1.coords t) (iblk1 V c 0 t) (iblk1 V c 1 t) (iblk1 V c 2 t) (iblk1 V c 3 t)
      (stAt V c (t.val - 1) (Nat.lt_of_le_of_lt (Nat.sub_le _ _) t.isLt)) := by
  obtain ⟨n, hn⟩ := t
  cases n with
  | zero => exact absurd (Nat.zero_mod _) h0
  | succ n => exact (stAt_succ V c n hn).trans (by rw [if_neg h0]; rfl)

/-! ## What the body finds in the input windows -/

theorem before1_0 (c : Dev nD) (t : Fin cfg1.N) (d) : (dat1 (F := F) V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 (F := F) V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 (F := F) V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 (F := F) V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)

/-! ## Reading a whole buffer back after a covering store -/

theorem zeros2 : (![0, 0] : Fin 2 → ℕ) = fun _ => 0 := by funext a; fin_cases a <;> rfl

/-- After a last store through the whole-shape rectangle, the buffer reads as that store's payload, whatever was
    stored before. -/
theorem read_writes_whole_last {sig : RefSig} {κ : Kind} {sp : Space} {S : Shape} {e : EltTy}
    (v : View sig κ sp S e) (f : v.ty.Contents (Elt F)) {off : Fin S.rank → ℕ} (h : off = fun _ => 0)
    (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero h inb y⟩),
    View.canon_cons_unit_zero h inb w L]

/-! ## The run at the first tile of a row block -/

set_option maxHeartbeats 1000000 in
/-- The first tile of a row block: whatever the three carried buffers held, the body resets them and leaves in them
    one step of the update from the reset values; the input blocks and the output block's buffer stay as found. -/
theorem run1_A (c : Dev nD) (E : Set ℕ) (i : grid1.Coords) (arg2 : Memref sig .tc .vmem S512x1 .f32) (harg2 : arg2.IsWhole) (arg3 : Memref sig .tc .vmem S1x2048 .f32) (harg3 : arg3.IsWhole) (arg4 : Memref sig .tc .vmem S512x2048 .f32) (harg4 : arg4.IsWhole) (arg5 : Memref sig .tc .vmem S8192x256 .bf16) (harg5 : arg5.IsWhole) (arg6 : Memref sig .tc .vmem S512x256 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x256 .f32) (harg9 : arg9.IsWhole)
    (hc0 : cond1_0 i) (hc1 : ¬cond1_1 i) (x0 : Vec F S512x1 .f32) (x1 : Vec F S1x2048 .f32) (x2 : Vec F S512x2048 .f32) (x3 : Vec F S8192x256 .bf16)
    (xi : Vec F S512x256 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare xi
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi
            ∗ owns (c : Thread nD τ) arg7 fullShare (k1_pay2 (k1_pay8 x0 x1 x2 (k1_pay4 (F := F))))
            ∗ owns (c : Thread nD τ) arg8 fullShare (k1_pay11 x0 x1 x2 (k1_pay4 (F := F)) (k1_pay5 (F := F)))
            ∗ owns (c : Thread nD τ) arg9 fullShare (k1_pay1 (k1_pay9 x0 x1 x2 (k1_pay4 (F := F))) (k1_pay10 x0 x1 x2 (k1_pay4 (F := F))) (View.ld x3 (r1_h i)) (k1_pay6 (F := F)))) -∗ K ⟨⟩))
      ⊢ wp frame (wpE (defs₀ (F := F)) Variants.none c none) E (cc1__attn_kernel i arg2 harg2 arg3 harg3 arg4 harg4 arg5 harg5 arg6 harg6 arg7 harg7 arg8 harg8 arg9 harg9) K := by
  simp only [cc1__attn_kernel_eq_skeleton]; unfold cc1__attn_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, Hk⟩
  obtain rfl := harg2.eq_unread hf0; obtain rfl := harg3.eq_unread hf1; obtain rfl := harg4.eq_unread hf2; obtain rfl := harg5.eq_unread hf3
  obtain rfl := harg6.eq_unread hf4
  sl_exec (disch := first | exact hc0 | exact hc1)

  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [HS0]
  · iexists _; isplitr
    swap; · iexact HS0
    ipureintro
    sl_unfold_run_names
    refine (read_writes_whole_last _ _ zeros2 _ _ _).trans ?_
    dsimp only
    simp only [View.readCov_unit_zero arg7.view zeros2, View.readCov_unit_zero arg8.view zeros2, View.readCov_unit_zero arg9.view zeros2, View.readAt_eq_ld, harg2.read_unread, harg3.read_unread, harg4.read_unread, harg5.read_unread, harg7.read_unread, harg8.read_unread, harg9.read_unread,
      View.ld_unit_zero (S := S512x1) zeros2, View.ld_unit_zero (S := S1x2048) zeros2, View.ld_unit_zero (S := S512x2048) zeros2,
      View.ld_unit_zero (S := S512x256) zeros2]
  isplitl [HS1]
  · iexists _; isplitr
    swap; · iexact HS1
    ipureintro
    sl_unfold_run_names
    refine (read_writes_whole_last _ _ zeros2 _ _ _).trans ?_
    dsimp only
    simp only [View.readCov_unit_zero arg7.view zeros2, View.readCov_unit_zero arg8.view zeros2, View.readCov_unit_zero arg9.view zeros2, View.readAt_eq_ld, harg2.read_unread, harg3.read_unread, harg4.read_unread, harg5.read_unread, harg7.read_unread, harg8.read_unread, harg9.read_unread,
      View.ld_unit_zero (S := S512x1) zeros2, View.ld_unit_zero (S := S1x2048) zeros2, View.ld_unit_zero (S := S512x2048) zeros2,
      View.ld_unit_zero (S := S512x256) zeros2]
  iexists _; isplitr
  swap; · iexact HS2
  ipureintro
  sl_unfold_run_names
  refine (read_writes_whole_last _ _ zeros2 _ _ _).trans ?_
  dsimp only
  simp only [View.readCov_unit_zero arg7.view zeros2, View.readCov_unit_zero arg8.view zeros2, View.readCov_unit_zero arg9.view zeros2, View.readAt_eq_ld, harg2.read_unread, harg3.read_unread, harg4.read_unread, harg5.read_unread, harg7.read_unread, harg8.read_unread, harg9.read_unread,
      View.ld_unit_zero (S := S512x1) zeros2, View.ld_unit_zero (S := S1x2048) zeros2, View.ld_unit_zero (S := S512x2048) zeros2,
      View.ld_unit_zero (S := S512x256) zeros2]

end Cert.KernelIdeal.Hand

end
-- ==== Proof.K1BodyB.lean ====
/-
  Region 1: the run of the body at a middle tile of a row block (neither reset nor output).
-/
import proofs.«125599_j41618233098759_2_alg».proof.Proof.K1BodyA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- A middle tile (neither the first nor the last of its row block): from the carried maximum, denominator and
    numerator (sm, sl, sa) the body leaves one step of the update in the three carried buffers, the input blocks and
    the output block's buffer as it found them. -/
theorem run1_B (c : Dev nD) (E : Set ℕ) (i : grid1.Coords) (arg2 : Memref sig .tc .vmem S512x1 .f32) (harg2 : arg2.IsWhole) (arg3 : Memref sig .tc .vmem S1x2048 .f32) (harg3 : arg3.IsWhole) (arg4 : Memref sig .tc .vmem S512x2048 .f32) (harg4 : arg4.IsWhole) (arg5 : Memref sig .tc .vmem S8192x256 .bf16) (harg5 : arg5.IsWhole) (arg6 : Memref sig .tc .vmem S512x256 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x256 .f32) (harg9 : arg9.IsWhole)
    (hc0 : ¬cond1_0 i) (hc1 : ¬cond1_1 i) (x0 : Vec F S512x1 .f32) (x1 : Vec F S1x2048 .f32) (x2 : Vec F S512x2048 .f32) (x3 : Vec F S8192x256 .bf16)
    (xi : Vec F S512x256 .f32) (sm : Vec F S512x1 .f32) (sl : Vec F S512x1 .f32) (sa : Vec F S512x256 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare xi
        ∗ owns (c : Thread nD τ) arg7 fullShare sm ∗ owns (c : Thread nD τ) arg8 fullShare sl ∗ owns (c : Thread nD τ) arg9 fullShare sa
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi
            ∗ owns (c : Thread nD τ) arg7 fullShare (k1_pay2 (k1_pay8 x0 x1 x2 sm))
            ∗ owns (c : Thread nD τ) arg8 fullShare (k1_pay11 x0 x1 x2 sm sl)
            ∗ owns (c : Thread nD τ) arg9 fullShare (k1_pay1 (k1_pay9 x0 x1 x2 sm) (k1_pay10 x0 x1 x2 sm) (View.ld x3 (r1_h i)) sa)) -∗ K ⟨⟩))
      ⊢ wp frame (wpE (defs₀ (F := F)) Variants.none c none) E (cc1__attn_kernel i arg2 harg2 arg3 harg3 arg4 harg4 arg5 harg5 arg6 harg6 arg7 harg7 arg8 harg8 arg9 harg9) K := by
  simp only [cc1__attn_kernel_eq_skeleton]; unfold cc1__attn_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, Hk⟩
  obtain rfl := harg2.eq_unread hf0; obtain rfl := harg3.eq_unread hf1; obtain rfl := harg4.eq_unread hf2; obtain rfl := harg5.eq_unread hf3
  obtain rfl := harg6.eq_unread hf4
  obtain rfl := harg7.eq_unread hfs0; obtain rfl := harg8.eq_unread hfs1; obtain rfl := harg9.eq_unread hfs2
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [HS0]
  · iexists _; isplitr
    swap; · iexact HS0
    ipureintro
    refine (read_writes_whole_last _ _ zeros2 _ _ _).trans ?_
    dsimp only
    simp only [View.readAt_eq_ld, harg2.read_unread, harg3.read_unread, harg4.read_unread, harg7.read_unread,
      View.ld_unit_zero (S := S512x1) zeros2, View.ld_unit_zero (S := S1x2048) zeros2, View.ld_unit_zero (S := S512x2048) zeros2]
  isplitl [HS1]
  · iexists _; isplitr
    swap; · iexact HS1
    ipureintro
    refine (read_writes_whole_last _ _ zeros2 _ _ _).trans ?_
    dsimp only
    simp only [View.readAt_eq_ld, harg2.read_unread, harg3.read_unread, harg4.read_unread, harg7.read_unread, harg8.read_unread,
      View.ld_unit_zero (S := S512x1) zeros2, View.ld_unit_zero (S := S1x2048) zeros2, View.ld_unit_zero (S := S512x2048) zeros2]
  iexists _; isplitr
  swap; · iexact HS2
  ipureintro
  refine (read_writes_whole_last _ _ zeros2 _ _ _).trans ?_
  dsimp only
  simp only [View.readAt_eq_ld, harg2.read_unread, harg3.read_unread, harg4.read_unread, harg5.read_unread, harg7.read_unread, harg9.read_unread,
    View.ld_unit_zero (S := S512x1) zeros2, View.ld_unit_zero (S := S1x2048) zeros2, View.ld_unit_zero (S := S512x2048) zeros2,
    View.ld_unit_zero (S := S512x256) zeros2]

end Cert.KernelIdeal.Hand

end
-- ==== Proof.K1BodyC.lean ====
/-
  Region 1: the run of the body at the last tile of a row block (the output block is stored).
-/
import proofs.«125599_j41618233098759_2_alg».proof.Proof.K1BodyB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The last tile of a row block: one step of the update from the carried values (sm, sl, sa) in the three carried
    buffers, and the quotient of the new numerator by the new denominator, through the elu, stored over the output
    block's buffer whatever it held. -/
theorem run1_C (c : Dev nD) (E : Set ℕ) (i : grid1.Coords) (arg2 : Memref sig .tc .vmem S512x1 .f32) (harg2 : arg2.IsWhole) (arg3 : Memref sig .tc .vmem S1x2048 .f32) (harg3 : arg3.IsWhole) (arg4 : Memref sig .tc .vmem S512x2048 .f32) (harg4 : arg4.IsWhole) (arg5 : Memref sig .tc .vmem S8192x256 .bf16) (harg5 : arg5.IsWhole) (arg6 : Memref sig .tc .vmem S512x256 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x256 .f32) (harg9 : arg9.IsWhole)
    (hc0 : ¬cond1_0 i) (hc1 : cond1_1 i) (x0 : Vec F S512x1 .f32) (x1 : Vec F S1x2048 .f32) (x2 : Vec F S512x2048 .f32) (x3 : Vec F S8192x256 .bf16)
    (sm : Vec F S512x1 .f32) (sl : Vec F S512x1 .f32) (sa : Vec F S512x256 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d)
        ∗ owns (c : Thread nD τ) arg7 fullShare sm ∗ owns (c : Thread nD τ) arg8 fullShare sl ∗ owns (c : Thread nD τ) arg9 fullShare sa
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (View.canon [⟨r0_w, k1_pay3 (k1_pay1 (k1_pay9 x0 x1 x2 sm) (k1_pay10 x0 x1 x2 sm) (View.ld x3 (r1_h i)) sa) (k1_pay11 x0 x1 x2 sm sl)⟩])
            ∗ owns (c : Thread nD τ) arg7 fullShare (k1_pay2 (k1_pay8 x0 x1 x2 sm))
            ∗ owns (c : Thread nD τ) arg8 fullShare (k1_pay11 x0 x1 x2 sm sl)
            ∗ owns (c : Thread nD τ) arg9 fullShare (k1_pay1 (k1_pay9 x0 x1 x2 sm) (k1_pay10 x0 x1 x2 sm) (View.ld x3 (r1_h i)) sa)) -∗ K ⟨⟩))
      ⊢ wp frame (wpE (defs₀ (F := F)) Variants.none c none) E (cc1__attn_kernel i arg2 harg2 arg3 harg3 arg4 harg4 arg5 harg5 arg6 harg6 arg7 harg7 arg8 harg8 arg9 harg9) K := by
  simp only [cc1__attn_kernel_eq_skeleton]; unfold cc1__attn_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, Hk⟩
  obtain rfl := harg2.eq_unread hf0; obtain rfl := harg3.eq_unread hf1; obtain rfl := harg4.eq_unread hf2; obtain rfl := harg5.eq_unread hf3
  obtain rfl := harg7.eq_unread hfs0; obtain rfl := harg8.eq_unread hfs1; obtain rfl := harg9.eq_unread hfs2
  sl_exec (disch := first | exact hc0 | exact hc1)

  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    rw [View.canon_unit_zero (S := S512x256) zeros2]
    refine (read_writes_whole_last _ _ zeros2 _ _ _).trans ?_
    sl_unfold_run_names
    dsimp only
    simp only [View.readCov_unit_zero arg7.view zeros2, View.readCov_unit_zero arg8.view zeros2, View.readCov_unit_zero arg9.view zeros2, View.readAt_eq_ld, harg2.read_unread, harg3.read_unread, harg4.read_unread, harg5.read_unread, harg7.read_unread, harg8.read_unread, harg9.read_unread,
      View.ld_unit_zero (S := S512x1) zeros2, View.ld_unit_zero (S := S1x2048) zeros2, View.ld_unit_zero (S := S512x2048) zeros2,
      View.ld_unit_zero (S := S512x256) zeros2]
  isplitl [HS0]
  · iexists _; isplitr
    swap; · iexact HS0
    ipureintro
    sl_unfold_run_names
    refine (read_writes_whole_last _ _ zeros2 _ _ _).trans ?_
    dsimp only
    simp only [View.readCov_unit_zero arg7.view zeros2, View.readCov_unit_zero arg8.view zeros2, View.readCov_unit_zero arg9.view zeros2, View.readAt_eq_ld, harg2.read_unread, harg3.read_unread, harg4.read_unread, harg5.read_unread, harg7.read_unread, harg8.read_unread, harg9.read_unread,
      View.ld_unit_zero (S := S512x1) zeros2, View.ld_unit_zero (S := S1x2048) zeros2, View.ld_unit_zero (S := S512x2048) zeros2,
      View.ld_unit_zero (S := S512x256) zeros2]
  isplitl [HS1]
  · iexists _; isplitr
    swap; · iexact HS1
    ipureintro
    sl_unfold_run_names
    refine (read_writes_whole_last _ _ zeros2 _ _ _).trans ?_
    dsimp only
    simp only [View.readCov_unit_zero arg7.view zeros2, View.readCov_unit_zero arg8.view zeros2, View.readCov_unit_zero arg9.view zeros2, View.readAt_eq_ld, harg2.read_unread, harg3.read_unread, harg4.read_unread, harg5.read_unread, harg7.read_unread, harg8.read_unread, harg9.read_unread,
      View.ld_unit_zero (S := S512x1) zeros2, View.ld_unit_zero (S := S1x2048) zeros2, View.ld_unit_zero (S := S512x2048) zeros2,
      View.ld_unit_zero (S := S512x256) zeros2]
  iexists _; isplitr
  swap; · iexact HS2
  ipureintro
  sl_unfold_run_names
  refine (read_writes_whole_last _ _ zeros2 _ _ _).trans ?_
  dsimp only
  simp only [View.readCov_unit_zero arg7.view zeros2, View.readCov_unit_zero arg8.view zeros2, View.readCov_unit_zero arg9.view zeros2, View.readAt_eq_ld, harg2.read_unread, harg3.read_unread, harg4.read_unread, harg5.read_unread, harg7.read_unread, harg8.read_unread, harg9.read_unread,
      View.ld_unit_zero (S := S512x1) zeros2, View.ld_unit_zero (S := S1x2048) zeros2, View.ld_unit_zero (S := S512x2048) zeros2,
      View.ld_unit_zero (S := S512x256) zeros2]

end Cert.KernelIdeal.Hand

end
-- ==== Proof.K1Body.lean ====
/-
  Region 1: the body obligation of the online-softmax kernel at every grid point, from the three per-case runs; the
  point's case is read off its position modulo 4 (the tile number), and the carried state named by the proof data is
  one step of the update from the reset values (first tile) or from what the point before left (later tiles).
-/
import proofs.«125599_j41618233098759_2_alg».proof.Proof.K1BodyC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body obligation, at a generic point -/

/-- What the body is called with at point t, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point. The input windows hold their blocks; the position modulo 4 says which case the point is in;
    the invariant hands the body the three carried buffers (at anything before the first point, else at what the point
    before left) and takes them back at this point's state; the output window's buffer is handed back untouched except
    at the last tile of a row block, where it is left at the quotient through the elu. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS V c (t.val + 1) t.isLt from rfl, PhiS_succ]
  have hN : t.val < 64 := lt_of_lt_of_eq t.isLt (show cfg1.N = 64 from N_1)
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  rw [show (dat1 V c).leavesExact 3 t = owns (c : Thread nD τ) (st1_3 t) fullShare ((dat1 V c).after 3 t) from by
    unfold Dat.leavesExact; rw [liveAt1_3 t], after1_3]
  by_cases h0 : t.val % 4 = 0
  · -- the first tile of a row block
    have hc0 : cond1_0 (grid1.coords t) := (hcond1_0 t).mpr h0
    have hc1 : ¬cond1_1 (grid1.coords t) := fun h => by have := (hcond1_1 t).mp h; omega
    rw [Dat.leavesExact_idle (dat1 V c) 4 t (idleAt1_4 t hc1) (noFlush1_4 t hc1)]
    rw [stAt_first V c t h0]
    by_cases hz : t.val = 0
    · rw [PhiS_castSucc V c t, PhiS_zero V c _ _ hz, PhiA1_eq]
      iintro ⟨⟨⟨Hoth, HS0, HS1, HS2⟩, Hg⟩, Ho, ⟨%d0, H0⟩, ⟨%d1, H1⟩, ⟨%d2, H2⟩, ⟨%d3, H3⟩, ⟨%d4, H4⟩⟩
      iapply (run1_A c Set.univ (grid1.coords t) _ _ _ _ _ _ _ _ _ _ _ _ _ _ _ _ hc0 hc1 (iblk1 V c 0 t) (iblk1 V c 1 t) (iblk1 V c 2 t) (iblk1 V c 3 t) _ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      iintro ⟨H0, H1, H2, H3, H4, HS0, HS1, HS2⟩
      isplitl [Hoth HS0 HS1 HS2 Hg]
      · isplitr [Hg]
        · isplitl [Hoth]; · iexact Hoth
          isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      iexists _; iexact H4
    · rw [PhiS_castSucc V c t, PhiS_pos V c _ _ hz]
      iintro ⟨⟨⟨Hoth, HS0, HS1, HS2⟩, Hg⟩, Ho, ⟨%d0, H0⟩, ⟨%d1, H1⟩, ⟨%d2, H2⟩, ⟨%d3, H3⟩, ⟨%d4, H4⟩⟩
      iapply (run1_A c Set.univ (grid1.coords t) _ _ _ _ _ _ _ _ _ _ _ _ _ _ _ _ hc0 hc1 (iblk1 V c 0 t) (iblk1 V c 1 t) (iblk1 V c 2 t) (iblk1 V c 3 t) _ _)
      isplitl [H0]; · iexact H0
      isplitl [H1]; · iexact H1
      isplitl [H2]; · iexact H2
      isplitl [H3]; · iexact H3
      isplitl [H4]; · iexact H4
      isplitl [HS0]; · iexists _; iexact HS0
      isplitl [HS1]; · iexists _; iexact HS1
      isplitl [HS2]; · iexists _; iexact HS2
      iintro ⟨H0, H1, H2, H3, H4, HS0, HS1, HS2⟩
      isplitl [Hoth HS0 HS1 HS2 Hg]
      · isplitr [Hg]
        · isplitl [Hoth]; · iexact Hoth
          isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      iexists _; iexact H4
  · have hc0 : ¬cond1_0 (grid1.coords t) := fun h => h0 ((hcond1_0 t).mp h)
    have hz : t.val ≠ 0 := fun e => h0 (by rw [e])
    have hp : t.val - 1 < cfg1.N := Nat.lt_of_le_of_lt (Nat.sub_le _ _) t.isLt
    rw [stAt_later V c t h0]
    rw [PhiS_castSucc V c t, PhiS_pos V c _ _ hz]
    by_cases h1 : t.val % 4 = 3
    · -- the last tile of a row block
      have hc1 : cond1_1 (grid1.coords t) := (hcond1_1 t).mpr h1
      rw [show (dat1 V c).leavesExact 4 t = owns (c : Thread nD τ) (st1_4 t) fullShare ((dat1 V c).after 4 t) from by
        unfold Dat.leavesExact; rw [liveAt1_4 t hc1], after1_4]
      rw [stAt_later V c t h0]
      iintro ⟨⟨⟨Hoth, HS0, HS1, HS2⟩, Hg⟩, Ho, ⟨%d0, H0⟩, ⟨%d1, H1⟩, ⟨%d2, H2⟩, ⟨%d3, H3⟩, ⟨%d4, H4⟩⟩
      iapply (run1_C c Set.univ (grid1.coords t) _ _ _ _ _ _ _ _ _ _ _ _ _ _ _ _ hc0 hc1 (iblk1 V c 0 t) (iblk1 V c 1 t) (iblk1 V c 2 t) (iblk1 V c 3 t)
        (stAt V c (t.val - 1) hp).1 (stAt V c (t.val - 1) hp).2.1 (stAt V c (t.val - 1) hp).2.2 _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HS2]; · iexact HS2
      iintro ⟨H0, H1, H2, H3, H4, HS0, HS1, HS2⟩
      isplitl [Hoth HS0 HS1 HS2 Hg]
      · isplitr [Hg]
        · isplitl [Hoth]; · iexact Hoth
          isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      iexact H4
    · -- a middle tile
      have hc1 : ¬cond1_1 (grid1.coords t) := fun h => h1 ((hcond1_1 t).mp h)
      rw [Dat.leavesExact_idle (dat1 V c) 4 t (idleAt1_4 t hc1) (noFlush1_4 t hc1)]
      iintro ⟨⟨⟨Hoth, HS0, HS1, HS2⟩, Hg⟩, Ho, ⟨%d0, H0⟩, ⟨%d1, H1⟩, ⟨%d2, H2⟩, ⟨%d3, H3⟩, ⟨%d4, H4⟩⟩
      iapply (run1_B c Set.univ (grid1.coords t) _ _ _ _ _ _ _ _ _ _ _ _ _ _ _ _ hc0 hc1 (iblk1 V c 0 t) (iblk1 V c 1 t) (iblk1 V c 2 t) (iblk1 V c 3 t) _
        (stAt V c (t.val - 1) hp).1 (stAt V c (t.val - 1) hp).2.1 (stAt V c (t.val - 1) hp).2.2 _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      iintro ⟨H0, H1, H2, H3, H4, HS0, HS1, HS2⟩
      isplitl [Hoth HS0 HS1 HS2 Hg]
      · isplitr [Hg]
        · isplitl [Hoth]; · iexact Hoth
          isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KRun.lean ====
/-
  The run of the whole program: host operations, the first kernel region, one more host operation, the second kernel region.

  Between two items every unscoped buffer of the core is held at a named valuation: the launch memory, then each stretch
  of host operations applied to it, then — after a region — the region's arrays at what its write-backs leave and every
  other buffer as it was. The regions are entered and left through these valuations; the generator register and the
  (empty) debt of the core ride along. From the run one reads, in the final memory, every unscoped buffer at the last
  valuation: the arguments (which nothing writes) at their launch contents, and the result array at what the second
  region's write-backs leave.
  The two regions' body obligations and the second region's invariant at its two ends are taken as hypotheses here, so
  that this module depends on the definitions only.
-/
import proofs.«125599_j41618233098759_2_alg».proof.Proof.KDefs
import proofs.«125599_j41618233098759_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents at each boundary -/

/-- Core c's buffers at launch. -/
abbrev W0 : Dev nD → Valuation τ sig (Elt F) := fun c b => m (c, b)
/-- After the first stretch of host operations (the first region's entry). -/
abbrev W1 : Dev nD → Valuation τ sig (Elt F) := fun c => StableHlo.after hostOps0 (W0 m c)
/-- The same read at the TensorCore's references. -/
abbrev U1 : (c : Dev nD) → (b : Ref sig .tc) → Buf (Elt F) ((c : Thread nD τ).loc b) := fun c b => W1 m c b
/-- At the first region's exit: its arrays at what the pipeline leaves, every other buffer as entered. -/
def W2 (c : Dev nD) : Valuation τ sig (Elt F) :=
  Pipeline.withArrays spec0 c (W1 m c) fun w => (dat0 (U1 m) c).arrAt w cfg0.N
theorem W2_arr (c : Dev nD) (w : Fin cfg0.W) :
    W2 m c (Proc.devRef .tc (Pipeline.arrRef spec0 w)) = (dat0 (U1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev U2 : (c : Dev nD) → (b : Ref sig .tc) → Buf (Elt F) ((c : Thread nD τ).loc b) := fun c b => W2 m c b
theorem hF0 (c : Dev nD) (w : Fin cfg0.W) : (dat0 (U1 m) c).arrAt w cfg0.N = U2 m c (Pipeline.arrRef spec0 w) :=
  (W2_arr m c w).symm
theorem hrest0 (c : Dev nD) : ∀ b, b ∉ Finset.univ.image (Pipeline.arrRef spec0) → U2 m c b = U1 m c b :=
  fun b hb => W2_of_ne m c b fun w e => hb (Finset.mem_image.mpr ⟨w, Finset.mem_univ _, e⟩)

/-- After the second stretch (the second region's entry). -/
abbrev W3 : Dev nD → Valuation τ sig (Elt F) := fun c => StableHlo.after hostOps1 (W2 m c)
abbrev U3 : (c : Dev nD) → (b : Ref sig .tc) → Buf (Elt F) ((c : Thread nD τ).loc b) := fun c b => W3 m c b
/-- At the second region's exit. -/
def W4 (c : Dev nD) : Valuation τ sig (Elt F) :=
  Pipeline.withArrays spec1 c (W3 m c) fun w => (dat1 (U3 m) c).arrAt w cfg1.N
theorem W4_arr (c : Dev nD) (w : Fin cfg1.W) :
    W4 m c (Proc.devRef .tc (Pipeline.arrRef spec1 w)) = (dat1 (U3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev U4 : (c : Dev nD) → (b : Ref sig .tc) → Buf (Elt F) ((c : Thread nD τ).loc b) := fun c b => W4 m c b
theorem hF1 (c : Dev nD) (w : Fin cfg1.W) : (dat1 (U3 m) c).arrAt w cfg1.N = U4 m c (Pipeline.arrRef spec1 w) :=
  (W4_arr m c w).symm
theorem hrest1 (c : Dev nD) : ∀ b, b ∉ Finset.univ.image (Pipeline.arrRef spec1) → U4 m c b = U3 m c b :=
  fun b hb => W4_of_ne m c b fun w e => hb (Finset.mem_image.mpr ⟨w, Finset.mem_univ _, e⟩)

/-! ### What no item writes -/

theorem W1_of (c : Dev nD) (r : Ref sig .tc) (h : r ∉ (hostOps0_W : List (Ref sig .tc))) :
    W1 m c (Proc.devRef .tc r) = W0 m c (Proc.devRef .tc r) :=
  StableHlo.after_of_writes_sub hostOps0 _ hostOps0_writes h
theorem W3_of (c : Dev nD) (r : Ref sig .tc) (h : r ∉ (hostOps1_W : List (Ref sig .tc))) :
    W3 m c (Proc.devRef .tc r) = W2 m c (Proc.devRef .tc r) :=
  StableHlo.after_of_writes_sub hostOps1 _ hostOps1_writes h

/-- x: staged by the first region as an input, bypassed by the second. -/
theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_of_ne m c main_arg0 (by decide)
    _ = W2 m c (Proc.devRef .tc main_arg0) := W3_of m c main_arg0 (by decide)
    _ = W1 m c (Proc.devRef .tc main_arg0) := (W2_arr m c 0).trans (((dat0 (U1 m) c).arrAt_in 0 rfl _).trans (A_eq0 (U1 m) c 0))
    _ = W0 m c (Proc.devRef .tc main_arg0) := W1_of m c main_arg0 (by decide)
    _ = m ((c : Thread nD τ).loc main_arg0) := rfl
/-- W: the same, through window 1. -/
theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W2 m c (Proc.devRef .tc main_arg2) := W3_of m c main_arg2 (by decide)
    _ = W1 m c (Proc.devRef .tc main_arg2) := (W2_arr m c 1).trans (((dat0 (U1 m) c).arrAt_in 1 rfl _).trans (A_eq0 (U1 m) c 1))
    _ = W0 m c (Proc.devRef .tc main_arg2) := W1_of m c main_arg2 (by decide)
    _ = m ((c : Thread nD τ).loc main_arg2) := rfl
/-- adj: bypassed by the first region, staged by the second as an input (window 2). -/
theorem W4_main_arg1 (c : Dev nD) : W4 m c (Proc.devRef .tc main_arg1) = m ((c : Thread nD τ).loc main_arg1) :=
  calc W4 m c (Proc.devRef .tc main_arg1)
    _ = W3 m c (Proc.devRef .tc main_arg1) := (W4_arr m c 2).trans (((dat1 (U3 m) c).arrAt_in 2 rfl _).trans (A_eq1 (U3 m) c 2))
    _ = W2 m c (Proc.devRef .tc main_arg1) := W3_of m c main_arg1 (by decide)
    _ = W1 m c (Proc.devRef .tc main_arg1) := W2_of_ne m c main_arg1 (by decide)
    _ = W0 m c (Proc.devRef .tc main_arg1) := W1_of m c main_arg1 (by decide)
    _ = m ((c : Thread nD τ).loc main_arg1) := rfl
/-- a: read by host operations only. -/
theorem W4_main_arg3 (c : Dev nD) : W4 m c (Proc.devRef .tc main_arg3) = m ((c : Thread nD τ).loc main_arg3) :=
  calc W4 m c (Proc.devRef .tc main_arg3)
    _ = W3 m c (Proc.devRef .tc main_arg3) := W4_of_ne m c main_arg3 (by decide)
    _ = W2 m c (Proc.devRef .tc main_arg3) := W3_of m c main_arg3 (by decide)
    _ = W1 m c (Proc.devRef .tc main_arg3) := W2_of_ne m c main_arg3 (by decide)
    _ = W0 m c (Proc.devRef .tc main_arg3) := W1_of m c main_arg3 (by decide)
    _ = m ((c : Thread nD τ).loc main_arg3) := rfl
/-- The result array: what the second region's write-backs leave in its output window's array. -/
theorem W4_main_v6 (c : Dev nD) : W4 m c (Proc.devRef .tc main_v6) = (dat1 (U3 m) c).arrAt 4 cfg1.N := W4_arr m c 4

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (U1 m) c
  | ⟨1, _⟩ => fun c => dat1 (U3 m) c
abbrev 𝒱₀ : Variants := Variants.none
abbrev L : GSem nD τ sig → Finset Unit := fun _ => ∅
abbrev lv : GSem nD τ sig → Unit → ℕ := fun _ _ => 0
/-- What rides beside the buffers: the generator register at some state and the core's debt, at nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The regions as segments -/

/-- The first region's body obligation at every entry valuation. -/
def HB0 (F : FTy → Type) [FloatOps F] : Prop :=
  ∀ (V : (c : Dev nD) → (b : Ref sig .tc) → Buf (Elt F) ((c : Thread nD τ).loc b)) (c : Dev nD),
    BodyObligation (dat0 (F := F) V c) (defs₀ (F := F)) Variants.none () Set.univ
/-- The second region's. -/
def HB1 (F : FTy → Type) [FloatOps F] : Prop :=
  ∀ (V : (c : Dev nD) → (b : Ref sig .tc) → Buf (Elt F) ((c : Thread nD τ).loc b)) (c : Dev nD),
    BodyObligation (dat1 (F := F) V c) (defs₀ (F := F)) Variants.none () Set.univ
/-- The second region's invariant at its first point is what the launch hands over, -/
def HI1 (F : FTy → Type) [FloatOps F] : Prop :=
  ∀ (V : (c : Dev nD) → (b : Ref sig .tc) → Buf (Elt F) ((c : Thread nD τ).loc b)) (c : Dev nD),
    (Pipeline.ΦA spec1 c : sProp (MT nD τ sig Unit (Elt F) ℕ (UR sig nD τ) ℕ)) ⊢ (dat1 (F := F) V c).Φ 0
/-- and at its last point gives that back. -/
def HO1 (F : FTy → Type) [FloatOps F] : Prop :=
  ∀ (V : (c : Dev nD) → (b : Ref sig .tc) → Buf (Elt F) ((c : Thread nD τ).loc b)) (c : Dev nD),
    (dat1 (F := F) V c).Φ (Fin.last cfg1.N) ⊢ (Pipeline.ΦA spec1 c : sProp (MT nD τ sig Unit (Elt F) ℕ (UR sig nD τ) ℕ))

section Run

variable (hb0 : HB0 F) (hb1 : HB1 F) (hi1 : HI1 F) (ho1 : HO1 F)

set_option backward.isDefEq.respectTransparency.types false in
/-- The first region: entered from every unscoped buffer at W1, left at W2. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (hb0 (U1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U1 m c) (U2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from every unscoped buffer at W3, left at W4. Its invariant starts as the class's and,
    after any point, keeps the three carried buffers at their named contents; at the exit those names are forgotten. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (hb1 (U3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (U3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (U3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (U3 m) c).Φ 0 from rfl]
    have h : (iprop((∃ r, prngReg c r) ∗ Pipeline.prefHeld (pcfgs (F := F) 1).pre c (fun _ => fullShare) (adm (F := F) 1).1
        ∗ Pipeline.scopedRest (Pipeline.pin (pcfgs (F := F)) adm 1).spec c) : sProp 𝕄) ⊢ Pipeline.ΦA spec1 c := by
      unfold Pipeline.ΦA
      iintro ⟨Hp, -, Hr⟩
      isplitl [Hr]; · iexact Hr
      iexact Hp
    exact h.trans (hi1 (U3 m) c)
  hout c := by
    rw [Pipeline.ownSems0_none, show (pdats m 1 c).Φ (Fin.last _) = (dat1 (U3 m) c).Φ (Fin.last cfg1.N) from rfl]
    have h : (Pipeline.ΦA spec1 c : sProp 𝕄) ⊢ iprop((∃ r, prngReg c r) ∗ BI.emp
        ∗ Pipeline.scopedRest (Pipeline.pin (pcfgs (F := F)) adm 1).spec c) := by
      unfold Pipeline.ΦA
      iintro ⟨Hr, Hp⟩
      isplitl [Hp]; · iexact Hp
      isplitr; · iempintro
      iexact Hr
    exact (ho1 (U3 m) c).trans h
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (U3 m c) (U4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m hb0),
    .host (hseg hostOps1 hostOps1_sub hostOps1_fresh (W2 m)),
    .region (reg1 m hb1 hi1 ho1) ]
include hb0 hb1 hi1 ho1 in
theorem main_run (c : Dev nD) : main (F := F) c = Pipeline.Seg.run (segs m hb0 hb1 hi1 ho1) := (main_chain c).trans (by chain_rfl)

include hb0 hb1 hi1 ho1 in
set_option backward.isDefEq.respectTransparency.types false in
/-- THE RUN: from any memory with zero counters every weakly fair execution of the program terminates, nothing faulting,
    and the final memory holds every unscoped buffer at the last valuation. -/
theorem run_main (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m hb0 hb1 hi1 ho1)
    (fun c Q => by rw [main_run m hb0 hb1 hi1 ho1 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

include hb0 hb1 hi1 ho1 in
/-- The frame: the arguments end as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c)⟩) (run_main m hb0 hb1 hi1 ho1 ρ)

include hb0 hb1 hi1 ho1 in
/-- The run with the result named: the result array at what the second region's write-backs leave. -/
theorem run_result (ρ : Dev nD → PrngReg) : θ_run defs (onTc (τ := τ) (main (F := F))) ⟨m, fun _ => 0, ρ⟩ (fun r => ∀ c : Dev nD,
      r.2.mem ((c.tc : Thread nD τ).loc main_v6) = (dat1 (U3 m) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_v6 (by decide))).trans (W4_main_v6 m c),
     (h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c)⟩) (run_main m hb0 hb1 hi1 ho1 ρ)

end Run

end Cert.KernelIdeal.Hand

end
-- ==== Proof.Spec.lean ====
/-
  The two programs as functions of the argument arrays, index by index, on the extended reals.

  Graph attention over 8192 nodes: h = x · W (8192 × 256); the two halves of the column a give a left score
  attL i = Σ_c h i c · a c and a right score attR j = Σ_c h j c · a (256 + c); the logit of the pair (i, j) is the leaky
  rectifier (slope 0.2) of attL i + attR j, replaced by the large negative stand-in −9·10¹⁵ where adj i j = 0; each row is
  normalised by a softmax and the result is the elu of the softmax-weighted sum of the rows of h.

  The reference takes the row maximum M i over all 8192 logits, forms exp (s − M i) / Σ exp (s − M i) and sums against h.
  The kernel walks a row's logits in four tiles of 2048 columns, keeping a running maximum (started at the stand-in), a
  running denominator and a running numerator, each rescaled by exp (old maximum − new maximum) when a tile is added, and
  divides at the end. Both are stated here over plain functions of bounded naturals; `kerOut = refOut` on real data is
  the algebra module's theorem.
-/
import Idealize.ShloMosaic.PureOps.Ideal

noncomputable section

namespace Cert.Spec

open Idealize.ShloMosaic

/-- The literals both programs use, as the extended reals their f32 patterns denote. -/
abbrev NEG : EReal := Ideal.ofBits .f32 0xD9FFCB9E#32
abbrev SLOPE : EReal := Ideal.ofBits .f32 0x3E4CCCCD#32
abbrev ZERO : EReal := Ideal.ofBits .f32 0x00000000#32
abbrev ONE : EReal := Ideal.ofBits .f32 0x3F800000#32
abbrev NINF : EReal := Ideal.ofBits .f32 0xFF800000#32

variable (x : Fin 8192 → Fin 512 → EReal) (adj : Fin 8192 → Fin 8192 → EReal) (W : Fin 512 → Fin 256 → EReal)
  (a : Fin 512 → EReal)

/-- h = x · W. -/
def hm (i : Fin 8192) (c : Fin 256) : EReal := ∑ k : Fin 512, x i k * W k c

/-- The left and right scores: h against the first and the second 256 entries of a. -/
def attL (i : Fin 8192) : EReal := ∑ c : Fin 256, hm x W i c * a ⟨c.val, by omega⟩
def attR (j : Fin 8192) : EReal := ∑ c : Fin 256, hm x W j c * a ⟨256 + c.val, by omega⟩

/-- The leaky rectifier as both programs spell it: e where e ≥ 0, else slope · e. -/
def lrelu (e : EReal) : EReal := Scalar.select (FloatOps.cmpf (F := Ideal) (φ := .f32) .oge e ZERO) e (SLOPE * e)

/-- The masked logit of the pair (i, j). -/
def score (i j : Fin 8192) : EReal :=
  Scalar.select (FloatOps.cmpf (F := Ideal) (φ := .f32) .oeq (adj i j) ZERO) NEG (lrelu (attL x W a i + attR x W a j))

/-! ## The reference: one softmax per row -/

/-- The row maximum: the fold of max from −∞ over the row, and once more against −∞. -/
def refMax (i : Fin 8192) : EReal := max NINF ((Finset.univ : Finset (Fin 8192)).fold max NINF fun j => score x adj W a i j)
def refP (i j : Fin 8192) : EReal := Ideal.exp (score x adj W a i j - refMax x adj W a i)
def refDen (i : Fin 8192) : EReal := ∑ j : Fin 8192, refP x adj W a i j
def refAgg (i : Fin 8192) (c : Fin 256) : EReal := ∑ j : Fin 8192, Ideal.div (refP x adj W a i j) (refDen x adj W a i) * hm x W j c
/-- elu as jax spells it: y where y > 0, else 1 · expm1 (y where y ≤ 0, else 0). -/
def eluRef (y : EReal) : EReal :=
  Scalar.select (FloatOps.cmpf (F := Ideal) (φ := .f32) .ogt y ZERO) y
    (ONE * Ideal.expm1 (Scalar.select (FloatOps.cmpf (F := Ideal) (φ := .f32) .ogt y ZERO) ZERO y))
def refOut (i : Fin 8192) (c : Fin 256) : EReal := eluRef (refAgg x adj W a i c)

/-! ## The kernel: four tiles of 2048 columns per row, rescaled as the maximum grows -/

/-- Column q of tile n (n < 4 in every use). -/
def col (n : ℕ) (q : Fin 2048) : Fin 8192 := ⟨(2048 * n + q.val) % 8192, Nat.mod_lt _ (by decide)⟩

/-- The running maximum after n tiles, started at the stand-in. -/
def kM (i : Fin 8192) : ℕ → EReal
  | 0 => NEG
  | n + 1 => max (kM i n) ((Finset.univ : Finset (Fin 2048)).fold max NINF fun q => score x adj W a i (col n q))

/-- The running denominator. -/
def kL (i : Fin 8192) : ℕ → EReal
  | 0 => ZERO
  | n + 1 => Ideal.exp (kM x adj W a i n - kM x adj W a i (n + 1)) * kL i n
      + ∑ q : Fin 2048, Ideal.exp (score x adj W a i (col n q) - kM x adj W a i (n + 1))

/-- The running numerator, per output column. -/
def kAcc (i : Fin 8192) (c : Fin 256) : ℕ → EReal
  | 0 => ZERO
  | n + 1 => Ideal.exp (kM x adj W a i n - kM x adj W a i (n + 1)) * kAcc i c n
      + ∑ q : Fin 2048, Ideal.exp (score x adj W a i (col n q) - kM x adj W a i (n + 1)) * hm x W (col n q) c

/-- elu as the kernel spells it: y where y > 0, else exp y − 1. -/
def eluKer (y : EReal) : EReal :=
  Scalar.select (FloatOps.cmpf (F := Ideal) (φ := .f32) .ogt y ZERO) y (Ideal.exp y - ONE)
def kerOut (i : Fin 8192) (c : Fin 256) : EReal := eluKer (Ideal.div (kAcc x adj W a i c 4) (kL x adj W a i 4))

end Cert.Spec

end
-- ==== Proof.SpecArr.lean ====
/-
  The two specifications over the programs' argument arrays: an array of shape [n0, n1] read as a function of two bounded
  naturals, the column a as a function of one, and the result arrays of both programs as functions of the four arguments.
-/
import proofs.«125599_j41618233098759_2_alg».proof.Proof.Spec
import Idealize.ShloMosaic.Lib.ValueIdx

noncomputable section

namespace Cert.Spec

open Idealize.ShloMosaic Idealize.ShloMosaic.ValueIdx

/-- A rank-2 array as a function of its two coordinates. -/
def arr2 {n0 n1 : ℕ} (X : (⟨2, ![n0, n1]⟩ : Shape).Idx → EReal) : Fin n0 → Fin n1 → EReal := fun i k => X (ix2 i k)

/-- A one-column array as a function of its row. -/
def colv {n0 : ℕ} (A : (⟨2, ![n0, 1]⟩ : Shape).Idx → EReal) : Fin n0 → EReal := fun k => A (ix2 k (0 : Fin 1))

/-- The reference's result array as a function of the four argument arrays. -/
def refArr (x : (⟨2, ![8192, 512]⟩ : Shape).Idx → EReal) (adj : (⟨2, ![8192, 8192]⟩ : Shape).Idx → EReal)
    (W : (⟨2, ![512, 256]⟩ : Shape).Idx → EReal) (a : (⟨2, ![512, 1]⟩ : Shape).Idx → EReal) :
    (⟨2, ![8192, 256]⟩ : Shape).Idx → EReal :=
  fun j => refOut (arr2 x) (arr2 adj) (arr2 W) (colv a) ⟨(j 0).val, idx2_lt0 j⟩ ⟨(j 1).val, idx2_lt1 j⟩

/-- The kernel's result array as a function of the four argument arrays. -/
def kerArr (x : (⟨2, ![8192, 512]⟩ : Shape).Idx → EReal) (adj : (⟨2, ![8192, 8192]⟩ : Shape).Idx → EReal)
    (W : (⟨2, ![512, 256]⟩ : Shape).Idx → EReal) (a : (⟨2, ![512, 1]⟩ : Shape).Idx → EReal) :
    (⟨2, ![8192, 256]⟩ : Shape).Idx → EReal :=
  fun j => kerOut (arr2 x) (arr2 adj) (arr2 W) (colv a) ⟨(j 0).val, idx2_lt0 j⟩ ⟨(j 1).val, idx2_lt1 j⟩

theorem refArr_ix2 (x adj W a) (i : Fin 8192) (c : Fin 256) :
    refArr x adj W a (ix2 i c) = refOut (arr2 x) (arr2 adj) (arr2 W) (colv a) i c := rfl
theorem kerArr_ix2 (x adj W a) (i : Fin 8192) (c : Fin 256) :
    kerArr x adj W a (ix2 i c) = kerOut (arr2 x) (arr2 adj) (arr2 W) (colv a) i c := rfl

end Cert.Spec

end
-- ==== Proof.LibColumn.lean ====
/-
  Small general lemmas: the keep-dimension column forms of a cast and a broadcast read at an index, and a lane
  maximum, a lane sum and the host's maximum-reduce over the columns of a rank-2 array read at a row.
-/
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)
open Idealize.ShloMosaic.ValueIdx

namespace Cert.Lib

variable {α : Type}

/-- An `[a]` array cast to `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- An `[a, 1]` array broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A reduced row index with the column put back is the pair. -/
theorem lift_row {n m : ℕ} (h : (⟨2, ![n, m]⟩ : Shape).Reduces [1] (⟨1, ![n]⟩ : Shape)) (r : Fin n)
    (k : Fin ((⟨2, ![n, m]⟩ : Shape).size 1)) : h.lift (ix1 r) k = ix2 r (⟨k.val, k.isLt⟩ : Fin m) := by
  funext c; apply Fin.ext
  fin_cases c <;> rfl

/-- A lane maximum of an `[n, m]` vector at row `r` is the fold of `max` over that row. -/
theorem multiReduction_max_row {n m : ℕ} (z : FVec Ideal ⟨2, ![n, m]⟩ .f32)
    (h : (⟨2, ![n, m]⟩ : Shape).Reduces [1] (⟨1, ![n]⟩ : Shape)) (hφ : FKind.Formats .f32)
    (hacc : (0xFF800000#32 : BitVec 32) = 0xFF800000#32) (r : Fin n) :
    multiReduction .maximumf [1] ⟨1, ![n]⟩ z 0xFF800000#32 h hφ hacc (ix1 r)
      = (Finset.univ : Finset (Fin m)).fold max (Ideal.ofBits .f32 0xFF800000#32) fun j => z (ix2 r j) := by
  refine (Ideal.multiReduction_maximumf_single z 0xFF800000#32 h hφ hacc (ix1 r)).trans ?_
  have hf : (z ∘ h.lift (ix1 r)) = fun k : Fin m => z (ix2 r k) := funext fun k => congrArg z (lift_row h r k)
  exact congrArg (fun f => Finset.fold max (Ideal.ofBits .f32 0xFF800000#32) f (Finset.univ : Finset (Fin m))) hf

/-- A lane sum of an `[n, m]` vector at row `r` is the sum over that row. -/
theorem multiReduction_add_row {n m : ℕ} (z : FVec Ideal ⟨2, ![n, m]⟩ .f32)
    (h : (⟨2, ![n, m]⟩ : Shape).Reduces [1] (⟨1, ![n]⟩ : Shape)) (hφ : FKind.Formats .f32)
    (hacc : (0x00000000#32 : BitVec 32) = 0x00000000#32) (r : Fin n) :
    multiReduction .add [1] ⟨1, ![n]⟩ z 0x00000000#32 h hφ hacc (ix1 r) = ∑ j : Fin m, z (ix2 r j) := by
  refine (Ideal.multiReduction_add_single z 0x00000000#32 h hφ hacc (ix1 r)).trans ?_
  exact Finset.sum_congr rfl fun k _ => congrArg z (lift_row h r k)

/-- The host's reduce with a maximum body over the columns, at row `r`: the fold of `max` over that row from the initial value. -/
theorem hostReduce_max_row {n m : ℕ} (x : FVec Ideal ⟨2, ![n, m]⟩ .f32) (init : (⟨0, ![]⟩ : Shape).Idx → EReal)
    (h' : (⟨2, ![n, m]⟩ : Shape).ReducesTo [1] (⟨1, ![n]⟩ : Shape)) (h : (⟨2, ![n, m]⟩ : Shape).Reduces [1] (⟨1, ![n]⟩ : Shape))
    (hu : 0 < (⟨0, ![]⟩ : Shape).numel) (r : Fin n) :
    Host.reduce FloatOps.maximumf x init h' hu (ix1 r) = (Finset.univ : Finset (Fin m)).fold max (init ix0) fun j => x (ix2 r j) := by
  rw [Host.reduce_eq_fold_single FloatOps.maximumf x init h' h hu]
  have hf : (x ∘ h.lift (ix1 r)) = fun k : Fin m => x (ix2 r k) := funext fun k => congrArg x (lift_row h r k)
  have hi : init (Shape.Idx.first hu) = init ix0 := congrArg init (eq_ix0 _)
  rw [hi]
  exact congrArg (fun f => Finset.fold max (init ix0) f (Finset.univ : Finset (Fin m))) hf

/-- The logarithm and the exponential of a vector at an index are those of the element. -/
theorem log_apply {s : Shape} {φ : FTy} (x : FVec Ideal s φ) (i : s.Idx) : log x i = Ideal.log (x i) := rfl
theorem exp_apply {s : Shape} {φ : FTy} (x : FVec Ideal s φ) (i : s.Idx) : exp x i = Ideal.exp (x i) := rfl

end Cert.Lib

end
-- ==== Proof.K0Val.lean ====
/-
  Region 0 of the kernel, read: what its three output arrays hold when the region is over, as functions of the arrays it
  finds, on the extended reals.

  At every one of the eight grid points the body sees rows 1024 t … 1024 t + 1023 of x, the whole of W and the two rows
  of a. The first store's payload at (p, c) is Σ_k x-block (p, k) · W (k, c): a product into a zero accumulator, the
  change of format being the identity on the extended reals. The other two stores' payloads at row p are
  Σ_c (that product at (p, c)) · (a row of a at c): the row laid along every row of the block, multiplied in and summed
  over the 256 columns. Point t writes each of the three blocks back to rows 1024 t … 1024 t + 1023 of its array, row r
  lies in the block of point r / 1024, so each array ends as one function of its index: h = x · W, and the row sums of h
  against each of the two rows.
-/
import proofs.«125599_j41618233098759_2_alg».proof.Proof.KDefs
import proofs.«125599_j41618233098759_2_alg».proof.Proof.SpecArr
import proofs.«125599_j41618233098759_2_alg».proof.Proof.LibColumn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)
open Idealize.ShloMosaic.ValueIdx

/-! ## The body's payloads at an index -/

/-- The block product at (p, c): the sum over the 512 contracted coordinates of the products of the entries; the narrow
    format is the identity on the extended reals and the accumulator is zero. -/
theorem k0pay1_apply (xb : FVec Ideal S1024x512 .f32) (w : FVec Ideal S512x256 .f32) (p : Fin 1024) (c : Fin 256) :
    k0_pay1 (F := Ideal) xb w (ix2 p c) = ∑ k : Fin 512, xb (ix2 p k) * w (ix2 k c) := by
  unfold k0_pay1
  refine (Ideal.matmul_constant_zero_apply dot_S1024x512_S512x256_S1024x256_1_0_0_1_n_n none _ _ (ix2 p c)).trans ?_
  rw [← Equiv.sum_comp (contrEquiv1 dot_S1024x512_S512x256_S1024x256_1_0_0_1_n_n 512 rfl rfl).symm]
  refine Finset.sum_congr rfl fun k _ => ?_
  have c2 := contrEquiv1_symm_val dot_S1024x512_S512x256_S1024x256_1_0_0_1_n_n 512 rfl rfl k
  have l2 : dot_S1024x512_S512x256_S1024x256_1_0_0_1_n_n.lhsIdx (ix2 p c) ((contrEquiv1 _ 512 rfl rfl).symm k) = ix2 p k := by
    funext ax; apply Fin.ext
    match ax with
    | ⟨0, _⟩ => simp [DotDims.lhsIdx, dot_S1024x512_S512x256_S1024x256_1_0_0_1_n_n]; rfl
    | ⟨1, _⟩ => simp [DotDims.lhsIdx, dot_S1024x512_S512x256_S1024x256_1_0_0_1_n_n]; exact c2
  have r2 : dot_S1024x512_S512x256_S1024x256_1_0_0_1_n_n.rhsIdx (ix2 p c) ((contrEquiv1 _ 512 rfl rfl).symm k) = ix2 k c := by
    funext ax; apply Fin.ext
    match ax with
    | ⟨0, _⟩ => simp [DotDims.rhsIdx, dot_S1024x512_S512x256_S1024x256_1_0_0_1_n_n]; exact c2
    | ⟨1, _⟩ => simp [DotDims.rhsIdx, dot_S1024x512_S512x256_S1024x256_1_0_0_1_n_n]; rfl
  rw [l2, r2]
  rfl

/-- The stored product is the same value: the narrow format is the identity on the extended reals. -/
theorem k0pay2_apply (xb : FVec Ideal S1024x512 .f32) (w : FVec Ideal S512x256 .f32) (p : Fin 1024) (c : Fin 256) :
    k0_pay2 (F := Ideal) xb w (ix2 p c) = ∑ k : Fin 512, xb (ix2 p k) * w (ix2 k c) := by
  unfold k0_pay2
  exact k0pay1_apply xb w p c

/-- The row sum of the block product against a row al: the sum over the 256 columns of the product's entry times
    al's; the row is laid along every row of the block and the columns are summed. -/
theorem k0pay3_apply (xb : FVec Ideal S1024x512 .f32) (w : FVec Ideal S512x256 .f32) (al : FVec Ideal S1x256 .f32) (p : Fin 1024) (u : Fin 1) :
    k0_pay3 (F := Ideal) xb w al (ix2 p u) = ∑ c : Fin 256, k0_pay1 (F := Ideal) xb w (ix2 p c) * al (ix2 (0 : Fin 1) c) := by
  unfold k0_pay3
  refine (Cert.Lib.shapeCast_a_a1_apply _ shapeCasts_S1024_S1024x1 p u).trans ?_
  refine (Cert.Lib.multiReduction_add_row _ reduces_S1024x256_S1024 (.inl rfl) rfl p).trans ?_
  refine Finset.sum_congr rfl fun c _ => ?_
  refine (mulf_apply _ _ (ix2 p c)).trans ?_
  refine congrArg (k0_pay1 (F := Ideal) xb w (ix2 p c) * ·) ?_
  refine (broadcastTo_1b_ab_apply _ broadcasts_S1x256_S1024x256 p c).trans ?_
  rw [shapeCast_self]

theorem k0pay4_apply (xb : FVec Ideal S1024x512 .f32) (w : FVec Ideal S512x256 .f32) (ar : FVec Ideal S1x256 .f32) (p : Fin 1024) (u : Fin 1) :
    k0_pay4 (F := Ideal) xb w ar (ix2 p u) = ∑ c : Fin 256, k0_pay1 (F := Ideal) xb w (ix2 p c) * ar (ix2 (0 : Fin 1) c) := by
  unfold k0_pay4
  refine (Cert.Lib.shapeCast_a_a1_apply _ shapeCasts_S1024_S1024x1 p u).trans ?_
  refine (Cert.Lib.multiReduction_add_row _ reduces_S1024x256_S1024 (.inl rfl) rfl p).trans ?_
  refine Finset.sum_congr rfl fun c _ => ?_
  refine (mulf_apply _ _ (ix2 p c)).trans ?_
  refine congrArg (k0_pay1 (F := Ideal) xb w (ix2 p c) * ·) ?_
  refine (broadcastTo_1b_ab_apply _ broadcasts_S1x256_S1024x256 p c).trans ?_
  rw [shapeCast_self]

/-! ## From blocks to arrays -/

variable (V : (c : Dev nD) → (b : Ref sig .tc) → Buf (Elt Ideal) ((c : Thread nD τ).loc b))

theorem hz0 : (![0, 0] : Fin 2 → Nat) = fun _ => 0 := funext fun a => by fin_cases a <;> rfl

/-- The block index maps over the eight grid points: the block of x and the three output blocks move down with the
    point, 1024 rows at a time; W and the two rows of a stay. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- The block of x at point t is rows 1024 t … 1024 t + 1023 of x. -/
theorem iblk0_0_apply (c : Dev nD) (t : Fin cfg0.N) (p : Fin 1024) (k : Fin 512) (r : Fin 8192) (hr : r.val = 1024 * t.val + p.val) :
    (iblk0 V c 0 t : Vec Ideal S1024x512 .f32) (ix2 p k) = (V c main_arg0 : S8192x512.Idx → EReal) (ix2 r k) := by
  obtain ⟨e0, e1, -⟩ := idx_facts0 t
  unfold iblk0
  rw [View.read_apply]
  show V c main_arg0 _ = V c main_arg0 _
  congr 1
  funext a; apply Fin.ext
  match a with
  | ⟨0, _⟩ => show win0_0.index t (0 : Fin 2) * 1024 + 1 * p.val = r.val; rw [e0, hr]; omega
  | ⟨1, _⟩ => show win0_0.index t (1 : Fin 2) * 512 + 1 * k.val = k.val; rw [e1]; omega

/-- The block of W at every point is W. -/
theorem iblk0_1_apply (c : Dev nD) (t : Fin cfg0.N) (k : Fin 512) (q : Fin 256) :
    (iblk0 V c 1 t : Vec Ideal S512x256 .f32) (ix2 k q) = (V c main_arg2 : S512x256.Idx → EReal) (ix2 k q) := by
  obtain ⟨-, -, e0, e1, -⟩ := idx_facts0 t
  unfold iblk0
  rw [View.read_apply]
  show V c main_arg2 _ = V c main_arg2 _
  congr 1
  funext a; apply Fin.ext
  match a with
  | ⟨0, _⟩ => show win0_1.index t (0 : Fin 2) * 512 + 1 * k.val = k.val; rw [e0]; omega
  | ⟨1, _⟩ => show win0_1.index t (1 : Fin 2) * 256 + 1 * q.val = q.val; rw [e1]; omega

/-- h as an array: the product of the two argument arrays, entry by entry. -/
def hArr (x : S8192x512.Idx → EReal) (w : S512x256.Idx → EReal) : S8192x256.Idx → EReal :=
  fun j => Cert.Spec.hm (Cert.Spec.arr2 x) (Cert.Spec.arr2 w) ⟨(j 0).val, idx2_lt0 j⟩ ⟨(j 1).val, idx2_lt1 j⟩

/-- What the first output buffer holds after the body, entry by entry, over any two input blocks. -/
theorem out0_4_apply (x0 : Vec Ideal S1024x512 .f32) (x1 : Vec Ideal S512x256 .f32) (p : Fin 1024) (q : Fin 256) :
    out0_4 (F := Ideal) x0 x1 (ix2 p q) = ∑ k : Fin 512, x0 (ix2 p k) * x1 (ix2 k q) := by
  unfold out0_4
  rw [View.canon_unit_zero hz0]
  simp only [View.ld_unit_zero (S := S1024x512) hz0, View.ld_unit_zero (S := S512x256) hz0]
  exact k0pay2_apply x0 x1 p q

/-- What point t writes back to the first output array is block t of h. -/
theorem flushed0_4_eq (c : Dev nD) (t : Fin cfg0.N) :
    (dat0 V c).flushed 4 t = ((cfg0.win 4).blk t).view.read (Elt Ideal) (hArr (V c main_arg0) (V c main_arg2)) := by
  show (cfg0.win 4).cut (grid0.coords t) ((dat0 V c).after 4 t) = _
  rw [after0_4]
  obtain ⟨-, -, -, -, -, -, -, -, e0, e1, -⟩ := idx_facts0 t
  funext j
  obtain ⟨p, q, rfl⟩ : ∃ (p : Fin 1024) (q : Fin 256), j = ix2 p q := ⟨j 0, j 1, eq_ix2 j⟩
  show out0_4 (F := Ideal) (iblk0 V c 0 t) (iblk0 V c 1 t) (ix2 p q) = hArr (V c main_arg0) (V c main_arg2) (((cfg0.win 4).blk t).view.emb (ix2 p q))
  refine (out0_4_apply (iblk0 V c 0 t) (iblk0 V c 1 t) p q).trans ?_
  have hr : ((((cfg0.win 4).blk t).view.emb (ix2 p q)) 0).val = 1024 * t.val + p.val := by
    show win0_4.index t (0 : Fin 2) * 1024 + 1 * p.val = _; rw [e0]; omega
  have hq : ((((cfg0.win 4).blk t).view.emb (ix2 p q)) 1).val = q.val := by
    show win0_4.index t (1 : Fin 2) * 256 + 1 * q.val = _; rw [e1]; omega
  unfold hArr Cert.Spec.hm Cert.Spec.arr2
  refine Finset.sum_congr rfl fun k _ => ?_
  refine congrArg₂ (· * ·) (iblk0_0_apply V c t p k _ hr) ?_
  refine (iblk0_1_apply V c t k q).trans ?_
  exact congrArg (fun z => (V c main_arg2 : S512x256.Idx → EReal) (ix2 k z)) (Fin.ext hq.symm)

/-- An index of the first output array is in point t's block iff each coordinate is in the block's range. -/
theorem mem_blk0_4 (t : Fin cfg0.N) (i : S8192x256.Idx) :
    i ∈ ((cfg0.win 4).blk t).view.set ↔ ∀ a : Fin 2, win0_4.index t a * S1024x256.size a ≤ (i a).val ∧ (i a).val < win0_4.index t a * S1024x256.size a + S1024x256.size a := by
  show i ∈ ((View.whole main_v4_0).slice (win0_4.rect t)).set ↔ _
  rw [View.set_slice_whole, Rect.mem_set_unit]
  exact Iff.rfl

/-- Every row r is in the block of point r / 1024. -/
theorem covered0_4 (i : S8192x256.Idx) : ∃ t : Fin cfg0.N, (cfg0.win 4).flush t = true ∧ i ∈ ((cfg0.win 4).blk t).view.set := by
  have hi0 : (i 0).val < 8192 := idx2_lt0 i
  have hi1 : (i 1).val < 256 := idx2_lt1 i
  have hN : cfg0.N = 8 := N_0
  have ht : (i 0).val / 1024 < cfg0.N := by rw [hN]; omega
  obtain ⟨-, -, -, -, -, -, -, -, e0, e1, -⟩ := idx_facts0 ⟨(i 0).val / 1024, ht⟩
  refine ⟨⟨(i 0).val / 1024, ht⟩, flush0_4 _, ?_⟩
  rw [mem_blk0_4]
  intro a
  match a with
  | ⟨0, _⟩ =>
    show win0_4.index ⟨(i 0).val / 1024, ht⟩ (0 : Fin 2) * 1024 ≤ (i 0).val ∧ (i 0).val < win0_4.index ⟨(i 0).val / 1024, ht⟩ (0 : Fin 2) * 1024 + 1024
    rw [e0]; show (i 0).val / 1024 * 1024 ≤ (i 0).val ∧ (i 0).val < (i 0).val / 1024 * 1024 + 1024; omega
  | ⟨1, _⟩ =>
    show win0_4.index ⟨(i 0).val / 1024, ht⟩ (1 : Fin 2) * 256 ≤ (i 1).val ∧ (i 1).val < win0_4.index ⟨(i 0).val / 1024, ht⟩ (1 : Fin 2) * 256 + 256
    rw [e1]; omega

/-- THE FIRST OUTPUT ARRAY after the region: h = x · W of the region's entry arrays. -/
theorem final0_4' (c : Dev nD) : (dat0 V c).arrAt 4 cfg0.N = hArr (V c main_arg0) (V c main_arg2) :=
  (dat0 V c).arrAt_eq_of_cover 4 (hArr (V c main_arg0) (V c main_arg2)) (fun t _ => flushed0_4_eq V c t) covered0_4

/-- Each row of a is, at every point, that row. -/
theorem iblk0_2_apply (c : Dev nD) (t : Fin cfg0.N) (u : Fin 1) (q : Fin 256) :
    (iblk0 V c 2 t : Vec Ideal S1x256 .f32) (ix2 u q) = (V c main_v1 : S1x256.Idx → EReal) (ix2 u q) := by
  obtain ⟨-, -, -, -, e0, e1, -⟩ := idx_facts0 t
  unfold iblk0
  rw [View.read_apply]
  show V c main_v1 _ = V c main_v1 _
  congr 1
  funext a; apply Fin.ext
  match a with
  | ⟨0, _⟩ => show win0_2.index t (0 : Fin 2) * 1 + 1 * u.val = u.val; rw [e0]; omega
  | ⟨1, _⟩ => show win0_2.index t (1 : Fin 2) * 256 + 1 * q.val = q.val; rw [e1]; omega
theorem iblk0_3_apply (c : Dev nD) (t : Fin cfg0.N) (u : Fin 1) (q : Fin 256) :
    (iblk0 V c 3 t : Vec Ideal S1x256 .f32) (ix2 u q) = (V c main_v3 : S1x256.Idx → EReal) (ix2 u q) := by
  obtain ⟨-, -, -, -, -, -, e0, e1, -⟩ := idx_facts0 t
  unfold iblk0
  rw [View.read_apply]
  show V c main_v3 _ = V c main_v3 _
  congr 1
  funext a; apply Fin.ext
  match a with
  | ⟨0, _⟩ => show win0_3.index t (0 : Fin 2) * 1 + 1 * u.val = u.val; rw [e0]; omega
  | ⟨1, _⟩ => show win0_3.index t (1 : Fin 2) * 256 + 1 * q.val = q.val; rw [e1]; omega

/-- The row sums of h against a row al, as a one-column array. -/
def sArr (x : S8192x512.Idx → EReal) (w : S512x256.Idx → EReal) (al : S1x256.Idx → EReal) : S8192x1.Idx → EReal :=
  fun j => ∑ c' : Fin 256, Cert.Spec.hm (Cert.Spec.arr2 x) (Cert.Spec.arr2 w) ⟨(j 0).val, idx2_lt0 j⟩ c' * al (ix2 (0 : Fin 1) c')

/-- What the left row-sum buffer holds after the body, entry by entry, over any three input blocks. -/
theorem out0_5_apply (x0 : Vec Ideal S1024x512 .f32) (x1 : Vec Ideal S512x256 .f32) (x2 : Vec Ideal S1x256 .f32) (p : Fin 1024) (u : Fin 1) :
    out0_5 (F := Ideal) x0 x1 x2 (ix2 p u) = ∑ c : Fin 256, (∑ k : Fin 512, x0 (ix2 p k) * x1 (ix2 k c)) * x2 (ix2 (0 : Fin 1) c) := by
  unfold out0_5
  rw [View.canon_unit_zero hz0]
  simp only [View.ld_unit_zero (S := S1024x512) hz0, View.ld_unit_zero (S := S512x256) hz0, View.ld_unit_zero (S := S1x256) hz0]
  refine (k0pay3_apply x0 x1 x2 p u).trans ?_
  exact Finset.sum_congr rfl fun c _ => congrArg (· * x2 (ix2 (0 : Fin 1) c)) (k0pay1_apply x0 x1 p c)

/-- What point t writes back to the left row-sum array is block t of the row sums of h against the left row. -/
theorem flushed0_5_eq (c : Dev nD) (t : Fin cfg0.N) :
    (dat0 V c).flushed 5 t = ((cfg0.win 5).blk t).view.read (Elt Ideal) (sArr (V c main_arg0) (V c main_arg2) (V c main_v1)) := by
  show (cfg0.win 5).cut (grid0.coords t) ((dat0 V c).after 5 t) = _
  rw [after0_5]
  obtain ⟨-, -, -, -, -, -, -, -, -, -, e50, e51, e60, e61⟩ := idx_facts0 t
  funext j
  obtain ⟨p, u, rfl⟩ : ∃ (p : Fin 1024) (u : Fin 1), j = ix2 p u := ⟨j 0, j 1, eq_ix2 j⟩
  show out0_5 (F := Ideal) (iblk0 V c 0 t) (iblk0 V c 1 t) (iblk0 V c 2 t) (ix2 p u) = sArr (V c main_arg0) (V c main_arg2) (V c main_v1) (((cfg0.win 5).blk t).view.emb (ix2 p u))
  refine (out0_5_apply (iblk0 V c 0 t) (iblk0 V c 1 t) (iblk0 V c 2 t) p u).trans ?_
  have hr : ((((cfg0.win 5).blk t).view.emb (ix2 p u)) 0).val = 1024 * t.val + p.val := by
    show win0_5.index t (0 : Fin 2) * 1024 + 1 * p.val = _; rw [e50]; omega
  unfold sArr Cert.Spec.hm Cert.Spec.arr2
  refine Finset.sum_congr rfl fun q _ => ?_
  refine congrArg₂ (· * ·) ?_ (iblk0_2_apply V c t (0 : Fin 1) q)
  refine Finset.sum_congr rfl fun k _ => ?_
  exact congrArg₂ (· * ·) (iblk0_0_apply V c t p k _ hr) (iblk0_1_apply V c t k q)

theorem mem_blk0_5 (t : Fin cfg0.N) (i : S8192x1.Idx) :
    i ∈ ((cfg0.win 5).blk t).view.set ↔ ∀ a : Fin 2, win0_5.index t a * S1024x1.size a ≤ (i a).val ∧ (i a).val < win0_5.index t a * S1024x1.size a + S1024x1.size a := by
  show i ∈ ((View.whole main_v4_1).slice (win0_5.rect t)).set ↔ _
  rw [View.set_slice_whole, Rect.mem_set_unit]
  exact Iff.rfl

theorem covered0_5 (i : S8192x1.Idx) : ∃ t : Fin cfg0.N, (cfg0.win 5).flush t = true ∧ i ∈ ((cfg0.win 5).blk t).view.set := by
  have hi0 : (i 0).val < 8192 := idx2_lt0 i
  have hi1 : (i 1).val < 1 := idx2_lt1 i
  have hN : cfg0.N = 8 := N_0
  have ht : (i 0).val / 1024 < cfg0.N := by rw [hN]; omega
  obtain ⟨-, -, -, -, -, -, -, -, -, -, e50, e51, e60, e61⟩ := idx_facts0 ⟨(i 0).val / 1024, ht⟩
  refine ⟨⟨(i 0).val / 1024, ht⟩, flush0_5 _, ?_⟩
  rw [mem_blk0_5]
  intro a
  match a with
  | ⟨0, _⟩ =>
    show win0_5.index ⟨(i 0).val / 1024, ht⟩ (0 : Fin 2) * 1024 ≤ (i 0).val ∧ (i 0).val < win0_5.index ⟨(i 0).val / 1024, ht⟩ (0 : Fin 2) * 1024 + 1024
    rw [e50]; show (i 0).val / 1024 * 1024 ≤ (i 0).val ∧ (i 0).val < (i 0).val / 1024 * 1024 + 1024; omega
  | ⟨1, _⟩ =>
    show win0_5.index ⟨(i 0).val / 1024, ht⟩ (1 : Fin 2) * 1 ≤ (i 1).val ∧ (i 1).val < win0_5.index ⟨(i 0).val / 1024, ht⟩ (1 : Fin 2) * 1 + 1
    rw [e51]; omega

theorem final0_5' (c : Dev nD) : (dat0 V c).arrAt 5 cfg0.N = sArr (V c main_arg0) (V c main_arg2) (V c main_v1) :=
  (dat0 V c).arrAt_eq_of_cover 5 (sArr (V c main_arg0) (V c main_arg2) (V c main_v1)) (fun t _ => flushed0_5_eq V c t) covered0_5

/-- What the right row-sum buffer holds after the body, entry by entry, over any three input blocks. -/
theorem out0_6_apply (x0 : Vec Ideal S1024x512 .f32) (x1 : Vec Ideal S512x256 .f32) (x2 : Vec Ideal S1x256 .f32) (p : Fin 1024) (u : Fin 1) :
    out0_6 (F := Ideal) x0 x1 x2 (ix2 p u) = ∑ c : Fin 256, (∑ k : Fin 512, x0 (ix2 p k) * x1 (ix2 k c)) * x2 (ix2 (0 : Fin 1) c) := by
  unfold out0_6
  rw [View.canon_unit_zero hz0]
  simp only [View.ld_unit_zero (S := S1024x512) hz0, View.ld_unit_zero (S := S512x256) hz0, View.ld_unit_zero (S := S1x256) hz0]
  refine (k0pay4_apply x0 x1 x2 p u).trans ?_
  exact Finset.sum_congr rfl fun c _ => congrArg (· * x2 (ix2 (0 : Fin 1) c)) (k0pay1_apply x0 x1 p c)

/-- What point t writes back to the right row-sum array is block t of the row sums of h against the right row. -/
theorem flushed0_6_eq (c : Dev nD) (t : Fin cfg0.N) :
    (dat0 V c).flushed 6 t = ((cfg0.win 6).blk t).view.read (Elt Ideal) (sArr (V c main_arg0) (V c main_arg2) (V c main_v3)) := by
  show (cfg0.win 6).cut (grid0.coords t) ((dat0 V c).after 6 t) = _
  rw [after0_6]
  obtain ⟨-, -, -, -, -, -, -, -, -, -, e50, e51, e60, e61⟩ := idx_facts0 t
  funext j
  obtain ⟨p, u, rfl⟩ : ∃ (p : Fin 1024) (u : Fin 1), j = ix2 p u := ⟨j 0, j 1, eq_ix2 j⟩
  show out0_6 (F := Ideal) (iblk0 V c 0 t) (iblk0 V c 1 t) (iblk0 V c 3 t) (ix2 p u) = sArr (V c main_arg0) (V c main_arg2) (V c main_v3) (((cfg0.win 6).blk t).view.emb (ix2 p u))
  refine (out0_6_apply (iblk0 V c 0 t) (iblk0 V c 1 t) (iblk0 V c 3 t) p u).trans ?_
  have hr : ((((cfg0.win 6).blk t).view.emb (ix2 p u)) 0).val = 1024 * t.val + p.val := by
    show win0_6.index t (0 : Fin 2) * 1024 + 1 * p.val = _; rw [e60]; omega
  unfold sArr Cert.Spec.hm Cert.Spec.arr2
  refine Finset.sum_congr rfl fun q _ => ?_
  refine congrArg₂ (· * ·) ?_ (iblk0_3_apply V c t (0 : Fin 1) q)
  refine Finset.sum_congr rfl fun k _ => ?_
  exact congrArg₂ (· * ·) (iblk0_0_apply V c t p k _ hr) (iblk0_1_apply V c t k q)

theorem mem_blk0_6 (t : Fin cfg0.N) (i : S8192x1.Idx) :
    i ∈ ((cfg0.win 6).blk t).view.set ↔ ∀ a : Fin 2, win0_6.index t a * S1024x1.size a ≤ (i a).val ∧ (i a).val < win0_6.index t a * S1024x1.size a + S1024x1.size a := by
  show i ∈ ((View.whole main_v4_2).slice (win0_6.rect t)).set ↔ _
  rw [View.set_slice_whole, Rect.mem_set_unit]
  exact Iff.rfl

theorem covered0_6 (i : S8192x1.Idx) : ∃ t : Fin cfg0.N, (cfg0.win 6).flush t = true ∧ i ∈ ((cfg0.win 6).blk t).view.set := by
  have hi0 : (i 0).val < 8192 := idx2_lt0 i
  have hi1 : (i 1).val < 1 := idx2_lt1 i
  have hN : cfg0.N = 8 := N_0
  have ht : (i 0).val / 1024 < cfg0.N := by rw [hN]; omega
  obtain ⟨-, -, -, -, -, -, -, -, -, -, e50, e51, e60, e61⟩ := idx_facts0 ⟨(i 0).val / 1024, ht⟩
  refine ⟨⟨(i 0).val / 1024, ht⟩, flush0_6 _, ?_⟩
  rw [mem_blk0_6]
  intro a
  match a with
  | ⟨0, _⟩ =>
    show win0_6.index ⟨(i 0).val / 1024, ht⟩ (0 : Fin 2) * 1024 ≤ (i 0).val ∧ (i 0).val < win0_6.index ⟨(i 0).val / 1024, ht⟩ (0 : Fin 2) * 1024 + 1024
    rw [e60]; show (i 0).val / 1024 * 1024 ≤ (i 0).val ∧ (i 0).val < (i 0).val / 1024 * 1024 + 1024; omega
  | ⟨1, _⟩ =>
    show win0_6.index ⟨(i 0).val / 1024, ht⟩ (1 : Fin 2) * 1 ≤ (i 1).val ∧ (i 1).val < win0_6.index ⟨(i 0).val / 1024, ht⟩ (1 : Fin 2) * 1 + 1
    rw [e61]; omega

theorem final0_6' (c : Dev nD) : (dat0 V c).arrAt 6 cfg0.N = sArr (V c main_arg0) (V c main_arg2) (V c main_v3) :=
  (dat0 V c).arrAt_eq_of_cover 6 (sArr (V c main_arg0) (V c main_arg2) (V c main_v3)) (fun t _ => flushed0_6_eq V c t) covered0_6

/-! ## The three output arrays after the region, spelt out -/

/-- THE FIRST OUTPUT ARRAY after the region is h = x · W of the arrays the region finds. -/
theorem final0_4 (c : Dev nD) : (dat0 (F := Ideal) V c).arrAt 4 cfg0.N
    = fun j : S8192x256.Idx => Cert.Spec.hm (Cert.Spec.arr2 (V c main_arg0 : S8192x512.Idx → EReal)) (Cert.Spec.arr2 (V c main_arg2 : S512x256.Idx → EReal))
        ⟨(j 0).val, idx2_lt0 j⟩ ⟨(j 1).val, idx2_lt1 j⟩ :=
  final0_4' V c

/-- THE SECOND is the row sums of h against the first row of a's two, -/
theorem final0_5 (c : Dev nD) : (dat0 (F := Ideal) V c).arrAt 5 cfg0.N
    = fun j : S8192x1.Idx => ∑ c' : Fin 256, Cert.Spec.hm (Cert.Spec.arr2 (V c main_arg0 : S8192x512.Idx → EReal)) (Cert.Spec.arr2 (V c main_arg2 : S512x256.Idx → EReal))
        ⟨(j 0).val, idx2_lt0 j⟩ c' * (V c main_v1 : S1x256.Idx → EReal) (ix2 (0 : Fin 1) c') :=
  final0_5' V c

/-- THE THIRD against the second. -/
theorem final0_6 (c : Dev nD) : (dat0 (F := Ideal) V c).arrAt 6 cfg0.N
    = fun j : S8192x1.Idx => ∑ c' : Fin 256, Cert.Spec.hm (Cert.Spec.arr2 (V c main_arg0 : S8192x512.Idx → EReal)) (Cert.Spec.arr2 (V c main_arg2 : S512x256.Idx → EReal))
        ⟨(j 0).val, idx2_lt0 j⟩ c' * (V c main_v3 : S1x256.Idx → EReal) (ix2 (0 : Fin 1) c') :=
  final0_6' V c

end Cert.KernelIdeal.Hand

end
-- ==== Proof.KHostVal.lean ====
/-
  The host operations around the two regions, read at an index.

  Before the first region the column a (512 entries) is cut into its two halves of 256 and each half is laid out as a
  row: entry c' of the first row is a (c'), entry c' of the second is a (256 + c'). Between the regions the column of
  right scores (8192 entries) is laid out as a row: entry j of the row is entry j of the column. A reshape keeps the
  row-major position; a slice shifts the index by its offset.
-/
import proofs.«125599_j41618233098759_2_alg».proof.Proof.KRun
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

variable (m : (ℓ : Loc nD τ sig) → Buf (Elt F) ℓ)

/-- The first half of a as a row. -/
theorem U1_v1 (c : Dev nD) (c' : Fin 256) :
    U1 m c main_v1 (ix2 (0 : Fin 1) c') = m ((c : Thread nD τ).loc main_arg3) (ix2 (⟨c'.val, by omega⟩ : Fin 512) (0 : Fin 1)) := by
  have e : (U1 m c main_v1 : S1x256.Idx → Elt F .f32) = shapeCast S1x256 (extractStridedSlice S256x1 ![0, 0] (m ((c : Thread nD τ).loc main_arg3)) slices_S512x1_S256x1_0_0) shapeCasts_S256x1_S1x256 := by
    show StableHlo.after hostOps0 _ (Proc.devRef .tc main_v1) = _
    after_results
    rfl
  refine (congrFun e _).trans ?_
  refine (shapeCast_apply _ _ _ (ix2 c' (0 : Fin 1)) ?_).trans ?_
  · rw [Shape.rowMajor_val_two, Shape.rowMajor_val_two]; show c'.val * 1 + 0 = 0 * 256 + c'.val; omega
  · exact slice2_axis0_apply 0 _ _ c' 0 ⟨c'.val, by omega⟩ (by simp)

/-- The second half of a as a row. -/
theorem U1_v3 (c : Dev nD) (c' : Fin 256) :
    U1 m c main_v3 (ix2 (0 : Fin 1) c') = m ((c : Thread nD τ).loc main_arg3) (ix2 (⟨256 + c'.val, by omega⟩ : Fin 512) (0 : Fin 1)) := by
  have e : (U1 m c main_v3 : S1x256.Idx → Elt F .f32) = shapeCast S1x256 (extractStridedSlice S256x1 ![256, 0] (m ((c : Thread nD τ).loc main_arg3)) slices_S512x1_S256x1_256_0) shapeCasts_S256x1_S1x256 := by
    show StableHlo.after hostOps0 _ (Proc.devRef .tc main_v3) = _
    after_results
    rfl
  refine (congrFun e _).trans ?_
  refine (shapeCast_apply _ _ _ (ix2 c' (0 : Fin 1)) ?_).trans ?_
  · rw [Shape.rowMajor_val_two, Shape.rowMajor_val_two]; show c'.val * 1 + 0 = 0 * 256 + c'.val; omega
  · exact slice2_axis0_apply 256 _ _ c' 0 ⟨256 + c'.val, by omega⟩ rfl

/-- The right scores as a row: what the first region left in its third output array, entry by entry. -/
theorem U3_v5 (c : Dev nD) (j : Fin 8192) :
    U3 m c main_v5 (ix2 (0 : Fin 1) j) = W2 m c (Proc.devRef .tc main_v4_2) (ix2 j (0 : Fin 1)) := by
  have e : (U3 m c main_v5 : S1x8192.Idx → Elt F .f32) = shapeCast S1x8192 (W2 m c (Proc.devRef .tc main_v4_2)) shapeCasts_S8192x1_S1x8192 := by
    show StableHlo.after hostOps1 _ (Proc.devRef .tc main_v5) = _
    after_results
    rfl
  refine (congrFun e _).trans ?_
  refine shapeCast_apply _ _ _ (ix2 j (0 : Fin 1)) ?_
  rw [Shape.rowMajor_val_two, Shape.rowMajor_val_two]; show j.val * 1 + 0 = 0 * 8192 + j.val; omega

end Cert.KernelIdeal.Hand

end
-- ==== Proof.K1Pay.lean ====
/-
  The arithmetic of the attention region read at an index, on the extended reals.

  Each payload of the second kernel region is a chain of pointwise operations, broadcasts of a column or of a row,
  keep-dimension reductions along a row, and one matrix product.  Read at a row p and a column q (or the unit
  column u) each becomes a closed expression in the entries of the operands: the masked logit, the updated row
  maximum, the rescaled exponentials, the updated denominator and numerator, and the final quotient through the elu.
-/
import proofs.«125599_j41618233098759_2_alg».proof.Proof.Gen.KernelIdeal.Skeleton
import proofs.«125599_j41618233098759_2_alg».proof.Proof.Spec
import proofs.«125599_j41618233098759_2_alg».proof.Proof.LibColumn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.ValueIdx

/-- The unit coordinate of a column index is zero. -/
theorem fin_one_eq_zero (u : Fin 1) : u = (0 : Fin 1) := by omega

/-! ## The masked logit -/

/-- The masked logit at (p, q): the stand-in where the adjacency entry is zero, else the leaky rectifier of the sum of
    the row's left score and the column's right score. -/
theorem pay7_apply (al : Vec Ideal S512x1 .f32) (ar : Vec Ideal S1x2048 .f32) (ad : Vec Ideal S512x2048 .f32)
    (p : Fin 512) (q : Fin 2048) :
    k1_pay7 (F := Ideal) al ar ad (ix2 p q)
      = Scalar.select (FloatOps.cmpf (F := Ideal) (φ := .f32) .oeq (ad (ix2 p q)) Cert.Spec.ZERO) Cert.Spec.NEG
          (Cert.Spec.lrelu (al (ix2 p (0 : Fin 1)) + ar (ix2 (0 : Fin 1) q))) := by
  unfold k1_pay7
  have hl : broadcastTo S512x2048 (shapeCast S512x1 al shapeCasts_S512x1_S512x1) broadcasts_S512x1_S512x2048 (ix2 p q)
      = al (ix2 p (0 : Fin 1)) :=
    (Cert.Lib.broadcastTo_a1_ab_apply _ broadcasts_S512x1_S512x2048 p q).trans
      (congrFun (shapeCast_self al shapeCasts_S512x1_S512x1) _)
  have hr : broadcastTo S512x2048 (shapeCast S1x2048 ar shapeCasts_S1x2048_S1x2048) broadcasts_S1x2048_S512x2048 (ix2 p q)
      = ar (ix2 (0 : Fin 1) q) :=
    (broadcastTo_1b_ab_apply _ broadcasts_S1x2048_S512x2048 p q).trans
      (congrFun (shapeCast_self ar shapeCasts_S1x2048_S1x2048) _)
  show Scalar.select (FloatOps.cmpf (F := Ideal) (φ := .f32) .oeq (ad (ix2 p q)) Cert.Spec.ZERO) Cert.Spec.NEG
      (Cert.Spec.lrelu (broadcastTo S512x2048 (shapeCast S512x1 al shapeCasts_S512x1_S512x1) broadcasts_S512x1_S512x2048 (ix2 p q)
        + broadcastTo S512x2048 (shapeCast S1x2048 ar shapeCasts_S1x2048_S1x2048) broadcasts_S1x2048_S512x2048 (ix2 p q))) = _
  rw [hl, hr]

/-! ## The updated row maximum -/

/-- The new maximum of row p: the old one against the maximum of the tile's masked logits of that row. -/
theorem pay8_apply (al : Vec Ideal S512x1 .f32) (ar : Vec Ideal S1x2048 .f32) (ad : Vec Ideal S512x2048 .f32)
    (m : Vec Ideal S512x1 .f32) (p : Fin 512) (u : Fin 1) :
    k1_pay8 (F := Ideal) al ar ad m (ix2 p u)
      = max (m (ix2 p u)) ((Finset.univ : Finset (Fin 2048)).fold max Cert.Spec.NINF
          fun q => k1_pay7 (F := Ideal) al ar ad (ix2 p q)) := by
  unfold k1_pay8
  have hred : shapeCast S512x1 (multiReduction (F := Ideal) .maximumf [1] S512 (k1_pay7 (F := Ideal) al ar ad) 0xFF800000#32
        reduces_S512x2048_S512 (.inl rfl) rfl) shapeCasts_S512_S512x1 (ix2 p u)
      = (Finset.univ : Finset (Fin 2048)).fold max Cert.Spec.NINF fun q => k1_pay7 (F := Ideal) al ar ad (ix2 p q) :=
    (Cert.Lib.shapeCast_a_a1_apply _ shapeCasts_S512_S512x1 p u).trans
      (Cert.Lib.multiReduction_max_row (k1_pay7 (F := Ideal) al ar ad) reduces_S512x2048_S512 (.inl rfl) rfl p)
  exact congrArg (fun t => max (m (ix2 p u)) t) hred

/-! ## The rescaled exponentials -/

/-- The weight of column q in row p: the exponential of the logit less the new maximum. -/
theorem pay9_apply (al : Vec Ideal S512x1 .f32) (ar : Vec Ideal S1x2048 .f32) (ad : Vec Ideal S512x2048 .f32)
    (m : Vec Ideal S512x1 .f32) (p : Fin 512) (q : Fin 2048) :
    k1_pay9 (F := Ideal) al ar ad m (ix2 p q)
      = Ideal.exp (k1_pay7 (F := Ideal) al ar ad (ix2 p q) - k1_pay8 (F := Ideal) al ar ad m (ix2 p (0 : Fin 1))) := by
  unfold k1_pay9
  have hb : broadcastTo S512x2048 (k1_pay8 (F := Ideal) al ar ad m) broadcasts_S512x1_S512x2048 (ix2 p q)
      = k1_pay8 (F := Ideal) al ar ad m (ix2 p (0 : Fin 1)) :=
    Cert.Lib.broadcastTo_a1_ab_apply _ broadcasts_S512x1_S512x2048 p q
  exact congrArg (fun t => Ideal.exp (k1_pay7 (F := Ideal) al ar ad (ix2 p q) - t)) hb

/-- The factor by which row p's running sums shrink: the exponential of the old maximum less the new one. -/
theorem pay10_apply (al : Vec Ideal S512x1 .f32) (ar : Vec Ideal S1x2048 .f32) (ad : Vec Ideal S512x2048 .f32)
    (m : Vec Ideal S512x1 .f32) (p : Fin 512) (u : Fin 1) :
    k1_pay10 (F := Ideal) al ar ad m (ix2 p u)
      = Ideal.exp (m (ix2 p u) - k1_pay8 (F := Ideal) al ar ad m (ix2 p u)) := rfl

/-! ## The updated denominator -/

/-- The new denominator of row p: the old one rescaled, plus the tile's weights of that row. -/
theorem pay11_apply (al : Vec Ideal S512x1 .f32) (ar : Vec Ideal S1x2048 .f32) (ad : Vec Ideal S512x2048 .f32)
    (m l : Vec Ideal S512x1 .f32) (p : Fin 512) (u : Fin 1) :
    k1_pay11 (F := Ideal) al ar ad m l (ix2 p u)
      = k1_pay10 (F := Ideal) al ar ad m (ix2 p u) * l (ix2 p u)
        + ∑ q : Fin 2048, k1_pay9 (F := Ideal) al ar ad m (ix2 p q) := by
  unfold k1_pay11
  have hred : shapeCast S512x1 (multiReduction (F := Ideal) .add [1] S512 (k1_pay9 (F := Ideal) al ar ad m) 0x00000000#32
        reduces_S512x2048_S512 (.inl rfl) rfl) shapeCasts_S512_S512x1 (ix2 p u)
      = ∑ q : Fin 2048, k1_pay9 (F := Ideal) al ar ad m (ix2 p q) :=
    (Cert.Lib.shapeCast_a_a1_apply _ shapeCasts_S512_S512x1 p u).trans
      (Cert.Lib.multiReduction_add_row (k1_pay9 (F := Ideal) al ar ad m) reduces_S512x2048_S512 (.inl rfl) rfl p)
  refine (congrFun (shapeCast_self _ shapeCasts_S512x1_S512x1) (ix2 p u)).trans ?_
  exact congrArg (fun t => k1_pay10 (F := Ideal) al ar ad m (ix2 p u) * l (ix2 p u) + t) hred

/-! ## The updated numerator -/

/-- The contraction of the tile's matrix product has one axis, of extent 2048. -/
theorem dot1_contr_rank : (dot_S512x2048_S2048x256_S512x256_1_0_0_1_n_n).contr.rank = 1 := rfl
theorem dot1_contr_size : (dot_S512x2048_S2048x256_S512x256_1_0_0_1_n_n).contr.size ⟨0, by rw [dot1_contr_rank]; omega⟩ = 2048 := rfl

/-- The matrix product of the tile's weights with the tile's rows of h, at (p, c): the sum over the tile's columns. -/
theorem dot1_apply (L : FVec Ideal S512x2048 .bf16) (R : FVec Ideal S2048x256 .bf16) (p : Fin 512) (c : Fin 256) :
    matmul (F := Ideal) dot_S512x2048_S2048x256_S512x256_1_0_0_1_n_n none L R (constant S512x256 .f32 0x00000000#32) (ix2 p c)
      = ∑ q : Fin 2048, L (ix2 p q) * R (ix2 q c) := by
  refine (Ideal.matmul_constant_zero_apply dot_S512x2048_S2048x256_S512x256_1_0_0_1_n_n none L R (ix2 p c)).trans ?_
  rw [← Equiv.sum_comp (contrEquiv1 dot_S512x2048_S2048x256_S512x256_1_0_0_1_n_n 2048 dot1_contr_rank dot1_contr_size).symm]
  refine Finset.sum_congr rfl fun q _ => ?_
  have c2 := contrEquiv1_symm_val dot_S512x2048_S2048x256_S512x256_1_0_0_1_n_n 2048 dot1_contr_rank dot1_contr_size q
  have l2 : (dot_S512x2048_S2048x256_S512x256_1_0_0_1_n_n).lhsIdx (ix2 p c)
      ((contrEquiv1 dot_S512x2048_S2048x256_S512x256_1_0_0_1_n_n 2048 dot1_contr_rank dot1_contr_size).symm q) = ix2 p q := by
    funext ax; apply Fin.ext
    match ax with
    | ⟨0, _⟩ => rfl
    | ⟨1, _⟩ =>
      exact ((dot_S512x2048_S2048x256_S512x256_1_0_0_1_n_n).lhsIdx_val_of_single (cl := 1) rfl (ix2 p c) _).trans c2
  have r2 : (dot_S512x2048_S2048x256_S512x256_1_0_0_1_n_n).rhsIdx (ix2 p c)
      ((contrEquiv1 dot_S512x2048_S2048x256_S512x256_1_0_0_1_n_n 2048 dot1_contr_rank dot1_contr_size).symm q) = ix2 q c := by
    funext ax; apply Fin.ext
    match ax with
    | ⟨0, _⟩ =>
      exact ((dot_S512x2048_S2048x256_S512x256_1_0_0_1_n_n).rhsIdx_val_of_single (cr := 0) rfl (ix2 p c) _).trans c2
    | ⟨1, _⟩ => rfl
  rw [l2, r2]

/-- The new numerator at (p, c): the old one rescaled by the row's factor, plus the tile's weights against the tile's
    rows of h. -/
theorem pay1_apply (P : FVec Ideal S512x2048 .f32) (A : FVec Ideal S512x1 .f32) (hb : Vec Ideal S2048x256 .bf16)
    (acc : Vec Ideal S512x256 .f32) (p : Fin 512) (c : Fin 256) :
    k1_pay1 (F := Ideal) P A hb acc (ix2 p c)
      = A (ix2 p (0 : Fin 1)) * acc (ix2 p c) + ∑ q : Fin 2048, P (ix2 p q) * hb (ix2 q c) := by
  unfold k1_pay1
  refine (congrFun (shapeCast_self _ shapeCasts_S512x256_S512x256) (ix2 p c)).trans ?_
  have hB : broadcastTo S512x256 A broadcasts_S512x1_S512x256 (ix2 p c) = A (ix2 p (0 : Fin 1)) :=
    Cert.Lib.broadcastTo_a1_ab_apply A broadcasts_S512x1_S512x256 p c
  have hM := dot1_apply (truncf .bf16 P bitsLt_bf16_f32) (shapeCast S2048x256 hb shapeCasts_S2048x256_S2048x256) p c
  rw [shapeCast_self hb shapeCasts_S2048x256_S2048x256] at hM
  show broadcastTo S512x256 A broadcasts_S512x1_S512x256 (ix2 p c) * acc (ix2 p c)
      + matmul (F := Ideal) dot_S512x2048_S2048x256_S512x256_1_0_0_1_n_n none (truncf .bf16 P bitsLt_bf16_f32)
          (shapeCast S2048x256 hb shapeCasts_S2048x256_S2048x256) (constant S512x256 .f32 0x00000000#32) (ix2 p c) = _
  rw [hB]
  exact congrArg (fun t => A (ix2 p (0 : Fin 1)) * acc (ix2 p c) + t) (by
    rw [shapeCast_self hb shapeCasts_S2048x256_S2048x256]; exact hM)

/-! ## The carried maximum, the reset values -/

/-- The stored maximum is the value handed over, entry by entry. -/
theorem pay2_apply (v : FVec Ideal S512x1 .f32) (j : S512x1.Idx) : k1_pay2 (F := Ideal) v j = v j :=
  congrFun (shapeCast_self v shapeCasts_S512x1_S512x1) j

/-- The maximum is reset to the stand-in. -/
theorem pay4_apply (j : S512x1.Idx) : k1_pay4 (F := Ideal) j = Cert.Spec.NEG :=
  congrFun (shapeCast_self (broadcast S512x1 (Cert.Spec.NEG : Ideal .f32)) shapeCasts_S512x1_S512x1) j

/-- The denominator is reset to zero. -/
theorem pay5_apply (j : S512x1.Idx) : k1_pay5 (F := Ideal) j = Cert.Spec.ZERO :=
  congrFun (shapeCast_self (broadcast S512x1 (Cert.Spec.ZERO : Ideal .f32)) shapeCasts_S512x1_S512x1) j

/-- The numerator is reset to zero. -/
theorem pay6_apply (j : S512x256.Idx) : k1_pay6 (F := Ideal) j = Cert.Spec.ZERO :=
  congrFun (shapeCast_self (broadcast S512x256 (Cert.Spec.ZERO : Ideal .f32)) shapeCasts_S512x256_S512x256) j

/-! ## The output entry -/

/-- The output at (p, c): the elu of the numerator over the row's denominator. -/
theorem pay3_apply (acc : Vec Ideal S512x256 .f32) (l : Vec Ideal S512x1 .f32) (p : Fin 512) (c : Fin 256) :
    k1_pay3 (F := Ideal) acc l (ix2 p c)
      = Cert.Spec.eluKer (Ideal.div (acc (ix2 p c)) (l (ix2 p (0 : Fin 1)))) := by
  unfold k1_pay3
  have hb : broadcastTo S512x256 l broadcasts_S512x1_S512x256 (ix2 p c) = l (ix2 p (0 : Fin 1)) :=
    Cert.Lib.broadcastTo_a1_ab_apply l broadcasts_S512x1_S512x256 p c
  show Cert.Spec.eluKer (Ideal.div (acc (ix2 p c)) (broadcastTo S512x256 l broadcasts_S512x1_S512x256 (ix2 p c))) = _
  rw [hb]

end Cert.KernelIdeal.Hand

end
-- ==== Proof.K1Blk.lean ====
/-
  The second region's blocks read at an index.

  The grid has 16 row blocks of 512 rows and, inside each, 4 column tiles of 2048 columns: point t is row block t / 4 and
  column tile t % 4. An element of a window's block at point t sits in the window's array, on each axis, at the block index
  times the block size plus its coordinate in the block. So the left scores' block holds rows 512 · (t / 4) + p, the right
  scores' block columns 2048 · (t % 4) + q, the adjacency block both; the resident copy of h is the whole array, and the
  rows of it the tile multiplies against start at row 2048 · (t % 4). The output block of point t is rows 512 · (t / 4) + p
  of the output, written back at the last tile of the row block, and these blocks cover the output.
-/
import proofs.«125599_j41618233098759_2_alg».proof.Proof.KDefs
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem N1 : cfg1.N = 64 := N_1

/-- The block indices of the five windows at point t, decided over the 64 points. -/
theorem idx1 : ∀ t : Fin cfg1.N,
    win1_0.index t (0 : Fin 2) = t.val / 4 ∧ win1_0.index t (1 : Fin 2) = 0
    ∧ win1_1.index t (0 : Fin 2) = 0 ∧ win1_1.index t (1 : Fin 2) = t.val % 4
    ∧ win1_2.index t (0 : Fin 2) = t.val / 4 ∧ win1_2.index t (1 : Fin 2) = t.val % 4
    ∧ win1_3.index t (0 : Fin 2) = 0 ∧ win1_3.index t (1 : Fin 2) = 0
    ∧ win1_4.index t (0 : Fin 2) = t.val / 4 ∧ win1_4.index t (1 : Fin 2) = 0 :=
  (by decide +kernel : ∀ t : Fin grid1.N, _)

/-- The first row of h the tile of point t multiplies against, decided over the 64 points. -/
theorem off1 : ∀ t : Fin cfg1.N,
    k1_off1 (grid1.coords t) (0 : Fin 2) = 2048 * (t.val % 4) ∧ k1_off1 (grid1.coords t) (1 : Fin 2) = 0 :=
  (by decide +kernel : ∀ t : Fin grid1.N, _)

/-- The left scores' block: rows 512 · (t / 4) + p of the column. -/
theorem iblk1_0 (c : Dev nD) (t : Fin cfg1.N) (p : Fin 512) (u : Fin 1) :
    iblk1 V c 0 t (ix2 p u) = V c main_v4_1 (ix2 (⟨512 * (t.val / 4) + p.val, by have h := t.isLt; have hN := N1; omega⟩ : Fin 8192) (0 : Fin 1)) := by
  obtain ⟨e0, e1, -⟩ := idx1 t
  show V c main_v4_1 (((cfg1.win 0).blk t).view.emb (ix2 p u)) = V c main_v4_1 _
  congr 1
  funext a; apply Fin.ext
  match a with
  | ⟨0, _⟩ => show win1_0.index t (0 : Fin 2) * 512 + 1 * p.val = 512 * (t.val / 4) + p.val; omega
  | ⟨1, _⟩ => show win1_0.index t (1 : Fin 2) * 1 + 1 * u.val = 0; omega

/-- The right scores' block: columns 2048 · (t % 4) + q of the row. -/
theorem iblk1_1 (c : Dev nD) (t : Fin cfg1.N) (u : Fin 1) (q : Fin 2048) :
    iblk1 V c 1 t (ix2 u q) = V c main_v5 (ix2 (0 : Fin 1) (⟨2048 * (t.val % 4) + q.val, by omega⟩ : Fin 8192)) := by
  obtain ⟨-, -, e0, e1, -⟩ := idx1 t
  show V c main_v5 (((cfg1.win 1).blk t).view.emb (ix2 u q)) = V c main_v5 _
  congr 1
  funext a; apply Fin.ext
  match a with
  | ⟨0, _⟩ => show win1_1.index t (0 : Fin 2) * 1 + 1 * u.val = 0; omega
  | ⟨1, _⟩ => show win1_1.index t (1 : Fin 2) * 2048 + 1 * q.val = 2048 * (t.val % 4) + q.val; omega

/-- The adjacency block: rows 512 · (t / 4) + p, columns 2048 · (t % 4) + q. -/
theorem iblk1_2 (c : Dev nD) (t : Fin cfg1.N) (p : Fin 512) (q : Fin 2048) :
    iblk1 V c 2 t (ix2 p q) = V c main_arg1 (ix2 (⟨512 * (t.val / 4) + p.val, by have h := t.isLt; have hN := N1; omega⟩ : Fin 8192)
      (⟨2048 * (t.val % 4) + q.val, by omega⟩ : Fin 8192)) := by
  obtain ⟨-, -, -, -, e0, e1, -⟩ := idx1 t
  show V c main_arg1 (((cfg1.win 2).blk t).view.emb (ix2 p q)) = V c main_arg1 _
  congr 1
  funext a; apply Fin.ext
  match a with
  | ⟨0, _⟩ => show win1_2.index t (0 : Fin 2) * 512 + 1 * p.val = 512 * (t.val / 4) + p.val; omega
  | ⟨1, _⟩ => show win1_2.index t (1 : Fin 2) * 2048 + 1 * q.val = 2048 * (t.val % 4) + q.val; omega

/-- The resident copy of h is the whole array at every point. -/
theorem iblk1_3 (c : Dev nD) (t : Fin cfg1.N) (r : Fin 8192) (c' : Fin 256) :
    iblk1 V c 3 t (ix2 r c') = V c main_v4_0 (ix2 r c') := by
  obtain ⟨-, -, -, -, -, -, e0, e1, -⟩ := idx1 t
  show V c main_v4_0 (((cfg1.win 3).blk t).view.emb (ix2 r c')) = V c main_v4_0 _
  congr 1
  funext a; apply Fin.ext
  match a with
  | ⟨0, _⟩ => show win1_3.index t (0 : Fin 2) * 8192 + 1 * r.val = r.val; omega
  | ⟨1, _⟩ => show win1_3.index t (1 : Fin 2) * 256 + 1 * c'.val = c'.val; omega

/-- The rows of h the tile loads: 2048 rows from row 2048 · (t % 4). -/
theorem ld_h (c : Dev nD) (t : Fin cfg1.N) (q : Fin 2048) (c' : Fin 256) :
    View.ld (iblk1 V c 3 t) (r1_h (grid1.coords t)) (ix2 q c')
      = V c main_v4_0 (ix2 (⟨2048 * (t.val % 4) + q.val, by omega⟩ : Fin 8192) c') := by
  obtain ⟨o0, o1⟩ := off1 t
  have e : (r1_h (grid1.coords t)).idx (ix2 q c') = ix2 (⟨2048 * (t.val % 4) + q.val, by omega⟩ : Fin 8192) c' := by
    funext a; apply Fin.ext
    match a with
    | ⟨0, _⟩ => show k1_off1 (grid1.coords t) (0 : Fin 2) + 1 * q.val = 2048 * (t.val % 4) + q.val; omega
    | ⟨1, _⟩ => show k1_off1 (grid1.coords t) (1 : Fin 2) + 1 * c'.val = c'.val; omega
  show iblk1 V c 3 t ((r1_h (grid1.coords t)).idx (ix2 q c')) = _
  rw [e]
  exact iblk1_3 V c t _ c'

/-- Where the output block's element (p, c') sits in the output: row 512 · (t / 4) + p, column c'. -/
theorem out_emb (t : Fin cfg1.N) (p : Fin 512) (c' : Fin 256) :
    (((cfg1.win 4).blk t).view.emb (ix2 p c') : S8192x256.Idx)
      = ix2 (⟨512 * (t.val / 4) + p.val, by have h := t.isLt; have hN := N1; omega⟩ : Fin 8192) c' := by
  obtain ⟨-, -, -, -, -, -, -, -, e0, e1⟩ := idx1 t
  funext a; apply Fin.ext
  match a with
  | ⟨0, _⟩ => show win1_4.index t (0 : Fin 2) * 512 + 1 * p.val = 512 * (t.val / 4) + p.val; omega
  | ⟨1, _⟩ => show win1_4.index t (1 : Fin 2) * 256 + 1 * c'.val = c'.val; omega

/-- An index of the output is in point t's block iff each coordinate is in the block's range on its axis. -/
theorem mem_blk1_4 (t : Fin cfg1.N) (i : S8192x256.Idx) :
    i ∈ ((cfg1.win 4).blk t).view.set ↔ ∀ a : Fin 2, win1_4.index t a * S512x256.size a ≤ (i a).val ∧ (i a).val < win1_4.index t a * S512x256.size a + S512x256.size a := by
  show i ∈ ((View.whole main_v6).slice (win1_4.rect t)).set ↔ _
  rw [View.set_slice_whole, Rect.mem_set_unit]
  exact Iff.rfl

/-- Every index of the output is in the block written back at the last tile of its row block. -/
theorem cover1_4 : ∀ i : S8192x256.Idx, ∃ t : Fin cfg1.N, (cfg1.win 4).flush t = true ∧ i ∈ ((cfg1.win 4).blk t).view.set := by
  intro i
  have hi0 : (i 0).val < 8192 := (i 0).isLt
  have hi1 : (i 1).val < 256 := (i 1).isLt
  have hN := N1
  let t : Fin cfg1.N := ⟨4 * ((i 0).val / 512) + 3, by omega⟩
  have ht : t.val = 4 * ((i 0).val / 512) + 3 := rfl
  obtain ⟨-, -, -, -, -, -, -, -, e0, e1⟩ := idx1 t
  refine ⟨t, (flush1_4 t).mpr (by rw [ht]; omega), ?_⟩
  rw [mem_blk1_4]
  intro a
  match a with
  | ⟨0, _⟩ => show win1_4.index t (0 : Fin 2) * 512 ≤ (i 0).val ∧ (i 0).val < win1_4.index t (0 : Fin 2) * 512 + 512; omega
  | ⟨1, _⟩ => show win1_4.index t (1 : Fin 2) * 256 ≤ (i 1).val ∧ (i 1).val < win1_4.index t (1 : Fin 2) * 256 + 256; omega

end Cert.KernelIdeal.Hand

end
-- ==== Proof.K1Val.lean ====
/-
  What the second kernel region leaves in its output array, at the ideal instance.

  Suppose the region is entered with the left scores in its first window's array, the right scores in the second, the
  adjacency in the third and h in the fourth. Grid point n works on row block n / 4 and column tile n % 4. By induction on n
  the three carried buffers hold, for each row of the block, the running maximum, denominator and numerator of the
  specification after n % 4 + 1 tiles: one step of the specification's recurrences is one evaluation of the body's payloads
  on the point's blocks, and a point that starts a row block restarts from the reset values. At the last tile of a row
  block the stored output is the quotient through the elu, so every written-back block is a block of the specification's
  result, and the written-back blocks cover the array.
-/
import proofs.«125599_j41618233098759_2_alg».proof.Proof.KDefs
import proofs.«125599_j41618233098759_2_alg».proof.Proof.K1Pay
import proofs.«125599_j41618233098759_2_alg».proof.Proof.K1Blk
import proofs.«125599_j41618233098759_2_alg».proof.Proof.SpecArr
import Idealize.ShloMosaic.Lib.Pipeline.Value
import Idealize.ShloMosaic.Lib.ValueIdx

set_option maxRecDepth 16384

noncomputable section

namespace Cert.KernelIdeal.Hand

open Cert.KernelIdeal Cert.KernelIdeal.Gen Cert.Spec
open Idealize.ShloMosaic Idealize.ShloMosaic.TcCoe Idealize.ShloMosaic.ValueIdx
open Idealize.SL.Sem
open Idealize.ShloMosaic.Pipeline (Dat)

variable (x : Fin 8192 → Fin 512 → EReal) (adj : Fin 8192 → Fin 8192 → EReal) (W : Fin 512 → Fin 256 → EReal)
  (a : Fin 512 → EReal)

/-! ## One tile, over variables -/

/-- ONE STEP. If the point's blocks hold the left scores of the rows `row p`, the right scores, the adjacency and the rows
    of h of the columns of tile n, and the carried values are the specification's after n tiles, then the body's payloads
    are the specification's after n + 1 tiles. -/
theorem step_inv (al : Vec Ideal S512x1 .f32) (ar : Vec Ideal S1x2048 .f32) (ad : Vec Ideal S512x2048 .f32)
    (hb : Vec Ideal S2048x256 .bf16) (row : Fin 512 → Fin 8192) (n : ℕ)
    (hal : ∀ p : Fin 512, al (ix2 p (0 : Fin 1)) = attL x W a (row p))
    (har : ∀ q : Fin 2048, ar (ix2 (0 : Fin 1) q) = attR x W a (col n q))
    (had : ∀ (p : Fin 512) (q : Fin 2048), ad (ix2 p q) = adj (row p) (col n q))
    (hhb : ∀ (q : Fin 2048) (c' : Fin 256), hb (ix2 q c') = hm x W (col n q) c')
    (mx l : Vec Ideal S512x1 .f32) (acc : Vec Ideal S512x256 .f32)
    (hmx : ∀ p : Fin 512, mx (ix2 p (0 : Fin 1)) = kM x adj W a (row p) n)
    (hl : ∀ p : Fin 512, l (ix2 p (0 : Fin 1)) = kL x adj W a (row p) n)
    (hacc : ∀ (p : Fin 512) (c' : Fin 256), acc (ix2 p c') = kAcc x adj W a (row p) c' n) :
    (∀ p : Fin 512, k1_pay2 (F := Ideal) (k1_pay8 (F := Ideal) al ar ad mx) (ix2 p (0 : Fin 1)) = kM x adj W a (row p) (n + 1))
    ∧ (∀ p : Fin 512, k1_pay11 (F := Ideal) al ar ad mx l (ix2 p (0 : Fin 1)) = kL x adj W a (row p) (n + 1))
    ∧ (∀ (p : Fin 512) (c' : Fin 256), k1_pay1 (F := Ideal) (k1_pay9 (F := Ideal) al ar ad mx) (k1_pay10 (F := Ideal) al ar ad mx) hb acc (ix2 p c')
        = kAcc x adj W a (row p) c' (n + 1)) := by
  -- the tile's masked logits
  have h7 : ∀ (p : Fin 512) (q : Fin 2048), k1_pay7 (F := Ideal) al ar ad (ix2 p q) = score x adj W a (row p) (col n q) := fun p q => by
    rw [pay7_apply, hal, har, had]; rfl
  -- the new maximum
  have h8 : ∀ p : Fin 512, k1_pay8 (F := Ideal) al ar ad mx (ix2 p (0 : Fin 1)) = kM x adj W a (row p) (n + 1) := fun p => by
    rw [pay8_apply, hmx]
    show max _ _ = max _ _
    exact congrArg _ (congrArg (fun f => Finset.fold max NINF f (Finset.univ : Finset (Fin 2048))) (funext fun q => h7 p q))
  have h9 : ∀ (p : Fin 512) (q : Fin 2048), k1_pay9 (F := Ideal) al ar ad mx (ix2 p q)
      = Ideal.exp (score x adj W a (row p) (col n q) - kM x adj W a (row p) (n + 1)) := fun p q => by
    rw [pay9_apply, h7, h8]
  have h10 : ∀ p : Fin 512, k1_pay10 (F := Ideal) al ar ad mx (ix2 p (0 : Fin 1))
      = Ideal.exp (kM x adj W a (row p) n - kM x adj W a (row p) (n + 1)) := fun p => by
    rw [pay10_apply, hmx, h8]
  refine ⟨fun p => ?_, fun p => ?_, fun p c' => ?_⟩
  · rw [pay2_apply]; exact h8 p
  · rw [pay11_apply, h10, hl]
    show _ = _ * _ + _
    exact congrArg _ (Finset.sum_congr rfl fun q _ => h9 p q)
  · rw [pay1_apply, h10, hacc]
    show _ = _ * _ + _
    exact congrArg _ (Finset.sum_congr rfl fun q _ => by rw [h9, hhb])

/-! ## The region's entry contents -/

variable (V : (c : Dev nD) → (b : Ref sig .tc) → Buf (Elt Ideal) ((c : Thread nD τ).loc b))

/-- What the region finds in the arrays of its four input windows. -/
structure Entry (c : Dev nD) : Prop where
  hL : ∀ i : Fin 8192, V c main_v4_1 (ix2 i (0 : Fin 1)) = attL x W a i
  hR : ∀ j : Fin 8192, V c main_v5 (ix2 (0 : Fin 1) j) = attR x W a j
  hA : ∀ i j : Fin 8192, V c main_arg1 (ix2 i j) = adj i j
  hH : ∀ (j : Fin 8192) (c' : Fin 256), V c main_v4_0 (ix2 j c') = hm x W j c'

/-- The row of the array that row p of the block of point n is (n < 64). -/
def rowN (n : ℕ) (hn : n < 64) (p : Fin 512) : Fin 8192 := ⟨512 * (n / 4) + p.val, by have := p.isLt; omega⟩

theorem col_lt (j : ℕ) (hj : j < 4) (q : Fin 2048) : col j q = ⟨2048 * j + q.val, by have := q.isLt; omega⟩ :=
  Fin.ext (Nat.mod_eq_of_lt (by have := q.isLt; omega))

theorem N64 : cfg1.N = 64 := N_1

/-- ONE POINT. From carried values that are the specification's after n % 4 tiles of the point's row block, the step on the
    point's blocks gives the specification's after n % 4 + 1 tiles. -/
theorem step1_inv (c : Dev nD) (hE : Entry x adj W a V c) (n : ℕ) (hn : n < cfg1.N) (hn' : n < 64) (s : St1 Ideal)
    (h1 : ∀ p : Fin 512, s.1 (ix2 p (0 : Fin 1)) = kM x adj W a (rowN n hn' p) (n % 4))
    (h2 : ∀ p : Fin 512, s.2.1 (ix2 p (0 : Fin 1)) = kL x adj W a (rowN n hn' p) (n % 4))
    (h3 : ∀ (p : Fin 512) (c' : Fin 256), s.2.2 (ix2 p c') = kAcc x adj W a (rowN n hn' p) c' (n % 4)) :
    (∀ p : Fin 512, (step1 (grid1.coords ⟨n, hn⟩) (iblk1 V c 0 ⟨n, hn⟩) (iblk1 V c 1 ⟨n, hn⟩) (iblk1 V c 2 ⟨n, hn⟩) (iblk1 V c 3 ⟨n, hn⟩) s).1 (ix2 p (0 : Fin 1))
        = kM x adj W a (rowN n hn' p) (n % 4 + 1))
    ∧ (∀ p : Fin 512, (step1 (grid1.coords ⟨n, hn⟩) (iblk1 V c 0 ⟨n, hn⟩) (iblk1 V c 1 ⟨n, hn⟩) (iblk1 V c 2 ⟨n, hn⟩) (iblk1 V c 3 ⟨n, hn⟩) s).2.1 (ix2 p (0 : Fin 1))
        = kL x adj W a (rowN n hn' p) (n % 4 + 1))
    ∧ (∀ (p : Fin 512) (c' : Fin 256), (step1 (grid1.coords ⟨n, hn⟩) (iblk1 V c 0 ⟨n, hn⟩) (iblk1 V c 1 ⟨n, hn⟩) (iblk1 V c 2 ⟨n, hn⟩) (iblk1 V c 3 ⟨n, hn⟩) s).2.2 (ix2 p c')
        = kAcc x adj W a (rowN n hn' p) c' (n % 4 + 1)) := by
  have hj : n % 4 < 4 := Nat.mod_lt _ (by decide)
  exact step_inv x adj W a (iblk1 V c 0 ⟨n, hn⟩) (iblk1 V c 1 ⟨n, hn⟩) (iblk1 V c 2 ⟨n, hn⟩)
    (View.ld (iblk1 V c 3 ⟨n, hn⟩) (r1_h (grid1.coords ⟨n, hn⟩))) (rowN n hn') (n % 4)
    (fun p => (iblk1_0 V c ⟨n, hn⟩ p (0 : Fin 1)).trans (hE.hL _))
    (fun q => (iblk1_1 V c ⟨n, hn⟩ (0 : Fin 1) q).trans ((hE.hR _).trans (congrArg _ (col_lt _ hj q).symm)))
    (fun p q => (iblk1_2 V c ⟨n, hn⟩ p q).trans ((hE.hA _ _).trans (congrArg _ (col_lt _ hj q).symm)))
    (fun q c' => (ld_h V c ⟨n, hn⟩ q c').trans ((hE.hH _ _).trans (congrArg (fun j => hm x W j c') (col_lt _ hj q).symm)))
    s.1 s.2.1 s.2.2 h1 h2 h3

/-- THE CARRIED STATE is the specification's: after point n, for each row of its row block, the running maximum, denominator
    and numerator after n % 4 + 1 tiles. -/
theorem stAt_inv (c : Dev nD) (hE : Entry x adj W a V c) : ∀ (n : ℕ) (hn : n < cfg1.N) (hn' : n < 64),
    (∀ p : Fin 512, (stAt V c n hn).1 (ix2 p (0 : Fin 1)) = kM x adj W a (rowN n hn' p) (n % 4 + 1))
    ∧ (∀ p : Fin 512, (stAt V c n hn).2.1 (ix2 p (0 : Fin 1)) = kL x adj W a (rowN n hn' p) (n % 4 + 1))
    ∧ (∀ (p : Fin 512) (c' : Fin 256), (stAt V c n hn).2.2 (ix2 p c') = kAcc x adj W a (rowN n hn' p) c' (n % 4 + 1))
  | 0, hn, hn' => by
    rw [stAt_zero]
    exact step1_inv x adj W a V c hE 0 hn hn' init1 (fun p => pay4_apply (ix2 p (0 : Fin 1))) (fun p => pay5_apply (ix2 p (0 : Fin 1))) (fun p c' => pay6_apply (ix2 p c'))
  | n + 1, hn, hn' => by
    rw [stAt_succ]
    by_cases h : (n + 1) % 4 = 0
    · rw [if_pos h]
      refine step1_inv x adj W a V c hE (n + 1) hn hn' init1 (fun p => ?_) (fun p => ?_) (fun p c' => ?_)
      · rw [h]; exact pay4_apply (ix2 p (0 : Fin 1))
      · rw [h]; exact pay5_apply (ix2 p (0 : Fin 1))
      · rw [h]; exact pay6_apply (ix2 p c')
    · rw [if_neg h]
      obtain ⟨i1, i2, i3⟩ := stAt_inv c hE n (Nat.lt_of_succ_lt hn) (by omega)
      have hrow : ∀ p : Fin 512, rowN n (by omega) p = rowN (n + 1) hn' p := fun p =>
        Fin.ext (by show 512 * (n / 4) + p.val = 512 * ((n + 1) / 4) + p.val; omega)
      have hidx : n % 4 + 1 = (n + 1) % 4 := by omega
      refine step1_inv x adj W a V c hE (n + 1) hn hn' _ (fun p => ?_) (fun p => ?_) (fun p c' => ?_)
      · rw [← hidx, ← hrow]; exact i1 p
      · rw [← hidx, ← hrow]; exact i2 p
      · rw [← hidx, ← hrow]; exact i3 p c'

/-! ## The output array -/

/-- The specification's result as an array. -/
def G1 : S8192x256.Idx → EReal := fun j => kerOut x adj W a ⟨(j 0).val, idx2_lt0 j⟩ ⟨(j 1).val, idx2_lt1 j⟩

theorem hz14 : (![0, 0] : Fin 2 → Nat) = fun _ => 0 := funext fun i => by fin_cases i <;> rfl

/-- WHAT A LAST-TILE POINT WRITES BACK is its block of the specification's result. -/
theorem flushed1_4 (c : Dev nD) (hE : Entry x adj W a V c) (t : Fin cfg1.N) (ht : t.val % 4 = 3) :
    (dat1 (F := Ideal) V c).flushed 4 t = ((cfg1.win 4).blk t).view.read (Elt Ideal) (G1 x adj W a) := by
  show (cfg1.win 4).cut (grid1.coords t) ((dat1 (F := Ideal) V c).after 4 t) = _
  rw [after1_4]
  unfold out1_4
  rw [View.canon_unit_zero hz14]
  have hn' : t.val < 64 := lt_of_lt_of_eq t.isLt N64
  obtain ⟨i1, i2, i3⟩ := stAt_inv x adj W a V c hE t.val t.isLt hn'
  funext y
  obtain ⟨p, c', rfl⟩ : ∃ (p : Fin 512) (c' : Fin 256), y = ix2 p c' := ⟨y 0, y 1, eq_ix2 y⟩
  rw [View.read_apply]
  refine (pay3_apply _ _ p c').trans ?_
  rw [i3 p c', i2 p, ht]
  show _ = G1 x adj W a (((cfg1.win 4).blk t).view.emb (ix2 p c'))
  rw [out_emb t p c']
  rfl

/-- THE OUTPUT ARRAY after the region is the specification's result. -/
theorem final1_4 (c : Dev nD) (hE : Entry x adj W a V c) : (dat1 (F := Ideal) V c).arrAt 4 cfg1.N = G1 x adj W a :=
  (dat1 (F := Ideal) V c).arrAt_eq_of_cover 4 (G1 x adj W a)
    (fun t hf => flushed1_4 x adj W a V c hE t ((flush1_4 t).mp hf)) cover1_4

end Cert.KernelIdeal.Hand

end
-- ==== Proof.KVal.lean ====
/-
  The kernel program's result array is the specification's, on the extended reals.

  The first region is entered with x and W as launched and with the two halves of the column a laid out as rows; it
  leaves h = x · W and the row sums of h against each half: the left and the right scores. The host lays the right
  scores out as a row. So the second region finds the left scores, the right scores, the adjacency (untouched since the
  launch) and h in the arrays of its four input windows, and what it leaves in its output array is then the
  specification's result. The run of the whole program ends with that array in the result buffer and the arguments
  unchanged.
-/
import proofs.«125599_j41618233098759_2_alg».proof.Proof.KRun
import proofs.«125599_j41618233098759_2_alg».proof.Proof.K0Body
import proofs.«125599_j41618233098759_2_alg».proof.Proof.K0Val
import proofs.«125599_j41618233098759_2_alg».proof.Proof.KHostVal
import proofs.«125599_j41618233098759_2_alg».proof.Proof.K1Val
import proofs.«125599_j41618233098759_2_alg».proof.Proof.SpecArr

set_option maxRecDepth 16384

noncomputable section

namespace Cert.KernelIdeal.Hand

open Cert.KernelIdeal Cert.KernelIdeal.Gen Cert.Spec
open Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ)

/-! ## What the second region finds -/

/-- The first region finds x and W as launched: no host operation before it writes them. -/
theorem U1_arg0 (c : Dev nD) : U1 m c main_arg0 = m ((c : Thread nD τ).loc main_arg0) := W1_of m c main_arg0 (by decide)
theorem U1_arg2 (c : Dev nD) : U1 m c main_arg2 = m ((c : Thread nD τ).loc main_arg2) := W1_of m c main_arg2 (by decide)

/-- h: the first region's first output array, which the host operation between the regions does not write. -/
theorem entry_hH (c : Dev nD) (j : Fin 8192) (c' : Fin 256) :
    U3 m c main_v4_0 (ix2 j c')
      = hm (arr2 (m ((c : Thread nD τ).loc main_arg0))) (arr2 (m ((c : Thread nD τ).loc main_arg2))) j c' := by
  have h1 : U3 m c main_v4_0 = (dat0 (F := Ideal) (U1 m) c).arrAt 4 cfg0.N :=
    (W3_of m c main_v4_0 (by decide)).trans (W2_arr m c 4)
  refine (congrFun (h1.trans (final0_4 (U1 m) c)) (ix2 j c')).trans ?_
  show hm (arr2 (U1 m c main_arg0)) (arr2 (U1 m c main_arg2)) j c' = _
  rw [U1_arg0, U1_arg2]

/-- The adjacency: written by nothing since the launch. -/
theorem entry_hA (c : Dev nD) (i j : Fin 8192) :
    U3 m c main_arg1 (ix2 i j) = arr2 (m ((c : Thread nD τ).loc main_arg1)) i j :=
  congrFun ((W3_of m c main_arg1 (by decide)).trans
    ((W2_of_ne m c main_arg1 (by decide)).trans (W1_of m c main_arg1 (by decide)))) (ix2 i j)

/-- The left scores: the first region's second output array is the row sums of h against the first half of a, and entry
    c' of that half, laid out as a row by the host, is a (c'). -/
theorem entry_hL (c : Dev nD) (i : Fin 8192) :
    U3 m c main_v4_1 (ix2 i (0 : Fin 1))
      = attL (arr2 (m ((c : Thread nD τ).loc main_arg0))) (arr2 (m ((c : Thread nD τ).loc main_arg2)))
          (colv (m ((c : Thread nD τ).loc main_arg3))) i := by
  have h1 : U3 m c main_v4_1 = (dat0 (F := Ideal) (U1 m) c).arrAt 5 cfg0.N :=
    (W3_of m c main_v4_1 (by decide)).trans (W2_arr m c 5)
  refine (congrFun (h1.trans (final0_5 (U1 m) c)) (ix2 i (0 : Fin 1))).trans ?_
  show ∑ c' : Fin 256, hm (arr2 (U1 m c main_arg0)) (arr2 (U1 m c main_arg2)) i c' * U1 m c main_v1 (ix2 (0 : Fin 1) c') = _
  rw [U1_arg0, U1_arg2]
  exact Finset.sum_congr rfl fun c' _ => congrArg (hm _ _ i c' * ·) (U1_v1 m c c')

/-- The right scores: the host's row is the first region's third output array entry by entry, that array is the row
    sums of h against the second half of a, and entry c' of that half is a (256 + c'). -/
theorem entry_hR (c : Dev nD) (j : Fin 8192) :
    U3 m c main_v5 (ix2 (0 : Fin 1) j)
      = attR (arr2 (m ((c : Thread nD τ).loc main_arg0))) (arr2 (m ((c : Thread nD τ).loc main_arg2)))
          (colv (m ((c : Thread nD τ).loc main_arg3))) j := by
  refine (U3_v5 m c j).trans ?_
  refine (congrFun ((W2_arr m c 6).trans (final0_6 (U1 m) c)) (ix2 j (0 : Fin 1))).trans ?_
  show ∑ c' : Fin 256, hm (arr2 (U1 m c main_arg0)) (arr2 (U1 m c main_arg2)) j c' * U1 m c main_v3 (ix2 (0 : Fin 1) c') = _
  rw [U1_arg0, U1_arg2]
  exact Finset.sum_congr rfl fun c' _ => congrArg (hm _ _ j c' * ·) (U1_v3 m c c')

/-- WHAT THE SECOND REGION FINDS: the left scores, the right scores, the adjacency and h of the launch arrays. -/
theorem entry (c : Dev nD) :
    Entry (arr2 (m ((c : Thread nD τ).loc main_arg0))) (arr2 (m ((c : Thread nD τ).loc main_arg1)))
      (arr2 (m ((c : Thread nD τ).loc main_arg2))) (colv (m ((c : Thread nD τ).loc main_arg3))) (U3 m) c :=
  ⟨entry_hL m c, entry_hR m c, entry_hA m c, entry_hH m c⟩

/-! ## The run -/

/-- THE RUN WITH ITS VALUE: every weakly fair execution of the program terminates, nothing faulting; the result buffer
    ends at the specification's result of the four launch arrays, and the arguments end as launched. -/
theorem run_value (hb1 : HB1 Ideal) (hi1 : HI1 Ideal) (ho1 : HO1 Ideal) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v6)
          = kerArr (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run (defs (F := Ideal)) _ _).mono (fun r h c =>
    ⟨(h c).1.trans ((final1_4 _ _ _ _ (U3 m) c (entry m c)).trans rfl), (h c).2⟩)
    (run_result m (fun V c => body_obligation0 V c) hb1 hi1 ho1 ρ)

end Cert.KernelIdeal.Hand

end
-- ==== Proof.RefRun.lean ====
/-
  The reference program's run. Its entry function is a straight line of host operations once the three local
  functions it calls are written out where they are called (the leaky rectifier with its select, the masking select,
  and the elu with its two selects), each over that call's own buffers: fifty-four operations in all. Every weakly fair
  execution then terminates with each buffer holding the fold of those operations over the launch contents.
-/
import proofs.«125599_j41618233098759_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The entry function's operations in order, each call replaced by its callee's operations over the call's buffers:
    ten of its own (h, the two halves of a, the two scores, their sum over all pairs, the slope), the leaky rectifier's
    seven, four more (the zero, the comparison of adj with it, the stand-in), the masking select's three, fifteen for the
    row softmax and the weighted sum, and the elu's fifteen. -/
abbrev ops : List (HloOp τ sig (Elt F)) :=
  [ binary main_arg0 main_arg2 main_v0 ((fun l r => Host.dotGeneral dot_S8192x512_S512x256_S8192x256_1_0_0_1_n_n none l r) : (⟨S8192x512, .f32⟩ : BufTy).Contents (Elt F) → (⟨S512x256, .f32⟩ : BufTy).Contents (Elt F) → (⟨S8192x256, .f32⟩ : BufTy).Contents (Elt F)),
    unary main_arg3 main_v1 ((extractStridedSlice S256x1 ![0, 0] · slices_S512x1_S256x1_0_0) : (⟨S512x1, .f32⟩ : BufTy).Contents (Elt F) → (⟨S256x1, .f32⟩ : BufTy).Contents (Elt F)),
    unary main_arg3 main_v2 ((extractStridedSlice S256x1 ![256, 0] · slices_S512x1_S256x1_256_0) : (⟨S512x1, .f32⟩ : BufTy).Contents (Elt F) → (⟨S256x1, .f32⟩ : BufTy).Contents (Elt F)),
    binary main_v0 main_v1 main_v3 ((fun l r => Host.dotGeneral dot_S8192x256_S256x1_S8192x1_1_0_0_1_n_n none l r) : (⟨S8192x256, .f32⟩ : BufTy).Contents (Elt F) → (⟨S256x1, .f32⟩ : BufTy).Contents (Elt F) → (⟨S8192x1, .f32⟩ : BufTy).Contents (Elt F)),
    binary main_v0 main_v2 main_v4 ((fun l r => Host.dotGeneral dot_S8192x256_S256x1_S8192x1_1_0_0_1_n_n none l r) : (⟨S8192x256, .f32⟩ : BufTy).Contents (Elt F) → (⟨S256x1, .f32⟩ : BufTy).Contents (Elt F) → (⟨S8192x1, .f32⟩ : BufTy).Contents (Elt F)),
    unary main_v4 main_v5 ((transpose S1x8192 [1, 0] · transposes_S8192x1_S1x8192_1_0) : (⟨S8192x1, .f32⟩ : BufTy).Contents (Elt F) → (⟨S1x8192, .f32⟩ : BufTy).Contents (Elt F)),
    unary main_v3 main_v6 (broadcastInDim S8192x8192 ![0, 1] bcast_S8192x1_S8192x8192_0_1 : (⟨S8192x1, .f32⟩ : BufTy).Contents (Elt F) → (⟨S8192x8192, .f32⟩ : BufTy).Contents (Elt F)),
    unary main_v5 main_v7 (broadcastInDim S8192x8192 ![0, 1] bcast_S1x8192_S8192x8192_0_1 : (⟨S1x8192, .f32⟩ : BufTy).Contents (Elt F) → (⟨S8192x8192, .f32⟩ : BufTy).Contents (Elt F)),
    binary main_v6 main_v7 main_v8 (addf : (⟨S8192x8192, .f32⟩ : BufTy).Contents (Elt F) → (⟨S8192x8192, .f32⟩ : BufTy).Contents (Elt F) → (⟨S8192x8192, .f32⟩ : BufTy).Contents (Elt F)),
    nullary main_cst (constant S_ .f32 0x3E4CCCCD#32),
    TRef.nullary main_call0.cst (constant S_ .f32 0x00000000#32),
    TRef.unary main_call0.cst main_call0.v0 (broadcastInDim S8192x8192 ![] bcast_S_S8192x8192),
    TRef.binary (.of main_v8) main_call0.v0 main_call0.v1 (cmpf .oge),
    TRef.unary (.of main_cst) main_call0.v2 id,
    TRef.unary main_call0.v2 main_call0.v3 (broadcastInDim S8192x8192 ![] bcast_S_S8192x8192),
    TRef.binary main_call0.v3 (.of main_v8) main_call0.v4 mulf,
    TRef.ternary main_call0.v1 (.of main_v8) main_call0.v4 main_call0.call0.v0 select,
    nullary main_cst_0 (constant S_ .f32 0x00000000#32),
    unary main_cst_0 main_v10 (broadcastInDim S8192x8192 ![] bcast_S_S8192x8192 : (⟨S_, .f32⟩ : BufTy).Contents (Elt F) → (⟨S8192x8192, .f32⟩ : BufTy).Contents (Elt F)),
    binary main_arg1 main_v10 main_v11 (cmpf .oeq : (⟨S8192x8192, .f32⟩ : BufTy).Contents (Elt F) → (⟨S8192x8192, .f32⟩ : BufTy).Contents (Elt F) → (⟨S8192x8192, .i1⟩ : BufTy).Contents (Elt F)),
    nullary main_cst_1 (constant S_ .f32 0xD9FFCB9E#32),
    TRef.unary (.of main_cst_1) main_call1.v0 id,
    TRef.unary main_call1.v0 main_call1.v1 (broadcastInDim S8192x8192 ![] bcast_S_S8192x8192),
    TRef.ternary (.of main_v11) main_call1.v1 (.of main_v9) main_call1.v2 select,
    nullary main_cst_2 (constant S_ .f32 0xFF800000#32),
    binary main_v12 main_cst_2 main_v13 ((fun x v => Host.reduce FloatOps.maximumf x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    nullary main_cst_3 (constant S_ .f32 0xFF800000#32),
    unary main_cst_3 main_v14 (broadcastInDim S8192 ![] bcast_S_S8192 : (⟨S_, .f32⟩ : BufTy).Contents (Elt F) → (⟨S8192, .f32⟩ : BufTy).Contents (Elt F)),
    binary main_v14 main_v13 main_v15 (maximumf : (⟨S8192, .f32⟩ : BufTy).Contents (Elt F) → (⟨S8192, .f32⟩ : BufTy).Contents (Elt F) → (⟨S8192, .f32⟩ : BufTy).Contents (Elt F)),
    unary main_v15 main_v16 (broadcastInDim S8192x1 ![0] bcast_S8192_S8192x1_0 : (⟨S8192, .f32⟩ : BufTy).Contents (Elt F) → (⟨S8192x1, .f32⟩ : BufTy).Contents (Elt F)),
    unary main_v16 main_v17 (broadcastInDim S8192x8192 ![0, 1] bcast_S8192x1_S8192x8192_0_1 : (⟨S8192x1, .f32⟩ : BufTy).Contents (Elt F) → (⟨S8192x8192, .f32⟩ : BufTy).Contents (Elt F)),
    binary main_v12 main_v17 main_v18 (subf : (⟨S8192x8192, .f32⟩ : BufTy).Contents (Elt F) → (⟨S8192x8192, .f32⟩ : BufTy).Contents (Elt F) → (⟨S8192x8192, .f32⟩ : BufTy).Contents (Elt F)),
    unary main_v18 main_v19 (Host.exp : (⟨S8192x8192, .f32⟩ : BufTy).Contents (Elt F) → (⟨S8192x8192, .f32⟩ : BufTy).Contents (Elt F)),
    nullary main_cst_4 (constant S_ .f32 0x00000000#32),
    binary main_v19 main_cst_4 main_v20 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    unary main_v20 main_v21 (broadcastInDim S8192x1 ![0] bcast_S8192_S8192x1_0 : (⟨S8192, .f32⟩ : BufTy).Contents (Elt F) → (⟨S8192x1, .f32⟩ : BufTy).Contents (Elt F)),
    unary main_v21 main_v22 (broadcastInDim S8192x8192 ![0, 1] bcast_S8192x1_S8192x8192_0_1 : (⟨S8192x1, .f32⟩ : BufTy).Contents (Elt F) → (⟨S8192x8192, .f32⟩ : BufTy).Contents (Elt F)),
    binary main_v19 main_v22 main_v23 (Host.divf : (⟨S8192x8192, .f32⟩ : BufTy).Contents (Elt F) → (⟨S8192x8192, .f32⟩ : BufTy).Contents (Elt F) → (⟨S8192x8192, .f32⟩ : BufTy).Contents (Elt F)),
    binary main_v23 main_v0 main_v24 ((fun l r => Host.dotGeneral dot_S8192x8192_S8192x256_S8192x256_1_0_0_1_n_n none l r) : (⟨S8192x8192, .f32⟩ : BufTy).Contents (Elt F) → (⟨S8192x256, .f32⟩ : BufTy).Contents (Elt F) → (⟨S8192x256, .f32⟩ : BufTy).Contents (Elt F)),
    TRef.nullary main_call2.cst (constant S_ .f32 0x00000000#32),
    TRef.unary main_call2.cst main_call2.v0 (broadcastInDim S8192x256 ![] bcast_S_S8192x256),
    TRef.binary (.of main_v24) main_call2.v0 main_call2.v1 (cmpf .ogt),
    TRef.nullary main_call2.cst_0 (constant S_ .f32 0x00000000#32),
    TRef.unary main_call2.cst_0 main_call2.v2 (broadcastInDim S8192x256 ![] bcast_S_S8192x256),
    TRef.binary (.of main_v24) main_call2.v2 main_call2.v3 (cmpf .ogt),
    TRef.nullary main_call2.cst_1 (constant S_ .f32 0x00000000#32),
    TRef.unary main_call2.cst_1 main_call2.call0.v0 id,
    TRef.unary main_call2.call0.v0 main_call2.call0.v1 (broadcastInDim S8192x256 ![] bcast_S_S8192x256),
    TRef.ternary main_call2.v3 main_call2.call0.v1 (.of main_v24) main_call2.call0.v2 select,
    TRef.unary main_call2.call0.v2 main_call2.v5 Host.expm1,
    TRef.nullary main_call2.cst_2 (constant S_ .f32 0x3F800000#32),
    TRef.unary main_call2.cst_2 main_call2.v6 (broadcastInDim S8192x256 ![] bcast_S_S8192x256),
    TRef.binary main_call2.v6 main_call2.v5 main_call2.v7 mulf,
    TRef.ternary main_call2.v1 (.of main_v24) main_call2.v7 main_call2.call1.v0 select ]

-- fifty-four binds re-associated: the rewrite under the chain recurses once per statement
set_option maxRecDepth 4096 in
/-- The entry function is that straight line: the local functions unfolded at their calls, sequencing re-associated. -/
theorem main_eq (c : Dev nD) : main (F := F) c = seq ops := by
  simp only [main, fn_leaky_relu.body, fn_where.body, fn_where_0.body, fn_elu.body, fn_where_1.body, fn_where_2.body,
    seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., unary_bufs_sub .., unary_bufs_sub .., binary_bufs_sub .., binary_bufs_sub .., unary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., nullary_bufs_sub .., unary_bufs_sub .., binary_bufs_sub .., nullary_bufs_sub .., unary_bufs_sub .., unary_bufs_sub .., ternary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩

/-- From any memory with zero counters every weakly fair execution of the entry function terminates, and every final state
    has each buffer at the fold of the operations over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## The value each buffer ends at, as a term of the four argument arrays

The fold of the operations read back at the result buffer, cut into named stages: h, the two halves of a, the two score
columns, the sum over all pairs, the leaky rectifier, the masked logits, the row maximum, the exponentials, the row
sums, the weights, the weighted sum and its elu. -/

section Terms

variable (x : FVec F S8192x512 .f32) (adj : FVec F S8192x8192 .f32) (W : FVec F S512x256 .f32) (a : FVec F S512x1 .f32)

/-- h = x · W. -/
def tH : FVec F S8192x256 .f32 := Host.dotGeneral dot_S8192x512_S512x256_S8192x256_1_0_0_1_n_n none x W
/-- The first and the second 256 entries of a. -/
def tA1 : FVec F S256x1 .f32 := extractStridedSlice S256x1 ![0, 0] a slices_S512x1_S256x1_0_0
def tA2 : FVec F S256x1 .f32 := extractStridedSlice S256x1 ![256, 0] a slices_S512x1_S256x1_256_0
/-- The left and the right score columns: h against each half. -/
def tL : FVec F S8192x1 .f32 := Host.dotGeneral dot_S8192x256_S256x1_S8192x1_1_0_0_1_n_n none (tH x W) (tA1 a)
def tR : FVec F S8192x1 .f32 := Host.dotGeneral dot_S8192x256_S256x1_S8192x1_1_0_0_1_n_n none (tH x W) (tA2 a)
/-- Left score of the row plus right score of the column, over all pairs. -/
def tE : FVec F S8192x8192 .f32 :=
  addf (broadcastInDim S8192x8192 ![0, 1] bcast_S8192x1_S8192x8192_0_1 (tL x W a))
    (broadcastInDim S8192x8192 ![0, 1] bcast_S1x8192_S8192x8192_0_1 (transpose S1x8192 [1, 0] (tR x W a) transposes_S8192x1_S1x8192_1_0))
/-- The leaky rectifier: e where e ≥ 0, else slope · e. -/
def tLr : FVec F S8192x8192 .f32 :=
  select (cmpf .oge (tE x W a) (broadcastInDim S8192x8192 ![] bcast_S_S8192x8192 (constant S_ .f32 0x00000000#32))) (tE x W a) (mulf (broadcastInDim S8192x8192 ![] bcast_S_S8192x8192 (constant S_ .f32 0x3E4CCCCD#32)) (tE x W a))
/-- The masked logits: the stand-in where adj is zero. -/
def tS : FVec F S8192x8192 .f32 :=
  select (cmpf .oeq adj (broadcastInDim S8192x8192 ![] bcast_S_S8192x8192 (constant S_ .f32 0x00000000#32))) (broadcastInDim S8192x8192 ![] bcast_S_S8192x8192 (constant S_ .f32 0xD9FFCB9E#32)) (tLr x W a)
/-- The row maximum, once more against −∞. -/
def tM : FVec F S8192 .f32 :=
  maximumf (broadcastInDim S8192 ![] bcast_S_S8192 (constant S_ .f32 0xFF800000#32))
    (Host.reduce FloatOps.maximumf (tS x adj W a) (constant S_ .f32 0xFF800000#32) reducesTo_S8192x8192_S8192_d1 h_S_)
/-- The exponentials of the logits less their row maximum. -/
def tP : FVec F S8192x8192 .f32 := Host.exp (subf (tS x adj W a) (broadcastInDim S8192x8192 ![0, 1] bcast_S8192x1_S8192x8192_0_1 (broadcastInDim S8192x1 ![0] bcast_S8192_S8192x1_0 (tM x adj W a))))
/-- Their row sums, from zero. -/
def tD : FVec F S8192 .f32 := Host.reduceAdd (tP x adj W a) (constant S_ .f32 0x00000000#32) reducesTo_S8192x8192_S8192_d1 h_S_
/-- The softmax weights. -/
def tWt : FVec F S8192x8192 .f32 := Host.divf (tP x adj W a) (broadcastInDim S8192x8192 ![0, 1] bcast_S8192x1_S8192x8192_0_1 (broadcastInDim S8192x1 ![0] bcast_S8192_S8192x1_0 (tD x adj W a)))
/-- The weighted sum of the rows of h. -/
def tAgg : FVec F S8192x256 .f32 := Host.dotGeneral dot_S8192x8192_S8192x256_S8192x256_1_0_0_1_n_n none (tWt x adj W a) (tH x W)
/-- Its elu: y where y > 0, else 1 · expm1 (y where y ≤ 0, else 0). -/
def tOut : FVec F S8192x256 .f32 :=
  select (cmpf .ogt (tAgg x adj W a) (broadcastInDim S8192x256 ![] bcast_S_S8192x256 (constant S_ .f32 0x00000000#32))) (tAgg x adj W a)
    (mulf (broadcastInDim S8192x256 ![] bcast_S_S8192x256 (constant S_ .f32 0x3F800000#32))
      (Host.expm1 (select (cmpf .ogt (tAgg x adj W a) (broadcastInDim S8192x256 ![] bcast_S_S8192x256 (constant S_ .f32 0x00000000#32))) (broadcastInDim S8192x256 ![] bcast_S_S8192x256 (constant S_ .f32 0x00000000#32)) (tAgg x adj W a))))

end Terms

/-- The result buffer ends at that term of the four argument buffers' launch contents. -/
theorem out_eq (V : Valuation τ sig (Elt F)) :
    after ops V (main_v25 : DevRef τ sig)
      = tOut (V (main_arg0 : DevRef τ sig)) (V (main_arg1 : DevRef τ sig)) (V (main_arg2 : DevRef τ sig)) (V (main_arg3 : DevRef τ sig)) := by
  after_results_simp
  rfl

/-- No operation writes an argument buffer. -/
theorem arg0_eq (V : Valuation τ sig (Elt F)) : after ops V (main_arg0 : DevRef τ sig) = V (main_arg0 : DevRef τ sig) := by
  after_results_simp
theorem arg1_eq (V : Valuation τ sig (Elt F)) : after ops V (main_arg1 : DevRef τ sig) = V (main_arg1 : DevRef τ sig) := by
  after_results_simp
theorem arg2_eq (V : Valuation τ sig (Elt F)) : after ops V (main_arg2 : DevRef τ sig) = V (main_arg2 : DevRef τ sig) := by
  after_results_simp
theorem arg3_eq (V : Valuation τ sig (Elt F)) : after ops V (main_arg3 : DevRef τ sig) = V (main_arg3 : DevRef τ sig) := by
  after_results_simp

/-- Every weakly fair execution of the entry function terminates with the result buffer at the composed term of the
    arguments' launch contents and the four arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v25)
          = tOut (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v25).trans (out_eq _), (h c main_arg0).trans (arg0_eq _),
      (h c main_arg1).trans (arg1_eq _), (h c main_arg2).trans (arg2_eq _), (h c main_arg3).trans (arg3_eq _)⟩)
    (run_main m ρ)

end Cert.ReferenceIdeal.Hand

end
-- ==== Proof.RefVal.lean ====
/-
  The reference's result read index by index. Each stage of the composed term of the run is read at a row (and a column)
  and is the corresponding function of the specification: the products are sums over the one contracted coordinate, the
  slices, the transpose and the broadcasts move coordinates, the pointwise operations act on the elements, the maximum
  reduce is a fold of max from −∞ and the add reduce is a sum from zero.
-/
import proofs.«125599_j41618233098759_2_alg».proof.Proof.RefRun
import proofs.«125599_j41618233098759_2_alg».proof.Proof.SpecArr
import proofs.«125599_j41618233098759_2_alg».proof.Proof.LibColumn
import Idealize.ShloMosaic.Lib.StackMember
import Idealize.ShloMosaic.Lib.IdealHost
import Idealize.ShloMosaic.Lib.KernelVsHost
import Idealize.ShloMosaic.Lib.ValueLayout

noncomputable section

namespace Cert.ReferenceIdeal.Hand

open Cert.ReferenceIdeal Cert.ReferenceIdeal.Gen Idealize.ShloMosaic Idealize.ShloMosaic.TcCoe Idealize.SL.Sem
open Idealize.ShloMosaic.ValueIdx Idealize.ShloMosaic.StackMember Cert.Spec Cert.Lib

/-! ## Layout readings -/

/-- A column `[a, 1]` broadcast along the rows of `[a, b]` reads, at `(p, c)`, the column at row `p`. -/
theorem bcastCol_apply {α : Type} {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[a]` broadcast to the column `[a, 1]` reads, at `(p, u)`, the vector at `p`. -/
theorem bcastVecCol_apply {α : Type} {a : ℕ} (v : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h v (ix2 p u) = v (ix1 p) := by
  refine broadcastInDim_apply ![0] h v (ix2 p u) (ix1 p) fun ax => ?_
  match ax with
  | ⟨0, _⟩ =>
    show p.val = if a = 1 then 0 else p.val
    split
    · have := p.isLt; omega
    · rfl

/-- The host's add reduce over the columns, at row `r`: the initial value plus the sum over that row. -/
theorem hostReduceAdd_row {n m : ℕ} (z : FVec Ideal ⟨2, ![n, m]⟩ .f32) (init : (⟨0, ![]⟩ : Shape).Idx → EReal)
    (h' : (⟨2, ![n, m]⟩ : Shape).ReducesTo [1] (⟨1, ![n]⟩ : Shape)) (h : (⟨2, ![n, m]⟩ : Shape).Reduces [1] (⟨1, ![n]⟩ : Shape))
    (hu : 0 < (⟨0, ![]⟩ : Shape).numel) (r : Fin n) :
    Host.reduceAdd z init h' hu (ix1 r) = init ix0 + ∑ j : Fin m, z (ix2 r j) := by
  refine (hostReduceAdd_apply z init h' hu (ix1 r)).trans ?_
  refine (Ideal.hostReduceAdd_single h' h z (init (Shape.Idx.first hu)) (ix1 r)).trans ?_
  have hi : init (Shape.Idx.first hu) = init ix0 := congrArg init (eq_ix0 _)
  rw [hi]
  exact congrArg (init ix0 + ·) (Finset.sum_congr rfl fun k _ => congrArg z (lift_row h r k))

/-! ## The stages -/

section Stages

variable (x : (⟨2, ![8192, 512]⟩ : Shape).Idx → EReal) (adj : (⟨2, ![8192, 8192]⟩ : Shape).Idx → EReal)
  (W : (⟨2, ![512, 256]⟩ : Shape).Idx → EReal) (a : (⟨2, ![512, 1]⟩ : Shape).Idx → EReal)

/-- h at (i, c): the sum over the 512 features. -/
theorem tH_apply (i : Fin 8192) (c : Fin 256) : tH (F := Ideal) x W (ix2 i c) = hm (arr2 x) (arr2 W) i c :=
  dotGeneral_plain_apply none x W i c

/-- The two halves of a at row c. -/
theorem tA1_apply (c : Fin 256) : tA1 (F := Ideal) a (ix2 c (0 : Fin 1)) = colv a ⟨c.val, by omega⟩ :=
  slice2_axis0_apply 0 a slices_S512x1_S256x1_0_0 c (0 : Fin 1) ⟨c.val, by omega⟩ (Nat.zero_add _).symm
theorem tA2_apply (c : Fin 256) : tA2 (F := Ideal) a (ix2 c (0 : Fin 1)) = colv a ⟨256 + c.val, by omega⟩ :=
  slice2_axis0_apply 256 a slices_S512x1_S256x1_256_0 c (0 : Fin 1) ⟨256 + c.val, by omega⟩ rfl

/-- The two score columns at row i. -/
theorem tL_apply (i : Fin 8192) : tL (F := Ideal) x W a (ix2 i (0 : Fin 1)) = attL (arr2 x) (arr2 W) (colv a) i := by
  refine (dotGeneral_plain_apply none (tH (F := Ideal) x W) (tA1 (F := Ideal) a) i (0 : Fin 1)).trans ?_
  exact Finset.sum_congr rfl fun c _ => congrArg₂ (· * ·) (tH_apply x W i c) (tA1_apply a c)
theorem tR_apply (j : Fin 8192) : tR (F := Ideal) x W a (ix2 j (0 : Fin 1)) = attR (arr2 x) (arr2 W) (colv a) j := by
  refine (dotGeneral_plain_apply none (tH (F := Ideal) x W) (tA2 (F := Ideal) a) j (0 : Fin 1)).trans ?_
  exact Finset.sum_congr rfl fun c _ => congrArg₂ (· * ·) (tH_apply x W j c) (tA2_apply a c)

/-- The pair sum at (i, j): the left score of the row plus the right score of the column. -/
theorem tE_apply (i j : Fin 8192) : tE (F := Ideal) x W a (ix2 i j) = attL (arr2 x) (arr2 W) (colv a) i + attR (arr2 x) (arr2 W) (colv a) j := by
  have h1 := bcastCol_apply (tL (F := Ideal) x W a) bcast_S8192x1_S8192x8192_0_1 i j
  have h2 := broadcastInDim_oneRow_apply bcast_S1x8192_S8192x8192_0_1
    (transpose S1x8192 [1, 0] (tR (F := Ideal) x W a) transposes_S8192x1_S1x8192_1_0) i j
  have h3 := transpose_ix2_apply (tR (F := Ideal) x W a) transposes_S8192x1_S1x8192_1_0 (0 : Fin 1) j
  exact congrArg₂ (· + ·) (h1.trans (tL_apply x W a i)) (h2.trans (h3.trans (tR_apply x W a j)))

/-- The leaky rectifier of the pair sum. -/
theorem tLr_apply (i j : Fin 8192) : tLr (F := Ideal) x W a (ix2 i j) = lrelu (attL (arr2 x) (arr2 W) (colv a) i + attR (arr2 x) (arr2 W) (colv a) j) := by
  have h : tLr (F := Ideal) x W a (ix2 i j) = lrelu (tE (F := Ideal) x W a (ix2 i j)) := rfl
  rw [h, tE_apply]

/-- The masked logit. -/
theorem tS_apply (i j : Fin 8192) : tS (F := Ideal) x adj W a (ix2 i j) = score (arr2 x) (arr2 adj) (arr2 W) (colv a) i j := by
  have h : tS (F := Ideal) x adj W a (ix2 i j)
      = Scalar.select (FloatOps.cmpf (F := Ideal) (φ := .f32) .oeq (adj (ix2 i j)) ZERO) NEG (tLr (F := Ideal) x W a (ix2 i j)) := rfl
  rw [h, tLr_apply]
  rfl

/-- The row maximum: the fold of max from −∞ over the row, and once more against −∞. -/
theorem tM_apply (i : Fin 8192) : tM (F := Ideal) x adj W a (ix1 i) = refMax (arr2 x) (arr2 adj) (arr2 W) (colv a) i := by
  have hr := hostReduce_max_row (tS (F := Ideal) x adj W a) (constant (F := Ideal) S_ .f32 0xFF800000#32)
    reducesTo_S8192x8192_S8192_d1 (by decide) h_S_ i
  have hf : (fun j : Fin 8192 => tS (F := Ideal) x adj W a (ix2 i j)) = fun j => score (arr2 x) (arr2 adj) (arr2 W) (colv a) i j :=
    funext fun j => tS_apply x adj W a i j
  unfold tM
  rw [maximumf_apply, hr, hf]
  rfl

/-- The exponential of the logit less its row maximum. -/
theorem tP_apply (i j : Fin 8192) : tP (F := Ideal) x adj W a (ix2 i j) = refP (arr2 x) (arr2 adj) (arr2 W) (colv a) i j := by
  have h1 := bcastCol_apply (broadcastInDim S8192x1 ![0] bcast_S8192_S8192x1_0 (tM (F := Ideal) x adj W a))
    bcast_S8192x1_S8192x8192_0_1 i j
  have h2 := bcastVecCol_apply (tM (F := Ideal) x adj W a) bcast_S8192_S8192x1_0 i (0 : Fin 1)
  have h : tP (F := Ideal) x adj W a (ix2 i j)
      = Ideal.exp (tS (F := Ideal) x adj W a (ix2 i j)
          - broadcastInDim S8192x8192 ![0, 1] bcast_S8192x1_S8192x8192_0_1
              (broadcastInDim S8192x1 ![0] bcast_S8192_S8192x1_0 (tM (F := Ideal) x adj W a)) (ix2 i j)) := rfl
  rw [h, h1, h2, tS_apply, tM_apply]
  rfl

/-- The row sum of the exponentials. -/
theorem tD_apply (i : Fin 8192) : tD (F := Ideal) x adj W a (ix1 i) = refDen (arr2 x) (arr2 adj) (arr2 W) (colv a) i := by
  refine (hostReduceAdd_row (tP (F := Ideal) x adj W a) (constant (F := Ideal) S_ .f32 0x00000000#32)
    reducesTo_S8192x8192_S8192_d1 (by decide) h_S_ i).trans ?_
  have h0 : constant (F := Ideal) S_ .f32 0x00000000#32 ix0 = 0 := Ideal.ofBits_zero_f32
  rw [h0, zero_add]
  exact Finset.sum_congr rfl fun j _ => tP_apply x adj W a i j

/-- The softmax weight. -/
theorem tWt_apply (i j : Fin 8192) :
    tWt (F := Ideal) x adj W a (ix2 i j) = Ideal.div (refP (arr2 x) (arr2 adj) (arr2 W) (colv a) i j) (refDen (arr2 x) (arr2 adj) (arr2 W) (colv a) i) := by
  have h1 := bcastCol_apply (broadcastInDim S8192x1 ![0] bcast_S8192_S8192x1_0 (tD (F := Ideal) x adj W a))
    bcast_S8192x1_S8192x8192_0_1 i j
  have h2 := bcastVecCol_apply (tD (F := Ideal) x adj W a) bcast_S8192_S8192x1_0 i (0 : Fin 1)
  have h : tWt (F := Ideal) x adj W a (ix2 i j)
      = Ideal.div (tP (F := Ideal) x adj W a (ix2 i j))
          (broadcastInDim S8192x8192 ![0, 1] bcast_S8192x1_S8192x8192_0_1
              (broadcastInDim S8192x1 ![0] bcast_S8192_S8192x1_0 (tD (F := Ideal) x adj W a)) (ix2 i j)) := rfl
  rw [h, h1, h2, tP_apply, tD_apply]

/-- The weighted sum of the rows of h. -/
theorem tAgg_apply (i : Fin 8192) (c : Fin 256) : tAgg (F := Ideal) x adj W a (ix2 i c) = refAgg (arr2 x) (arr2 adj) (arr2 W) (colv a) i c := by
  refine (dotGeneral_plain_apply none (tWt (F := Ideal) x adj W a) (tH (F := Ideal) x W) i c).trans ?_
  exact Finset.sum_congr rfl fun j _ => congrArg₂ (· * ·) (tWt_apply x adj W a i j) (tH_apply x W j c)

/-- Its elu. -/
theorem tOut_apply (i : Fin 8192) (c : Fin 256) : tOut (F := Ideal) x adj W a (ix2 i c) = refOut (arr2 x) (arr2 adj) (arr2 W) (colv a) i c := by
  have h : tOut (F := Ideal) x adj W a (ix2 i c) = eluRef (tAgg (F := Ideal) x adj W a (ix2 i c)) := rfl
  rw [h, tAgg_apply]
  rfl

/-- The composed term of the run is the specification's result array. -/
theorem tOut_eq : tOut (F := Ideal) x adj W a = refArr x adj W a := by
  funext j
  obtain ⟨i, c, rfl⟩ : ∃ (i : Fin 8192) (c : Fin 256), j = ix2 i c := ⟨j 0, j 1, eq_ix2 j⟩
  rw [refArr_ix2]
  exact tOut_apply x adj W a i c

end Stages

/-! ## The run at the specification -/

/-- Every weakly fair execution of the reference terminates with its result buffer at the specification's result array of
    the four argument arrays, and the arguments unchanged. -/
theorem run_value (m' : (ℓ : Loc Cert.ReferenceIdeal.nD Cert.ReferenceIdeal.τ Cert.ReferenceIdeal.sig) → Buf (Elt Ideal) ℓ) (g' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
      r.2.mem ((c.tc : Thread Cert.ReferenceIdeal.nD Cert.ReferenceIdeal.τ).loc Cert.ReferenceIdeal.main_v25)
          = Cert.Spec.refArr (m' ((c.tc : Thread _ _).loc Cert.ReferenceIdeal.main_arg0)) (m' ((c.tc : Thread _ _).loc Cert.ReferenceIdeal.main_arg1)) (m' ((c.tc : Thread _ _).loc Cert.ReferenceIdeal.main_arg2)) (m' ((c.tc : Thread _ _).loc Cert.ReferenceIdeal.main_arg3))
      ∧ r.2.mem ((c.tc : Thread _ _).loc Cert.ReferenceIdeal.main_arg0) = m' ((c.tc : Thread _ _).loc Cert.ReferenceIdeal.main_arg0)
      ∧ r.2.mem ((c.tc : Thread _ _).loc Cert.ReferenceIdeal.main_arg1) = m' ((c.tc : Thread _ _).loc Cert.ReferenceIdeal.main_arg1)
      ∧ r.2.mem ((c.tc : Thread _ _).loc Cert.ReferenceIdeal.main_arg2) = m' ((c.tc : Thread _ _).loc Cert.ReferenceIdeal.main_arg2)
      ∧ r.2.mem ((c.tc : Thread _ _).loc Cert.ReferenceIdeal.main_arg3) = m' ((c.tc : Thread _ _).loc Cert.ReferenceIdeal.main_arg3)) :=
  (θ_run _ _ _).mono (fun _ h c => ⟨((h c).1).trans (tOut_eq _ _ _ _), (h c).2⟩) (run (F := Ideal) m' g')

end Cert.ReferenceIdeal.Hand

end
-- ==== Proof.LibOnlineSoftmax.lean ====
/-
  Online softmax over the reals (Mathlib only).

  A softmax-weighted sum  ∑ₖ (exp (sₖ - M) / ∑ⱼ exp (sⱼ - M)) · vₖ  can be accumulated tile by tile, keeping a
  reference point μ, a denominator l and a numerator acc: on a new tile T with a new reference point μ',

      l'   = exp (μ - μ') · l   + ∑_{k ∈ T} exp (sₖ - μ')
      acc' = exp (μ - μ') · acc + ∑_{k ∈ T} exp (sₖ - μ') · vₖ ,

  the first tile entered with coefficient 0 (the reference point starts at -∞). The invariant is that after the
  tiles covering a set S, l and acc are the sums over S of exp (sₖ - μ) and exp (sₖ - μ) · vₖ. It holds for ANY
  reference points — that μ is the running maximum only matters for rounding — because moving the reference point
  from μ to μ' multiplies every term by exp (μ - μ'). At the end acc / l is the softmax-weighted sum, whatever
  point M the softmax itself is taken relative to.
-/
import Mathlib.Analysis.SpecialFunctions.Exp
import Mathlib.Algebra.BigOperators.Field
import Mathlib.Algebra.Order.BigOperators.Ring.Finset

namespace OnlineSoftmax

open Finset

variable {K : Type*} [DecidableEq K]

/-- The denominator over the keys of `S`, relative to the reference point `μ`. -/
noncomputable def den (s : K → ℝ) (S : Finset K) (μ : ℝ) : ℝ := ∑ k ∈ S, Real.exp (s k - μ)

/-- The numerator over the keys of `S`, relative to the reference point `μ`. -/
noncomputable def num (s v : K → ℝ) (S : Finset K) (μ : ℝ) : ℝ := ∑ k ∈ S, Real.exp (s k - μ) * v k

/-- Moving the reference point from `μ` to `μ'` multiplies a weighted sum of exponentials by `exp (μ - μ')`. -/
theorem rescale (s w : K → ℝ) (S : Finset K) (μ μ' : ℝ) :
    Real.exp (μ - μ') * ∑ k ∈ S, Real.exp (s k - μ) * w k = ∑ k ∈ S, Real.exp (s k - μ') * w k := by
  rw [Finset.mul_sum]
  refine Finset.sum_congr rfl fun k _ => ?_
  rw [← mul_assoc, ← Real.exp_add]
  congr 2
  ring

theorem den_rescale (s : K → ℝ) (S : Finset K) (μ μ' : ℝ) : Real.exp (μ - μ') * den s S μ = den s S μ' := by
  have h := rescale s (fun _ => (1 : ℝ)) S μ μ'
  simpa only [den, mul_one] using h

theorem num_rescale (s v : K → ℝ) (S : Finset K) (μ μ' : ℝ) : Real.exp (μ - μ') * num s v S μ = num s v S μ' :=
  rescale s v S μ μ'

/-- One step on the denominator: the keys of a new tile `T`, disjoint from those seen, at a new reference point. -/
theorem den_step (s : K → ℝ) {S T : Finset K} (h : Disjoint S T) (μ μ' : ℝ) :
    Real.exp (μ - μ') * den s S μ + den s T μ' = den s (S ∪ T) μ' := by
  rw [den_rescale]; unfold den; rw [Finset.sum_union h]

/-- One step on the numerator. -/
theorem num_step (s v : K → ℝ) {S T : Finset K} (h : Disjoint S T) (μ μ' : ℝ) :
    Real.exp (μ - μ') * num s v S μ + num s v T μ' = num s v (S ∪ T) μ' := by
  rw [num_rescale]; unfold num; rw [Finset.sum_union h]

/-- The denominator over a nonempty set is positive. -/
theorem den_pos (s : K → ℝ) {S : Finset K} (hS : S.Nonempty) (μ : ℝ) : 0 < den s S μ :=
  Finset.sum_pos (fun _ _ => Real.exp_pos _) hS

/-- The ratio does not depend on the reference point, and is the softmax-weighted sum relative to any `M`. -/
theorem num_div_den (s v : K → ℝ) {S : Finset K} (hS : S.Nonempty) (μ M : ℝ) :
    num s v S μ / den s S μ = ∑ k ∈ S, Real.exp (s k - M) / (∑ j ∈ S, Real.exp (s j - M)) * v k := by
  have he : Real.exp (μ - M) ≠ 0 := (Real.exp_pos _).ne'
  have h1 : num s v S μ / den s S μ = num s v S M / den s S M := by
    rw [← num_rescale s v S μ M, ← den_rescale s S μ M, mul_div_mul_left _ _ he]
  rw [h1]; unfold num; rw [Finset.sum_div]
  refine Finset.sum_congr rfl fun k _ => ?_
  unfold den; ring

/-! ## The whole run, tile by tile -/

/-- The keys of the first `j` tiles. -/
def seen (tile : ℕ → Finset K) (j : ℕ) : Finset K := (Finset.range j).biUnion tile

theorem seen_succ (tile : ℕ → Finset K) (j : ℕ) : seen tile (j + 1) = seen tile j ∪ tile j := by
  unfold seen; rw [Finset.range_add_one, Finset.biUnion_insert, Finset.union_comm]

theorem seen_disjoint (tile : ℕ → Finset K) (hd : ∀ i j, i ≠ j → Disjoint (tile i) (tile j)) (j : ℕ) :
    Disjoint (seen tile j) (tile j) := by
  unfold seen; rw [Finset.disjoint_biUnion_left]
  intro i hi; exact hd i j (Finset.mem_range.mp hi).ne

/-- THE RUN. Tiles pairwise disjoint; reference points `μ j` used on tile `j` (any reals); the first tile entered
    with coefficient `0`, every later tile `j` with `exp (μ (j-1) - μ j)`. After `j + 1` tiles the two accumulators are
    the sums over the keys seen, relative to `μ j`. -/
theorem run (s v : K → ℝ) (tile : ℕ → Finset K) (hd : ∀ i j, i ≠ j → Disjoint (tile i) (tile j)) (μ a l acc : ℕ → ℝ)
    (ha0 : a 0 = 0) (ha : ∀ j, a (j + 1) = Real.exp (μ j - μ (j + 1)))
    (hl : ∀ j, l (j + 1) = a j * l j + den s (tile j) (μ j))
    (hacc : ∀ j, acc (j + 1) = a j * acc j + num s v (tile j) (μ j)) (j : ℕ) :
    l (j + 1) = den s (seen tile (j + 1)) (μ j) ∧ acc (j + 1) = num s v (seen tile (j + 1)) (μ j) := by
  induction j with
  | zero =>
    have hs : seen tile 1 = tile 0 := by
      have h := seen_succ tile 0
      unfold seen at h ⊢
      rw [Finset.range_zero, Finset.biUnion_empty, Finset.empty_union] at h
      exact h
    have hl0 : l 1 = a 0 * l 0 + den s (tile 0) (μ 0) := hl 0
    have hacc0 : acc 1 = a 0 * acc 0 + num s v (tile 0) (μ 0) := hacc 0
    show l 1 = den s (seen tile 1) (μ 0) ∧ acc 1 = num s v (seen tile 1) (μ 0)
    rw [hl0, hacc0, ha0, hs, zero_mul, zero_mul, zero_add, zero_add]
    exact ⟨rfl, rfl⟩
  | succ j ih =>
    rw [hl (j + 1), hacc (j + 1), ha j, ih.1, ih.2, seen_succ tile (j + 1),
      den_step s (seen_disjoint tile hd (j + 1)), num_step s v (seen_disjoint tile hd (j + 1))]
    exact ⟨rfl, rfl⟩

/-- THE RESULT. If the first `n + 1` tiles cover a nonempty key set `S`, the final ratio is the softmax-weighted sum
    over `S`, the softmax taken relative to any point `M` (the maximum, in practice). -/
theorem run_result (s v : K → ℝ) (tile : ℕ → Finset K) (hd : ∀ i j, i ≠ j → Disjoint (tile i) (tile j)) (μ a l acc : ℕ → ℝ)
    (ha0 : a 0 = 0) (ha : ∀ j, a (j + 1) = Real.exp (μ j - μ (j + 1)))
    (hl : ∀ j, l (j + 1) = a j * l j + den s (tile j) (μ j))
    (hacc : ∀ j, acc (j + 1) = a j * acc j + num s v (tile j) (μ j))
    (n : ℕ) {S : Finset K} (hS : S.Nonempty) (hcover : seen tile (n + 1) = S) (M : ℝ) :
    acc (n + 1) / l (n + 1) = ∑ k ∈ S, Real.exp (s k - M) / (∑ j ∈ S, Real.exp (s j - M)) * v k := by
  obtain ⟨h1, h2⟩ := run s v tile hd μ a l acc ha0 ha hl hacc n
  rw [h1, h2, hcover]
  exact num_div_den s v hS (μ n) M

end OnlineSoftmax
-- ==== Proof.LibSoftmaxReal.lean ====
/-
  Softmax over the extended reals, on real logits: general facts (Mathlib and the exact float operations only).

  * the f32 patterns of `1.0` and of `−∞` denote `1` and `⊥`;
  * a finite sum of reals is real; `tanh` of any extended real is real;
  * the fold of `max` from a start value below `⊤` over a nonempty finite family of reals is real;
  * for real logits `z` and a real shift `M`, `Σ exp (z i − M)` over a nonempty finite set is positive;
  * `a · (1 / w) = a / w` whenever `w ≠ 0` (at `w = 0` the two differ: `1 / 0 = ⊤`, `0 · ⊤ = 0`, `0 / 0 = ⊥`);
  * hence the softmax written as a product with the reciprocal of the sum equals the softmax written as a quotient.
-/
import Idealize.ShloMosaic.PureOps.Ideal
import Idealize.ShloMosaic.PureOps.IdealRules

noncomputable section

namespace Cert.Lib.SoftmaxReal

open Idealize.ShloMosaic

/-- The f32 pattern of `1.0` denotes the real `1`. -/
theorem ofBits_one_f32 : Ideal.ofBits .f32 0x3F800000#32 = (1 : EReal) := IdealRules.sign_bit.ideal_onePat .f32

/-- The f32 pattern of `−∞` denotes the bottom of the extended reals. -/
theorem ofBits_negInf_f32 : Ideal.ofBits .f32 0xFF800000#32 = (⊥ : EReal) := by simp [Ideal.ofBits, Ideal.ieee]

/-- A finite sum of real numbers is a real number. -/
theorem exists_real_sum {ι : Type} (S : Finset ι) (f : ι → EReal) (h : ∀ i ∈ S, ∃ r : ℝ, f i = (r : EReal)) :
    ∃ r : ℝ, ∑ i ∈ S, f i = (r : EReal) := by
  classical
  induction S using Finset.induction_on with
  | empty => exact ⟨0, by simp⟩
  | insert a S ha ih =>
    obtain ⟨r, hr⟩ := h a (Finset.mem_insert_self a S)
    obtain ⟨q, hq⟩ := ih (fun i hi => h i (Finset.mem_insert_of_mem hi))
    exact ⟨r + q, by rw [Finset.sum_insert ha, hr, hq, EReal.coe_add]⟩

/-- `tanh` of any extended real is a real number (`−1` and `1` at the infinities). -/
theorem tanh_real (x : EReal) : ∃ r : ℝ, Ideal.tanh x = (r : EReal) := by
  induction x using EReal.rec with
  | bot => exact ⟨-1, by rw [Ideal.tanh_bot, EReal.coe_neg, EReal.coe_one]⟩
  | top => exact ⟨1, by rw [Ideal.tanh_top, EReal.coe_one]⟩
  | coe r => exact ⟨Real.tanh r, Ideal.tanh_coe r⟩

/-- The greatest of a nonempty finite family of reals, folded from a start value below `⊤`, is a real number. -/
theorem fold_max_real {ι : Type} (S : Finset ι) (hS : S.Nonempty) (c : EReal) (hc : c < ⊤) (z : ι → EReal)
    (hz : ∀ i ∈ S, ∃ r : ℝ, z i = (r : EReal)) : ∃ r : ℝ, S.fold max c z = (r : EReal) := by
  have hlt : S.fold max c z < ⊤ := by
    rw [Finset.fold_max_lt]
    exact ⟨hc, fun x hx => by obtain ⟨r, hr⟩ := hz x hx; rw [hr]; exact EReal.coe_lt_top _⟩
  have hgt : ⊥ < S.fold max c z := by
    obtain ⟨i, hi⟩ := hS
    have h0 : z i ≤ S.fold max c z := by
      rw [Finset.le_fold_max]
      exact Or.inr ⟨i, hi, le_rfl⟩
    obtain ⟨r, hr⟩ := hz i hi
    exact lt_of_lt_of_le (by rw [hr]; exact EReal.bot_lt_coe _) h0
  exact ⟨(S.fold max c z).toReal, (EReal.coe_toReal hlt.ne hgt.ne').symm⟩

/-- For real logits and a real shift the sum of the exponentials over a nonempty finite set is positive. -/
theorem sum_exp_sub_pos {ι : Type} (S : Finset ι) (hS : S.Nonempty) (z : ι → EReal) (M : EReal)
    (hz : ∀ i ∈ S, ∃ r : ℝ, z i = (r : EReal)) (hM : ∃ r : ℝ, M = (r : EReal)) :
    (0 : EReal) < ∑ i ∈ S, Ideal.exp (z i - M) := by
  obtain ⟨mr, rfl⟩ := hM
  have hw : ∀ i ∈ S, ∃ q : ℝ, 0 < q ∧ Ideal.exp (z i - (mr : EReal)) = (q : EReal) := fun i hi => by
    obtain ⟨r, hr⟩ := hz i hi
    exact ⟨Real.exp (r - mr), Real.exp_pos _, by rw [hr, ← EReal.coe_sub]; exact Ideal.exp_coe _⟩
  obtain ⟨i0, hi0⟩ := hS
  refine lt_of_lt_of_le ?_ (Finset.single_le_sum (f := fun i => Ideal.exp (z i - (mr : EReal))) (fun i hi => ?_) hi0)
  · obtain ⟨q, hq, e⟩ := hw i0 hi0
    show (0 : EReal) < Ideal.exp (z i0 - (mr : EReal))
    rw [e]; exact EReal.coe_pos.mpr hq
  · obtain ⟨q, hq, e⟩ := hw i hi
    show (0 : EReal) ≤ Ideal.exp (z i - (mr : EReal))
    rw [e]; exact EReal.coe_nonneg.mpr hq.le

/-- Off `w = 0` the product with the reciprocal is the quotient. -/
theorem mul_div_one_eq_div (a w : EReal) (hw : w ≠ 0) : a * Ideal.div 1 w = Ideal.div a w := by
  rw [Ideal.div, if_neg hw, Ideal.div, if_neg hw, one_mul]

/-- On real logits the softmax as a product with the reciprocal of the sum is the softmax as a quotient by the sum; the
    shift is the fold of `max` from any start value below `⊤` (a program's `−∞`). -/
theorem softmax_recip_eq_quot {ι : Type} (S : Finset ι) (hS : S.Nonempty) (c : EReal) (hc : c < ⊤) (z : ι → EReal)
    (hz : ∀ i ∈ S, ∃ r : ℝ, z i = (r : EReal)) (u : ι) :
    Ideal.exp (z u - S.fold max c z) * Ideal.div 1 (∑ i ∈ S, Ideal.exp (z i - S.fold max c z))
      = Ideal.div (Ideal.exp (z u - S.fold max c z)) (∑ i ∈ S, Ideal.exp (z i - S.fold max c z)) :=
  mul_div_one_eq_div _ _ (sum_exp_sub_pos S hS z _ hz (fold_max_real S hS c hc z hz)).ne'

end Cert.Lib.SoftmaxReal

end
-- ==== Proof.Algebra.lean ====
/-
  On real data the kernel's row-by-row online softmax equals the reference's one-shot softmax.

  Every logit of a row is a real number (a finite sum of products of reals, passed through two two-way choices between
  reals). The reference's row maximum is then a real M, its weights are exp (s j − M) / Σ exp (s j' − M). The kernel's
  running maximum is a real after every tile, and its running denominator and numerator follow the recurrences of the
  online softmax over the four disjoint tiles of 2048 columns that cover the row; the final quotient is therefore the
  same softmax-weighted sum, whatever the reference points were. The two spellings of elu agree at every extended real.
-/
import Idealize.ShloMosaic.PureOps.Ideal
import proofs.«125599_j41618233098759_2_alg».proof.Proof.Spec
import proofs.«125599_j41618233098759_2_alg».proof.Proof.LibOnlineSoftmax
import proofs.«125599_j41618233098759_2_alg».proof.Proof.LibSoftmaxReal

noncomputable section

namespace Cert.Algebra

open Idealize.ShloMosaic Cert.Spec

/-! ## The literals -/

theorem ZERO_eq : ZERO = (0 : EReal) := by simp [ZERO, Ideal.ofBits, Ideal.ieee]
theorem ONE_eq : ONE = (1 : EReal) := Cert.Lib.SoftmaxReal.ofBits_one_f32
theorem NINF_eq : NINF = (⊥ : EReal) := Cert.Lib.SoftmaxReal.ofBits_negInf_f32

/-- The stand-in for a masked logit is a (large negative) real number. -/
theorem NEG_real : ∃ r : ℝ, NEG = (r : EReal) := by
  simp [NEG, Ideal.ofBits, Ideal.ieee, -EReal.coe_mul]
  exact ⟨_, (EReal.coe_neg _).symm⟩

/-- The slope of the leaky rectifier is a real number. -/
theorem SLOPE_real : ∃ r : ℝ, SLOPE = (r : EReal) := by
  simp [SLOPE, Ideal.ofBits, Ideal.ieee, -EReal.coe_mul]

/-! ## A choice on a comparison is an if-then-else on the order -/

theorem sel_cmp (p : Prop) [Decidable p] (a b : EReal) :
    Scalar.select (BitVec.ofBool (decide p)) a b = if p then a else b := by
  by_cases h : p <;> simp [h, Scalar.select]

theorem sel_oge (e z a b : EReal) :
    Scalar.select (FloatOps.cmpf (F := Ideal) (φ := .f32) .oge e z) a b = if z ≤ e then a else b :=
  sel_cmp _ a b
theorem sel_ogt (e z a b : EReal) :
    Scalar.select (FloatOps.cmpf (F := Ideal) (φ := .f32) .ogt e z) a b = if z < e then a else b :=
  sel_cmp _ a b
theorem sel_oeq (e z a b : EReal) :
    Scalar.select (FloatOps.cmpf (F := Ideal) (φ := .f32) .oeq e z) a b = if e = z then a else b :=
  sel_cmp _ a b

/-- The two spellings of elu agree everywhere: above zero both are the argument, elsewhere both are exp − 1. -/
theorem elu_eq (z : EReal) : eluKer z = eluRef z := by
  unfold eluKer eluRef
  rw [sel_ogt, sel_ogt, sel_ogt]
  by_cases h : ZERO < z
  · rw [if_pos h, if_pos h]
  · rw [if_neg h, if_neg h, if_neg h, ONE_eq, one_mul]; rfl

/-! ## Coercion of finite sums and of max -/

theorem coe_sum {ι : Type*} (S : Finset ι) (f : ι → ℝ) :
    ((∑ k ∈ S, f k : ℝ) : EReal) = ∑ k ∈ S, (f k : EReal) := by
  classical
  induction S using Finset.induction_on with
  | empty => simp
  | insert a S ha ih => rw [Finset.sum_insert ha, Finset.sum_insert ha, EReal.coe_add, ih]

theorem coe_max (p q : ℝ) : max (p : EReal) (q : EReal) = ((max p q : ℝ) : EReal) :=
  (EReal.coe_strictMono.monotone.map_max).symm

/-! ## Every logit is real -/

section Real

variable (x : Fin 8192 → Fin 512 → EReal) (adj : Fin 8192 → Fin 8192 → EReal) (W : Fin 512 → Fin 256 → EReal)
  (a : Fin 512 → EReal)
  (hx : ∀ i k, ∃ r : ℝ, x i k = (r : EReal)) (hW : ∀ k c, ∃ r : ℝ, W k c = (r : EReal))
  (ha : ∀ k, ∃ r : ℝ, a k = (r : EReal))

include hx hW in
theorem hm_real (i : Fin 8192) (c : Fin 256) : ∃ r : ℝ, hm x W i c = (r : EReal) :=
  Cert.Lib.SoftmaxReal.exists_real_sum _ _ fun k _ => by
    obtain ⟨p, hp⟩ := hx i k
    obtain ⟨q, hq⟩ := hW k c
    exact ⟨p * q, by rw [hp, hq, EReal.coe_mul]⟩

include hx hW ha in
theorem attL_real (i : Fin 8192) : ∃ r : ℝ, attL x W a i = (r : EReal) :=
  Cert.Lib.SoftmaxReal.exists_real_sum _ _ fun c _ => by
    obtain ⟨p, hp⟩ := hm_real x W hx hW i c
    obtain ⟨q, hq⟩ := ha ⟨c.val, by omega⟩
    exact ⟨p * q, by rw [hp, hq, EReal.coe_mul]⟩

include hx hW ha in
theorem attR_real (j : Fin 8192) : ∃ r : ℝ, attR x W a j = (r : EReal) :=
  Cert.Lib.SoftmaxReal.exists_real_sum _ _ fun c _ => by
    obtain ⟨p, hp⟩ := hm_real x W hx hW j c
    obtain ⟨q, hq⟩ := ha ⟨256 + c.val, by omega⟩
    exact ⟨p * q, by rw [hp, hq, EReal.coe_mul]⟩

/-- The leaky rectifier of a real is real: either the argument or the slope times it. -/
theorem lrelu_real (e : ℝ) : ∃ r : ℝ, lrelu (e : EReal) = (r : EReal) := by
  unfold lrelu
  rw [sel_oge]
  split_ifs
  · exact ⟨e, rfl⟩
  · obtain ⟨sl, hsl⟩ := SLOPE_real
    exact ⟨sl * e, by rw [hsl, EReal.coe_mul]⟩

include hx hW ha in
/-- Every masked logit is real: the stand-in, or the rectified sum of the two scores. -/
theorem score_real (i j : Fin 8192) : ∃ r : ℝ, score x adj W a i j = (r : EReal) := by
  unfold score
  rw [sel_oeq]
  split_ifs
  · exact NEG_real
  · obtain ⟨p, hp⟩ := attL_real x W a hx hW ha i
    obtain ⟨q, hq⟩ := attR_real x W a hx hW ha j
    rw [hp, hq, ← EReal.coe_add]
    exact lrelu_real _

end Real

/-! ## The four tiles -/

theorem col_inj (n : ℕ) : Function.Injective (col n) := by
  intro q1 q2 h
  have h' := congrArg Fin.val h
  simp only [col] at h'
  ext
  omega

/-- The columns of tile n; beyond the fourth tile there are none. -/
def tile (n : ℕ) : Finset (Fin 8192) := if n < 4 then Finset.univ.image (col n) else ∅

theorem tile_disjoint (m n : ℕ) (h : m ≠ n) : Disjoint (tile m) (tile n) := by
  unfold tile
  split_ifs with hm hn
  · rw [Finset.disjoint_left]
    intro k h1 h2
    obtain ⟨q1, -, e1⟩ := Finset.mem_image.mp h1
    obtain ⟨q2, -, e2⟩ := Finset.mem_image.mp h2
    have h' := congrArg Fin.val (e1.trans e2.symm)
    simp only [col] at h'
    omega
  all_goals simp

/-- The four tiles cover the row: column k is position k mod 2048 of tile k / 2048. -/
theorem seen_tile : OnlineSoftmax.seen tile 4 = Finset.univ := by
  ext k
  simp only [OnlineSoftmax.seen, Finset.mem_biUnion, Finset.mem_range, Finset.mem_univ, iff_true]
  have hk : k.val / 2048 < 4 := by omega
  refine ⟨k.val / 2048, hk, ?_⟩
  rw [tile, if_pos hk]
  refine Finset.mem_image.mpr ⟨⟨k.val % 2048, by omega⟩, Finset.mem_univ _, ?_⟩
  ext
  simp only [col]
  omega

theorem sum_tile (n : ℕ) (hn : n < 4) (f : Fin 8192 → ℝ) : ∑ k ∈ tile n, f k = ∑ q : Fin 2048, f (col n q) := by
  rw [tile, if_pos hn, Finset.sum_image (fun p _ q _ h => col_inj n h)]

/-! ## The kernel's running quantities as real sequences -/

/-- The rescaling coefficient used when tile n is added: nothing has been accumulated before the first tile. -/
def aR (μ : ℕ → ℝ) : ℕ → ℝ
  | 0 => 0
  | n + 1 => Real.exp (μ (n + 1) - μ (n + 2))

def lR (s : Fin 8192 → ℝ) (μ : ℕ → ℝ) : ℕ → ℝ
  | 0 => 0
  | n + 1 => aR μ n * lR s μ n + OnlineSoftmax.den s (tile n) (μ (n + 1))

def accR (s v : Fin 8192 → ℝ) (μ : ℕ → ℝ) : ℕ → ℝ
  | 0 => 0
  | n + 1 => aR μ n * accR s v μ n + OnlineSoftmax.num s v (tile n) (μ (n + 1))

/-- Before the first tile both accumulators are zero, so its coefficient may as well be the exponential. -/
theorem aR_mul_lR (s : Fin 8192 → ℝ) (μ : ℕ → ℝ) (n : ℕ) :
    aR μ n * lR s μ n = Real.exp (μ n - μ (n + 1)) * lR s μ n := by
  cases n with
  | zero => simp [lR, aR]
  | succ n => rfl

theorem aR_mul_accR (s v : Fin 8192 → ℝ) (μ : ℕ → ℝ) (n : ℕ) :
    aR μ n * accR s v μ n = Real.exp (μ n - μ (n + 1)) * accR s v μ n := by
  cases n with
  | zero => simp [accR, aR]
  | succ n => rfl

section Row

variable (x : Fin 8192 → Fin 512 → EReal) (adj : Fin 8192 → Fin 8192 → EReal) (W : Fin 512 → Fin 256 → EReal)
  (a : Fin 512 → EReal) (i : Fin 8192) (c : Fin 256) (s v : Fin 8192 → ℝ)
  (hs : ∀ j, score x adj W a i j = (s j : EReal)) (hv : ∀ j, hm x W j c = (v j : EReal))

include hs in
/-- The running maximum is real after every tile. -/
theorem kM_real : ∀ n, ∃ r : ℝ, kM x adj W a i n = (r : EReal)
  | 0 => NEG_real
  | n + 1 => by
    obtain ⟨r, hr⟩ := kM_real n
    obtain ⟨t, ht⟩ := Cert.Lib.SoftmaxReal.fold_max_real (Finset.univ : Finset (Fin 2048)) Finset.univ_nonempty NINF
      (by rw [NINF_eq]; exact bot_lt_top) (fun q => score x adj W a i (col n q)) (fun q _ => ⟨_, hs _⟩)
    exact ⟨max r t, by rw [kM, hr, ht, coe_max]⟩

variable (μ : ℕ → ℝ) (hμ : ∀ n, kM x adj W a i n = (μ n : EReal))

include hs hμ in
theorem kL_eq : ∀ n, n ≤ 4 → kL x adj W a i n = (lR s μ n : EReal)
  | 0, _ => ZERO_eq.trans EReal.coe_zero.symm
  | n + 1, h => by
    have ih := kL_eq n (by omega)
    rw [kL, hμ, hμ, ih]
    simp only [hs, ← EReal.coe_sub, Ideal.exp_coe]
    rw [← coe_sum, ← EReal.coe_mul, ← EReal.coe_add, lR, aR_mul_lR, OnlineSoftmax.den, sum_tile n (by omega)]

include hs hv hμ in
theorem kAcc_eq : ∀ n, n ≤ 4 → kAcc x adj W a i c n = (accR s v μ n : EReal)
  | 0, _ => ZERO_eq.trans EReal.coe_zero.symm
  | n + 1, h => by
    have ih := kAcc_eq n (by omega)
    rw [kAcc, hμ, hμ, ih]
    simp only [hs, hv, ← EReal.coe_sub, Ideal.exp_coe, ← EReal.coe_mul]
    rw [← coe_sum, ← EReal.coe_add, accR, aR_mul_accR, OnlineSoftmax.num, sum_tile n (by omega)]

include hs hv in
/-- The kernel's final quotient is the reference's softmax-weighted sum. -/
theorem div_eq_refAgg : Ideal.div (kAcc x adj W a i c 4) (kL x adj W a i 4) = refAgg x adj W a i c := by
  choose μ hμ using kM_real x adj W a i s hs
  -- the reference's maximum is a real M
  obtain ⟨M, hM⟩ := Cert.Lib.SoftmaxReal.fold_max_real (Finset.univ : Finset (Fin 8192)) Finset.univ_nonempty NINF
    (by rw [NINF_eq]; exact bot_lt_top) (fun j => score x adj W a i j) (fun j _ => ⟨_, hs _⟩)
  have hMax : refMax x adj W a i = (M : EReal) := by
    rw [refMax, hM, NINF_eq]; exact max_eq_right bot_le
  -- the online softmax over the four tiles
  have hrun := OnlineSoftmax.run_result s v tile tile_disjoint (fun j => μ (j + 1)) (aR μ) (lR s μ) (accR s v μ) rfl
    (fun _ => rfl) (fun _ => rfl) (fun _ => rfl) 3 Finset.univ_nonempty seen_tile M
  have hl4 := (OnlineSoftmax.run s v tile tile_disjoint (fun j => μ (j + 1)) (aR μ) (lR s μ) (accR s v μ) rfl
    (fun _ => rfl) (fun _ => rfl) (fun _ => rfl) 3).1
  have hlpos : 0 < lR s μ 4 := by
    rw [hl4, seen_tile]; exact OnlineSoftmax.den_pos s Finset.univ_nonempty _
  have hD : 0 < ∑ j : Fin 8192, Real.exp (s j - M) := Finset.sum_pos (fun _ _ => Real.exp_pos _) Finset.univ_nonempty
  -- the reference side, as the coercion of a real sum
  have hP : ∀ j, refP x adj W a i j = ((Real.exp (s j - M) : ℝ) : EReal) := fun j => by
    rw [refP, hs, hMax, ← EReal.coe_sub, Ideal.exp_coe]
  have hDen : refDen x adj W a i = ((∑ j : Fin 8192, Real.exp (s j - M) : ℝ) : EReal) := by
    rw [refDen, coe_sum]; exact Finset.sum_congr rfl fun j _ => hP j
  rw [kAcc_eq x adj W a i c s v hs hv μ hμ 4 le_rfl, kL_eq x adj W a i s hs μ hμ 4 le_rfl, Ideal.div_coe hlpos.ne',
    ← EReal.coe_mul, refAgg]
  simp only [hP, hDen, hv, Ideal.div_coe hD.ne', ← EReal.coe_mul]
  rw [← coe_sum, mul_one_div, hrun]
  congr 1
  exact Finset.sum_congr rfl fun k _ => by rw [mul_one_div]

end Row

/-! ## The theorem -/

theorem kerOut_eq_refOut (x : Fin 8192 → Fin 512 → EReal) (adj : Fin 8192 → Fin 8192 → EReal)
    (W : Fin 512 → Fin 256 → EReal) (a : Fin 512 → EReal)
    (hx : ∀ i k, ∃ r : ℝ, x i k = (r : EReal)) (hW : ∀ k c, ∃ r : ℝ, W k c = (r : EReal))
    (ha : ∀ k, ∃ r : ℝ, a k = (r : EReal))
    (i : Fin 8192) (c : Fin 256) : Cert.Spec.kerOut x adj W a i c = Cert.Spec.refOut x adj W a i c := by
  choose s hs using score_real x adj W a hx hW ha i
  choose v hv using fun j => hm_real x W hx hW j c
  rw [kerOut, refOut, div_eq_refAgg x adj W a i c s v hs hv]
  exact elu_eq _

end Cert.Algebra

end
-- ==== Proof.Finite.lean ====
import proofs.«125599_j41618233098759_2_alg».proof.Defs
import proofs.«125599_j41618233098759_2_alg».proof.Proof.Gen.Pre_finite_inputs
import Idealize.ShloMosaic.Lib.ReduceAll
import Idealize.ShloMosaic.Lib.IdealHost
import Idealize.ShloMosaic.Lib.ValueIdx
import Idealize.ShloMosaic.PureOps.Ideal.Laws

/-!
# From the finiteness precondition to real entries

The precondition says that, for each of the four argument arrays, the conjunction over all
entries of the test "the absolute value is strictly below plus infinity" is true.  At the
ideal instance an entry is an extended real, its absolute value is the maximum of the entry and
its negation, and the pattern the test compares against denotes the top element.  So the
test fails exactly at the two infinite elements, and an entry that passes it is the image of a
real number.
-/

noncomputable section

namespace Cert.Finite

open Idealize.ShloMosaic Idealize.SL.Sem Idealize.ShloMosaic.ValueIdx

/-- The result shape of a reduction over every axis has exactly one index. -/
instance subsingleton_scalar_idx : Subsingleton Cert.Pre_finite_inputs.S_.Idx :=
  ⟨fun a b => funext fun d => d.elim0⟩

/-- An extended real whose absolute value (the maximum of it and its negation) is strictly below
the value of the plus-infinity pattern is a real number. -/
theorem real_of_abs_lt_top (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

/-- One conjunct of the precondition, decoded: if the conjunction over all entries of the test
is true, every entry is real. -/
theorem real_of_all {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
        (cmpf .olt (Host.absf x) (broadcastInDim s ![] hb (constant (F := Ideal) Cert.Pre_finite_inputs.S_ .f32 0x7F800000#32)))
        (constantI Cert.Pre_finite_inputs.S_ 1 1#1) hr hu ix0 = 1#1) (i : s.Idx) :
    ∃ r : ℝ, x i = (r : EReal) := by
  have h1 := Host.reduce_andi_all _ _ hr hu ix0 e i
  exact real_of_abs_lt_top (x i) h1

/-- Under the precondition every entry of the first, third and fourth argument arrays is a real
number: the precondition is the four-fold conjunction of the per-array tests, and each array's
conjunct decodes entry by entry. -/
theorem real_of_pre [hPre : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
    ∧ (∀ i, ∃ r : ℝ, m ((c.tc : Thread Cert.KernelIdeal.nD Cert.KernelIdeal.τ).loc Cert.KernelIdeal.main_arg2) i = (r : EReal))
    ∧ (∀ i, ∃ r : ℝ, m ((c.tc : Thread Cert.KernelIdeal.nD Cert.KernelIdeal.τ).loc Cert.KernelIdeal.main_arg3) i = (r : EReal)) := by
  have h0 := congrFun (h c) ix0
  dsimp only [Cert.Pre_finite_inputs.fn, Cert.Pre_finite_inputs.fn_part1] at h0
  -- the vector conjunction at the single index is the conjunction of the elements
  have h1 : IntOp.andi (IntOp.andi (IntOp.andi _ _) _) _ = 1#1 := h0
  obtain ⟨h012, h3⟩ := IntOp.andi_eq_one.1 h1
  obtain ⟨h01, h2⟩ := IntOp.andi_eq_one.1 h012
  obtain ⟨h00, _⟩ := IntOp.andi_eq_one.1 h01
  exact ⟨fun i => real_of_all _ _ _ _ h00 i, fun i => real_of_all _ _ _ _ h2 i, fun i => real_of_all _ _ _ _ h3 i⟩

end Cert.Finite

end
-- ==== Proof.lean ====
/-
  The certificate's five claims for the graph-attention kernel against its reference.

  Both kernel programs (the word-level one and its reading over the extended reals) run the same way: two stretches of
  host operations around two kernel regions, the second region carrying a running maximum, denominator and numerator
  across the four column tiles of each row block; the run's proof is written once for an arbitrary float instance and
  used at both. The reference is a straight line of host operations. Over the extended reals the kernel's result array is
  the online-softmax form of the specification and the reference's is the one-pass softmax form; on finite inputs the
  two are equal because moving a softmax's reference point multiplies numerator and denominator by the same positive
  factor, so every reference point gives the same quotient.
-/
import proofs.«125599_j41618233098759_2_alg».proof.Defs
import proofs.«125599_j41618233098759_2_alg».proof.Proof.Gen.Kernel
import proofs.«125599_j41618233098759_2_alg».proof.Proof.Gen.KernelIdeal
import proofs.«125599_j41618233098759_2_alg».proof.Proof.Gen.ReferenceIdeal
import proofs.«125599_j41618233098759_2_alg».proof.Proof.Gen.Pre_finite_inputs
import proofs.«125599_j41618233098759_2_alg».proof.Proof.BKRun
import proofs.«125599_j41618233098759_2_alg».proof.Proof.BK0Body
import proofs.«125599_j41618233098759_2_alg».proof.Proof.BK1Body
import proofs.«125599_j41618233098759_2_alg».proof.Proof.K0Body
import proofs.«125599_j41618233098759_2_alg».proof.Proof.K1Body
import proofs.«125599_j41618233098759_2_alg».proof.Proof.KRun
import proofs.«125599_j41618233098759_2_alg».proof.Proof.KVal
import proofs.«125599_j41618233098759_2_alg».proof.Proof.RefVal
import proofs.«125599_j41618233098759_2_alg».proof.Proof.Algebra
import proofs.«125599_j41618233098759_2_alg».proof.Proof.Finite
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_k : Cert.frame_Kernel := fun m ρ _ =>
  Cert.Kernel.Hand.frame (F := Bits) m (fun V c => Cert.Kernel.Hand.body_obligation0 V c)
    (fun V c => Cert.Kernel.Hand.body_obligation1 V c) (fun V c => Cert.Kernel.Hand.hin1 V c)
    (fun V c => Cert.Kernel.Hand.hout1 V c) ρ

/-- So does its reading over the extended reals. -/
theorem frame_ki : Cert.frame_KernelIdeal := fun m ρ _ =>
  Cert.KernelIdeal.Hand.frame (F := Ideal) m (fun V c => Cert.KernelIdeal.Hand.body_obligation0 V c)
    (fun V c => Cert.KernelIdeal.Hand.body_obligation1 V c) (fun V c => Cert.KernelIdeal.Hand.hin1 V c)
    (fun V c => Cert.KernelIdeal.Hand.hout1 V c) ρ

/-- The reference's frame is its run with the result dropped. -/
theorem frame_ri : Cert.frame_ReferenceIdeal := fun m ρ _ =>
  (θ_run Cert.ReferenceIdeal.defs _ _).mono (fun _ h c => (h c).2) (Cert.ReferenceIdeal.Hand.run_value m ρ)

/-- The ideal pass rewrote nothing. -/
theorem preserves : Cert.preserves_Kernel_KernelIdeal := trivial

/-- Over the extended reals, from memories agreeing on finite arguments, the kernel's result (the online-softmax form)
    and the reference's (the one-pass form) are the same array. -/
theorem algebraic : Cert.algebraic_KernelIdeal_ReferenceIdeal := by
  intro m ρ m' ρ' hpre hagree
  refine ⟨fun c => Cert.Spec.kerArr (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Hand.run_value m (fun V c => Cert.KernelIdeal.Hand.body_obligation1 V c)
      (fun V c => Cert.KernelIdeal.Hand.hin1 V c) (fun V c => Cert.KernelIdeal.Hand.hout1 V c) ρ, ?_⟩
  refine (θ_run Cert.ReferenceIdeal.defs _ _).mono (fun _ h c => ⟨(h c).1.trans ?_, (h c).2⟩)
    (Cert.ReferenceIdeal.Hand.run_value m' ρ')
  rw [(hagree c).1, (hagree c).2.1, (hagree c).2.2.1, (hagree c).2.2.2]
  obtain ⟨hx, hW, ha⟩ := Cert.Finite.real_of_pre m hpre c
  funext j
  exact (Cert.Algebra.kerOut_eq_refOut _ _ _ _ (fun i k => hx _) (fun k c' => hW _) (fun k => ha _) _ _).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
